-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400x3 : Shape := ⟨2, ![400, 3]⟩
abbrev S6400 : Shape := ⟨1, ![6400]⟩
abbrev S5x160000 : Shape := ⟨2, ![5, 160000]⟩
abbrev S3x5 : Shape := ⟨2, ![3, 5]⟩
abbrev S5 : Shape := ⟨1, ![5]⟩
abbrev S160000x400 : Shape := ⟨2, ![160000, 400]⟩
abbrev S400 : Shape := ⟨1, ![400]⟩
abbrev S400x512 : Shape := ⟨2, ![400, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S400x3 : S_.BroadcastsInDim S400x3 (![] : Fin 0 → Fin S400x3.rank)
  reducesTo_S400x3_S_d0_1 : S400x3.ReducesTo [0, 1] S_
  h_S_ : 0 < S_.numel
  bcast_S_S5x160000 : S_.BroadcastsInDim S5x160000 (![] : Fin 0 → Fin S5x160000.rank)
  reducesTo_S5x160000_S_d0_1 : S5x160000.ReducesTo [0, 1] S_
  bcast_S_S3x5 : S_.BroadcastsInDim S3x5 (![] : Fin 0 → Fin S3x5.rank)
  reducesTo_S3x5_S_d0_1 : S3x5.ReducesTo [0, 1] S_
  bcast_S_S5 : S_.BroadcastsInDim S5 (![] : Fin 0 → Fin S5.rank)
  reducesTo_S5_S_d0 : S5.ReducesTo [0] S_
  bcast_S_S160000x400 : S_.BroadcastsInDim S160000x400 (![] : Fin 0 → Fin S160000x400.rank)
  reducesTo_S160000x400_S_d0_1 : S160000x400.ReducesTo [0, 1] S_
  bcast_S_S400 : S_.BroadcastsInDim S400 (![] : Fin 0 → Fin S400.rank)
  reducesTo_S400_S_d0 : S400.ReducesTo [0] S_
  bcast_S_S400x512 : S_.BroadcastsInDim S400x512 (![] : Fin 0 → Fin S400x512.rank)
  reducesTo_S400x512_S_d0_1 : S400x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S512 .f32) (main_arg14 : FVec F S512x64 .f32) (main_arg15 : FVec F S64 .f32) (main_arg16 : FVec F S64x1 .f32) (main_arg17 : FVec F S1 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x64 .f32 := Host.absf main_arg14
  let main_cst_22 : FVec F S_ .f32 := constant S_ .f32 0x7F800000#32
  let main_v60 : FVec F S512x64 .f32 := broadcastInDim S512x64 ![] bcast_S_S512x64 main_cst_22
  let main_v61 : IVec S512x64 1 := cmpf .olt main_v59 main_v60
  let main_c_23 : IVec S_ 1 := constantI S_ 1 1#1
  let main_v62 : IVec S_ 1 := (fun x v => Host.reduce IntOp.andi x v reducesTo_S512x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S512 .f32) (main_arg10 : FVec F S512x1024 .f32) (main_arg11 : FVec F S1024 .f32) (main_arg12 : FVec F S1024x512 .f32) (main_arg13 : FVec F S512 .f32) (main_arg14 : FVec F S512x64 .f32) (main_arg15 : FVec F S64 .f32) (main_arg16 : FVec F S64x1 .f32) (main_arg17 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1024 .f32 := Host.absf main_arg10
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x512 .f32 := Host.absf main_arg12
  let main_cst_18 : FVec F S_ .f32 := constant S_ .f32 0x7F800000#32
  let main_v50 : FVec F S1024x512 .f32 := broadcastInDim S1024x512 ![] bcast_S_S1024x512 main_cst_18
  fn_part3 (F := F) main_arg13 main_arg14 main_arg15 main_arg16 main_arg17 main_v48 main_v49 main_v50

def fn_part1 {F : FTy → Type} [FloatOps F] (main_arg6 : FVec F S160000x400 .f32) (main_arg7 : FVec F S400 .f32) (main_arg8 : FVec F S400x512 .f32) (main_arg9 : FVec F S512 .f32) (main_arg10 : FVec F S512x1024 .f32) (main_arg11 : FVec F S1024 .f32) (main_arg12 : FVec F S1024x512 .f32) (main_arg13 : FVec F S512 .f32) (main_arg14 : FVec F S512x64 .f32) (main_arg15 : FVec F S64 .f32) (main_arg16 : FVec F S64x1 .f32) (main_arg17 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S160000x400 .f32 := Host.absf main_arg6
  let main_cst_6 : FVec F S_ .f32 := constant S_ .f32 0x7F800000#32
  let main_v20 : FVec F S160000x400 .f32 := broadcastInDim S160000x400 ![] bcast_S_S160000x400 main_cst_6
  let main_v21 : IVec S160000x400 1 := cmpf .olt main_v19 main_v20
  let main_c_7 : IVec S_ 1 := constantI S_ 1 1#1
  let main_v22 : IVec S_ 1 := (fun x v => Host.reduce IntOp.andi x v reducesTo_S160000x400_S_d0_1 h_S_) main_v21 main_c_7
  let main_v23 : IVec S_ 1 := andi main_v18 main_v22
  let main_v24 : FVec F S400 .f32 := Host.absf main_arg7
  let main_cst_8 : FVec F S_ .f32 := constant S_ .f32 0x7F800000#32
  let main_v25 : FVec F S400 .f32 := broadcastInDim S400 ![] bcast_S_S400 main_cst_8
  let main_v26 : IVec S400 1 := cmpf .olt main_v24 main_v25
  let main_c_9 : IVec S_ 1 := constantI S_ 1 1#1
  let main_v27 : IVec S_ 1 := (fun x v => Host.reduce IntOp.andi x v reducesTo_S400_S_d0 h_S_) main_v26 main_c_9
  let main_v28 : IVec S_ 1 := andi main_v23 main_v27
  let main_v29 : FVec F S400x512 .f32 := Host.absf main_arg8
  let main_cst_10 : FVec F S_ .f32 := constant S_ .f32 0x7F800000#32
  let main_v30 : FVec F S400x512 .f32 := broadcastInDim S400x512 ![] bcast_S_S400x512 main_cst_10
  let main_v31 : IVec S400x512 1 := cmpf .olt main_v29 main_v30
  let main_c_11 : IVec S_ 1 := constantI S_ 1 1#1
  let main_v32 : IVec S_ 1 := (fun x v => Host.reduce IntOp.andi x v reducesTo_S400x512_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S400x3 .f32) (main_arg1 : IVec S6400 32) (main_arg2 : IVec S6400 32) (main_arg3 : FVec F S5x160000 .f32) (main_arg4 : FVec F S3x5 .f32) (main_arg5 : FVec F S5 .f32) (main_arg6 : FVec F S160000x400 .f32) (main_arg7 : FVec F S400 .f32) (main_arg8 : FVec F S400x512 .f32) (main_arg9 : FVec F S512 .f32) (main_arg10 : FVec F S512x1024 .f32) (main_arg11 : FVec F S1024 .f32) (main_arg12 : FVec F S1024x512 .f32) (main_arg13 : FVec F S512 .f32) (main_arg14 : FVec F S512x64 .f32) (main_arg15 : FVec F S64 .f32) (main_arg16 : FVec F S64x1 .f32) (main_arg17 : FVec F S1 .f32) : IVec S_ 1 :=
  let main_v0 : FVec F S400x3 .f32 := Host.absf main_arg0
  let main_cst : FVec F S_ .f32 := constant S_ .f32 0x7F800000#32
  let main_v1 : FVec F S400x3 .f32 := broadcastInDim S400x3 ![] bcast_S_S400x3 main_cst
  let main_v2 : IVec S400x3 1 := cmpf .olt main_v0 main_v1
  let main_c : IVec S_ 1 := constantI S_ 1 1#1
  let main_v3 : IVec S_ 1 := (fun x v => Host.reduce IntOp.andi x v reducesTo_S400x3_S_d0_1 h_S_) main_v2 main_c
  let main_v4 : FVec F S5x160000 .f32 := Host.absf main_arg3
  let main_cst_0 : FVec F S_ .f32 := constant S_ .f32 0x7F800000#32
  let main_v5 : FVec F S5x160000 .f32 := broadcastInDim S5x160000 ![] bcast_S_S5x160000 main_cst_0
  let main_v6 : IVec S5x160000 1 := cmpf .olt main_v4 main_v5
  let main_c_1 : IVec S_ 1 := constantI S_ 1 1#1
  let main_v7 : IVec S_ 1 := (fun x v => Host.reduce IntOp.andi x v reducesTo_S5x160000_S_d0_1 h_S_) main_v6 main_c_1
  let main_v8 : IVec S_ 1 := andi main_v3 main_v7
  let main_v9 : FVec F S3x5 .f32 := Host.absf main_arg4
  let main_cst_2 : FVec F S_ .f32 := constant S_ .f32 0x7F800000#32
  let main_v10 : FVec F S3x5 .f32 := broadcastInDim S3x5 ![] bcast_S_S3x5 main_cst_2
  let main_v11 : IVec S3x5 1 := cmpf .olt main_v9 main_v10
  let main_c_3 : IVec S_ 1 := constantI S_ 1 1#1
  let main_v12 : IVec S_ 1 := (fun x v => Host.reduce IntOp.andi x v reducesTo_S3x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S400x3 : Shape := ⟨2, ![400, 3]⟩
abbrev S6400 : Shape := ⟨1, ![6400]⟩
abbrev S5x160000 : Shape := ⟨2, ![5, 160000]⟩
abbrev S3x5 : Shape := ⟨2, ![3, 5]⟩
abbrev S5 : Shape := ⟨1, ![5]⟩
abbrev S160000x400 : Shape := ⟨2, ![160000, 400]⟩
abbrev S400 : Shape := ⟨1, ![400]⟩
abbrev S400x512 : Shape := ⟨2, ![400, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩
abbrev S6400x1 : Shape := ⟨2, ![6400, 1]⟩
abbrev S400x1 : Shape := ⟨2, ![400, 1]⟩
abbrev S6400x3 : Shape := ⟨2, ![6400, 3]⟩
abbrev S400x5 : Shape := ⟨2, ![400, 5]⟩
abbrev S1x5 : Shape := ⟨2, ![1, 5]⟩
abbrev S6400x5 : Shape := ⟨2, ![6400, 5]⟩
abbrev S400x400 : Shape := ⟨2, ![400, 400]⟩
abbrev S5x3200 : Shape := ⟨2, ![5, 3200]⟩
abbrev S3200x400 : Shape := ⟨2, ![3200, 400]⟩
abbrev S400x3200 : Shape := ⟨2, ![400, 3200]⟩
abbrev S6400x400 : Shape := ⟨2, ![6400, 400]⟩
abbrev S1x400 : Shape := ⟨2, ![1, 400]⟩
abbrev S1x512 : Shape := ⟨2, ![1, 512]⟩
abbrev S400x1024 : Shape := ⟨2, ![400, 1024]⟩
abbrev S1x1024 : Shape := ⟨2, ![1, 1024]⟩
abbrev S400x64 : Shape := ⟨2, ![400, 64]⟩
abbrev S1x64 : Shape := ⟨2, ![1, 64]⟩
abbrev S1x1 : Shape := ⟨2, ![1, 1]⟩

abbrev nBuf : Space → Nat
  | .hbm => 167
  | .vmem => 9
  | .smem => 0
  | _ => 0

abbrev hbmTy0_0 (i : Nat) : BufTy := match i % 128 with
  | 0 => ⟨S400x3, .f32⟩
  | 1 => ⟨S6400, .i32⟩
  | 2 => ⟨S6400, .i32⟩
  | 3 => ⟨S5x160000, .f32⟩
  | 4 => ⟨S3x5, .f32⟩
  | 5 => ⟨S5, .f32⟩
  | 6 => ⟨S160000x400, .f32⟩
  | 7 => ⟨S400, .f32⟩
  | 8 => ⟨S400x512, .f32⟩
  | 9 => ⟨S512, .f32⟩
  | 10 => ⟨S512x1024, .f32⟩
  | 11 => ⟨S1024, .f32⟩
  | 12 => ⟨S1024x512, .f32⟩
  | 13 => ⟨S512, .f32⟩
  | 14 => ⟨S512x64, .f32⟩
  | 15 => ⟨S64, .f32⟩
  | 16 => ⟨S64x1, .f32⟩
  | 17 => ⟨S1, .f32⟩
  | 18 => ⟨S_, .f32⟩
  | 19 => ⟨S6400, .f32⟩
  | 20 => ⟨S_, .f32⟩
  | 21 => ⟨S400, .f32⟩
  | 22 => ⟨S6400x1, .i32⟩
  | 23 => ⟨S400, .f32⟩
  | 24 => ⟨S_, .f32⟩
  | 25 => ⟨S_, .f32⟩
  | 26 => ⟨S400, .f32⟩
  | 27 => ⟨S400, .f32⟩
  | 28 => ⟨S_, .f32⟩
  | 29 => ⟨S400, .f32⟩
  | 30 => ⟨S400, .f32⟩
  | 31 => ⟨S_, .f32⟩
  | 32 => ⟨S6400, .f32⟩
  | 33 => ⟨S_, .f32⟩
  | 34 => ⟨S400, .f32⟩
  | 35 => ⟨S6400x1, .i32⟩
  | 36 => ⟨S400, .f32⟩
  | 37 => ⟨S_, .f32⟩
  | 38 => ⟨S_, .f32⟩
  | 39 => ⟨S400, .f32⟩
  | 40 => ⟨S400, .f32⟩
  | 41 => ⟨S_, .f32⟩
  | 42 => ⟨S400, .f32⟩
  | 43 => ⟨S400, .f32⟩
  | 44 => ⟨S400x1, .f32⟩
  | 45 => ⟨S400x3, .f32⟩
  | 46 => ⟨S400x3, .f32⟩
  | 47 => ⟨S_, .i32⟩
  | 48 => ⟨S6400, .i32⟩
  | 49 => ⟨S6400, .i1⟩
  | 50 => ⟨S_, .i32⟩
  | 51 => ⟨S6400, .i32⟩
  | 52 => ⟨S6400, .i32⟩
  | 53 => ⟨S6400, .i32⟩
  | 54 => ⟨S6400x1, .i32⟩
  | 55 => ⟨S6400x3, .f32⟩
  | 56 => ⟨S_, .f32⟩
  | 57 => ⟨S400x3, .f32⟩
  | 58 => ⟨S6400x1, .i32⟩
  | 59 => ⟨S400x3, .f32⟩
  | 60 => ⟨S400x5, .f32⟩
  | 61 => ⟨S400x1, .f32⟩
  | 62 => ⟨S400x5, .f32⟩
  | 63 => ⟨S400x5, .f32⟩
  | 64 => ⟨S1x5, .f32⟩
  | 65 => ⟨S400x5, .f32⟩
  | 66 => ⟨S400x5, .f32⟩
  | 67 => ⟨S_, .f32⟩
  | 68 => ⟨S400x5, .f32⟩
  | 69 => ⟨S400x5, .i1⟩
  | 70 => ⟨S_, .f32⟩
  | 71 => ⟨S400x5, .f32⟩
  | 72 => ⟨S400x5, .f32⟩
  | 73 => ⟨S400x5, .f32⟩
  | 74 => ⟨S400x1, .f32⟩
  | 75 => ⟨S400x5, .f32⟩
  | 76 => ⟨S400x5, .f32⟩
  | 77 => ⟨S_, .i32⟩
  | 78 => ⟨S6400, .i32⟩
  | 79 => ⟨S6400, .i1⟩
  | 80 => ⟨S_, .i32⟩
  | 81 => ⟨S6400, .i32⟩
  | 82 => ⟨S6400, .i32⟩
  | 83 => ⟨S6400, .i32⟩
  | 84 => ⟨S6400x1, .i32⟩
  | 85 => ⟨S6400x5, .f32⟩
  | 86 => ⟨S_, .f32⟩
  | 87 => ⟨S400x5, .f32⟩
  | 88 => ⟨S6400x1, .i32⟩
  | 89 => ⟨S400x5, .f32⟩
  | 90 => ⟨S400x1, .f32⟩
  | 91 => ⟨S400x1, .f32⟩
  | 92 => ⟨S400x400, .f32⟩
  | 93 => ⟨S_, .i32⟩
  | 94 => ⟨S6400, .i32⟩
  | 95 => ⟨S6400, .i1⟩
  | 96 => ⟨S_, .i32⟩
  | 97 => ⟨S6400, .i32⟩
  | 98 => ⟨S6400, .i32⟩
  | 99 => ⟨S6400, .i32⟩
  | 100 => ⟨S6400x1, .i32⟩
  | 101 => ⟨S6400x400, .f32⟩
  | 102 => ⟨S_, .f32⟩
  | 103 => ⟨S400x400, .f32⟩
  | 104 => ⟨S6400x1, .i32⟩
  | 105 => ⟨S400x400, .f32⟩
  | 106 => ⟨S400x1, .f32⟩
  | 107 => ⟨S400x400, .f32⟩
  | 108 => ⟨S400x400, .f32⟩
  | 109 => ⟨S1x400, .f32⟩
  | 110 => ⟨S400x400, .f32⟩
  | 111 => ⟨S400x400, .f32⟩
  | 112 => ⟨S_, .f32⟩
  | 113 => ⟨S400x400, .f32⟩
  | 114 => ⟨S400x400, .i1⟩
  | 115 => ⟨S_, .f32⟩
  | 116 => ⟨S400x400, .f32⟩
  | 117 => ⟨S400x400, .f32⟩
  | 118 => ⟨S400x400, .f32⟩
  | 119 => ⟨S400x512, .f32⟩
  | 120 => ⟨S1x512, .f32⟩
  | 121 => ⟨S400x512, .f32⟩
  | 122 => ⟨S400x512, .f32⟩
  | 123 => ⟨S_, .f32⟩
  | 124 => ⟨S400x512, .f32⟩
  | 125 => ⟨S400x512, .i1⟩
  | 126 => ⟨S_, .f32⟩
  | 127 => ⟨S400x512, .f32⟩
  | _ => ⟨S400x3, .f32⟩

abbrev hbmTy0_1 (i : Nat) : BufTy := match i % 128 with
  | 0 => ⟨S400x512, .f32⟩
  | 1 => ⟨S400x512, .f32⟩
  | 2 => ⟨S400x1024, .f32⟩
  | 3 => ⟨S1x1024, .f32⟩
  | 4 => ⟨S400x1024, .f32⟩
  | 5 => ⟨S400x1024, .f32⟩
  | 6 => ⟨S_, .f32⟩
  | 7 => ⟨S400x1024, .f32⟩
  | 8 => ⟨S400x1024, .i1⟩
  | 9 => ⟨S_, .f32⟩
  | 10 => ⟨S400x1024, .f32⟩
  | 11 => ⟨S400x1024, .f32⟩
  | 12 => ⟨S400x1024, .f32⟩
  | 13 => ⟨S400x512, .f32⟩
  | 14 => ⟨S1x512, .f32⟩
  | 15 => ⟨S400x512, .f32⟩
  | 16 => ⟨S400x512, .f32⟩
  | 17 => ⟨S_, .f32⟩
  | 18 => ⟨S400x512, .f32⟩
  | 19 => ⟨S400x512, .i1⟩
  | 20 => ⟨S_, .f32⟩
  | 21 => ⟨S400x512, .f32⟩
  | 22 => ⟨S400x512, .f32⟩
  | 23 => ⟨S400x512, .f32⟩
  | 24 => ⟨S400x64, .f32⟩
  | 25 => ⟨S1x64, .f32⟩
  | 26 => ⟨S400x64, .f32⟩
  | 27 => ⟨S400x64, .f32⟩
  | 28 => ⟨S_, .f32⟩
  | 29 => ⟨S400x64, .f32⟩
  | 30 => ⟨S400x64, .i1⟩
  | 31 => ⟨S_, .f32⟩
  | 32 => ⟨S400x64, .f32⟩
  | 33 => ⟨S400x64, .f32⟩
  | 34 => ⟨S400x64, .f32⟩
  | 35 => ⟨S400x1, .f32⟩
  | 36 => ⟨S1x1, .f32⟩
  | 37 => ⟨S400x1, .f32⟩
  | 38 => ⟨S400x1, .f32⟩
  | _ => ⟨S400x3, .f32⟩

abbrev hbmTy (i : Nat) : BufTy := match i / 128 with
  | 0 => hbmTy0_0 i
  | 1 => hbmTy0_1 i
  | _ => ⟨S400x3, .f32⟩

abbrev bufTy : (tb : Table) → Fin (tcTables nBuf tb) → BufTy
  | .hbm, ⟨i, _⟩ => hbmTy i
  | .local _ .vmem, ⟨0, _⟩ => ⟨S400x5, .f32⟩
  | .local _ .vmem, ⟨1, _⟩ => ⟨S5x3200, .f32⟩
  | .local _ .vmem, ⟨2, _⟩ => ⟨S5x3200, .f32⟩
  | .local _ .vmem, ⟨3, _⟩ => ⟨S400x1, .f32⟩
  | .local _ .vmem, ⟨4, _⟩ => ⟨S400x1, .f32⟩
  | .local _ .vmem, ⟨5, _⟩ => ⟨S3200x400, .f32⟩
  | .local _ .vmem, ⟨6, _⟩ => ⟨S3200x400, .f32⟩
  | .local _ .vmem, ⟨7, _⟩ => ⟨S400x400, .f32⟩
  | .local _ .vmem, ⟨8, _⟩ => ⟨S400x400, .f32⟩
  | _, _ => ⟨S400x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v4 : Ref sig .tc := ⟨.hbm, 27, rfl⟩
abbrev main_cst_2 : Ref sig .tc := ⟨.hbm, 28, rfl⟩
abbrev main_v5 : Ref sig .tc := ⟨.hbm, 29, rfl⟩
abbrev main_v6 : Ref sig .tc := ⟨.hbm, 30, rfl⟩
abbrev main_cst_3 : Ref sig .tc := ⟨.hbm, 31, rfl⟩
abbrev main_v7 : Ref sig .tc := ⟨.hbm, 32, rfl⟩
abbrev main_cst_4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v11 : Ref sig .tc := ⟨.hbm, 40, rfl⟩
abbrev main_cst_6 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_7 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_8 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_c_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_13 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_14 : Ref sig .tc := ⟨.hbm, 93, rfl⟩
abbrev main_v55 : Ref sig .tc := ⟨.hbm, 94, rfl⟩
abbrev main_v56 : Ref sig .tc := ⟨.hbm, 95, rfl⟩
abbrev main_c_15 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_16 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_17 : Ref sig .tc := ⟨.hbm, 112, rfl⟩
abbrev main_v71 : Ref sig .tc := ⟨.hbm, 113, rfl⟩
abbrev main_v72 : Ref sig .tc := ⟨.hbm, 114, rfl⟩
abbrev main_cst_18 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_cst_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_23 : Ref sig .tc := ⟨.hbm, 145, rfl⟩
abbrev main_v98 : Ref sig .tc := ⟨.hbm, 146, rfl⟩
abbrev main_v99 : Ref sig .tc := ⟨.hbm, 147, rfl⟩
abbrev main_cst_24 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_25 : Ref sig .tc := ⟨.hbm, 156, rfl⟩
abbrev main_v107 : Ref sig .tc := ⟨.hbm, 157, rfl⟩
abbrev main_v108 : Ref sig .tc := ⟨.hbm, 158, rfl⟩
abbrev main_cst_26 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v31 : BitVec 1 := Scalar.cmpi .eq arg0 c49_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S400x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S400x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S400x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S6400 : S_.BroadcastsInDim S6400 (![] : Fin 0 → Fin S6400.rank)
  bcast_S_S400 : S_.BroadcastsInDim S400 (![] : Fin 0 → Fin S400.rank)
  bcast_S6400_S6400x1_0 : S6400.BroadcastsInDim S6400x1 (![0] : Fin 1 → Fin S6400x1.rank)
  bcast_S400_S400x1_0 : S400.BroadcastsInDim S400x1 (![0] : Fin 1 → Fin S400x1.rank)
  bcast_S400x1_S400x3_0_1 : S400x1.BroadcastsInDim S400x3 (![0, 1] : Fin 2 → Fin S400x3.rank)
  bcast_S_S400x3 : S_.BroadcastsInDim S400x3 (![] : Fin 0 → Fin S400x3.rank)
  bcast_S400x1_S400x5_0_1 : S400x1.BroadcastsInDim S400x5 (![0, 1] : Fin 2 → Fin S400x5.rank)
  bcast_S5_S1x5_1 : S5.BroadcastsInDim S1x5 (![1] : Fin 1 → Fin S1x5.rank)
  bcast_S1x5_S400x5_0_1 : S1x5.BroadcastsInDim S400x5 (![0, 1] : Fin 2 → Fin S400x5.rank)
  bcast_S_S400x5 : S_.BroadcastsInDim S400x5 (![] : Fin 0 → Fin S400x5.rank)
  shapeCasts_S400_S400x1 : S400.ShapeCasts S400x1
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x5_S400x5_0_0 : ∀ a, (![0, 0] : Fin 2 → Nat) a + S400x5.size a ≤ S400x5.size a
  h_S400x5 : 0 < S400x5.numel
  shapeCasts_S400x5_S400x5 : S400x5.ShapeCasts S400x5
  bitsLt_bf16_f32 : FTy.bits .bf16 < FTy.bits .f32
  inb_S5x3200_S5x3200_0_0 : ∀ a, (![0, 0] : Fin 2 → Nat) a + S5x3200.size a ≤ S5x3200.size a
  h_S5x3200 : 0 < S5x3200.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x3200 : S400x1.Broadcasts S400x3200
  inb_S3200x400_S3200x400_0_0 : ∀ a, (![0, 0] : Fin 2 → Nat) a + S3200x400.size a ≤ S3200x400.size a
  h_S3200x400 : 0 < S3200x400.numel
  bcast_S_S400x400 : S_.BroadcastsInDim S400x400 (![] : Fin 0 → Fin S400x400.rank)
  bcast_S400x1_S400x400_0_1 : S400x1.BroadcastsInDim S400x400 (![0, 1] : Fin 2 → Fin S400x400.rank)
  bcast_S400_S1x400_1 : S400.BroadcastsInDim S1x400 (![1] : Fin 1 → Fin S1x400.rank)
  bcast_S1x400_S400x400_0_1 : S1x400.BroadcastsInDim S400x400 (![0, 1] : Fin 2 → Fin S400x400.rank)
  bcast_S512_S1x512_1 : S512.BroadcastsInDim S1x512 (![1] : Fin 1 → Fin S1x512.rank)
  bcast_S1x512_S400x512_0_1 : S1x512.BroadcastsInDim S400x512 (![0, 1] : Fin 2 → Fin S400x512.rank)
  bcast_S_S400x512 : S_.BroadcastsInDim S400x512 (![] : Fin 0 → Fin S400x512.rank)
  bcast_S1024_S1x1024_1 : S1024.BroadcastsInDim S1x1024 (![1] : Fin 1 → Fin S1x1024.rank)
  bcast_S1x1024_S400x1024_0_1 : S1x1024.BroadcastsInDim S400x1024 (![0, 1] : Fin 2 → Fin S400x1024.rank)
  bcast_S_S400x1024 : S_.BroadcastsInDim S400x1024 (![] : Fin 0 → Fin S400x1024.rank)
  bcast_S64_S1x64_1 : S64.BroadcastsInDim S1x64 (![1] : Fin 1 → Fin S1x64.rank)
  bcast_S1x64_S400x64_0_1 : S1x64.BroadcastsInDim S400x64 (![0, 1] : Fin 2 → Fin S400x64.rank)
  bcast_S_S400x64 : S_.BroadcastsInDim S400x64 (![] : Fin 0 → Fin S400x64.rank)
  bcast_S1_S1x1_1 : S1.BroadcastsInDim S1x1 (![1] : Fin 1 → Fin S1x1.rank)
  bcast_S1x1_S400x1_0_1 : S1x1.BroadcastsInDim S400x1 (![0, 1] : Fin 2 → Fin S400x1.rank)
  scatter_S400_S6400x1_S6400_n_0_0_1_wf : ScatterDims.WF S400 S6400x1 S6400 [] [0] [0] 1
  gather_S400x3_S6400x1_S6400x3_1_0_n_n_0_1_13_wf : GatherDims.WF S400x3 S6400x1 S6400x3 [1] [0] [] [0] [] 1 ![1, 3]
  scatter_S400x3_S6400x1_S6400x3_1_0_0_1_wf : ScatterDims.WF S400x3 S6400x1 S6400x3 [1] [0] [0] 1
  dot_S400x3_S3x5_S400x5_1_0_0_1_n_n_wf : DotDims.WF S400x3 S3x5 S400x5 [1] [0] [0] [1] [] []
  gather_S400x5_S6400x1_S6400x5_1_0_n_n_0_1_15_wf : GatherDims.WF S400x5 S6400x1 S6400x5 [1] [0] [] [0] [] 1 ![1, 5]
  scatter_S400x5_S6400x1_S6400x5_1_0_0_1_wf : ScatterDims.WF S400x5 S6400x1 S6400x5 [1] [0] [0] 1
  dot_S400x5_S5x3200_S400x3200_1_0_0_1_n_n_wf : DotDims.WF S400x5 S5x3200 S400x3200 [1] [0] [0] [1] [] []
  dot_S400x3200_S3200x400_S400x400_1_0_0_1_n_n_wf : DotDims.WF S400x3200 S3200x400 S400x400 [1] [0] [0] [1] [] []
  gather_S400x400_S6400x1_S6400x400_1_0_n_n_0_1_1400_wf : GatherDims.WF S400x400 S6400x1 S6400x400 [1] [0] [] [0] [] 1 ![1, 400]
  scatter_S400x400_S6400x1_S6400x400_1_0_0_1_wf : ScatterDims.WF S400x400 S6400x1 S6400x400 [1] [0] [0] 1
  dot_S400x400_S400x512_S400x512_1_0_0_1_n_n_wf : DotDims.WF S400x400 S400x512 S400x512 [1] [0] [0] [1] [] []
  dot_S400x512_S512x1024_S400x1024_1_0_0_1_n_n_wf : DotDims.WF S400x512 S512x1024 S400x1024 [1] [0] [0] [1] [] []
  dot_S400x1024_S1024x512_S400x512_1_0_0_1_n_n_wf : DotDims.WF S400x1024 S1024x512 S400x512 [1] [0] [0] [1] [] []
  dot_S400x512_S512x64_S400x64_1_0_0_1_n_n_wf : DotDims.WF S400x512 S512x64 S400x64 [1] [0] [0] [1] [] []
  dot_S400x64_S64x1_S400x1_1_0_0_1_n_n_wf : DotDims.WF S400x64 S64x1 S400x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S400x5.size a ≤ S400x5.size a
  hwx0_0 : ∀ i : grid0.Coords, EltTy.bits .f32 = 32 ∨ (Rect.block (s := S400x5) S400x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x3200.size a ≤ S5x160000.size a
  hwx0_1 : ∀ i : grid0.Coords, EltTy.bits .f32 = 32 ∨ (Rect.block (s := S5x160000) S5x3200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S400x1.size a
  hwx0_2 : ∀ i : grid0.Coords, EltTy.bits .f32 = 32 ∨ (Rect.block (s := S400x1) S400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S400x1.size a
  hwx0_3 : ∀ i : grid0.Coords, EltTy.bits .f32 = 32 ∨ (Rect.block (s := S400x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x400.size a ≤ S160000x400.size a
  hwx0_4 : ∀ i : grid0.Coords, EltTy.bits .f32 = 32 ∨ (Rect.block (s := S160000x400) S3200x400.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S400x400.size a ≤ S400x400.size a
  hwx0_5 : ∀ i : grid0.Coords, EltTy.bits .f32 = 32 ∨ (Rect.block (s := S400x400) S400x400.size (cc0_transform_5 i) (hinb0_5 i)).WholeWords (EltTy.packing .f32)

variable [Facts₀]

def scatter_S400_S6400x1_S6400_n_0_0_1 : ScatterDims S400 S6400x1 S6400 where
  updateWindowDims := []
  insertedWindowDims := [0]
  scatterDimsToOperandDims := [0]
  indexVectorDim := 1
  wf := scatter_S400_S6400x1_S6400_n_0_0_1_wf
def gather_S400x3_S6400x1_S6400x3_1_0_n_n_0_1_13 : GatherDims S400x3 S6400x1 S6400x3 where
  offsetDims := [1]
  collapsedSliceDims := [0]
  operandBatchingDims := []
  startIndicesBatchingDims := []
  startIndexMap := [0]
  indexVectorDim := 1
  sliceSizes := ![1, 3]
  wf := gather_S400x3_S6400x1_S6400x3_1_0_n_n_0_1_13_wf
def scatter_S400x3_S6400x1_S6400x3_1_0_0_1 : ScatterDims S400x3 S6400x1 S6400x3 where
  updateWindowDims := [1]
  insertedWindowDims := [0]
  scatterDimsToOperandDims := [0]
  indexVectorDim := 1
  wf := scatter_S400x3_S6400x1_S6400x3_1_0_0_1_wf
def dot_S400x3_S3x5_S400x5_1_0_0_1_n_n : DotDims S400x3 S3x5 S400x5 where
  lhsContracting := [1]
  rhsContracting := [0]
  lhsNonContracting := [0]
  rhsNonContracting := [1]
  lhsBatch := []
  rhsBatch := []
  wf := dot_S400x3_S3x5_S400x5_1_0_0_1_n_n_wf
def gather_S400x5_S6400x1_S6400x5_1_0_n_n_0_1_15 : GatherDims S400x5 S6400x1 S6400x5 where
  offsetDims := [1]
  collapsedSliceDims := [0]
  operandBatchingDims := []
  startIndicesBatchingDims := []
  startIndexMap := [0]
  indexVectorDim := 1
  sliceSizes := ![1, 5]
  wf := gather_S400x5_S6400x1_S6400x5_1_0_n_n_0_1_15_wf
def scatter_S400x5_S6400x1_S6400x5_1_0_0_1 : ScatterDims S400x5 S6400x1 S6400x5 where
  updateWindowDims := [1]
  insertedWindowDims := [0]
  scatterDimsToOperandDims := [0]
  indexVectorDim := 1
  wf := scatter_S400x5_S6400x1_S6400x5_1_0_0_1_wf
def dot_S400x5_S5x3200_S400x3200_1_0_0_1_n_n : DotDims S400x5 S5x3200 S400x3200 where
  lhsContracting := [1]
  rhsContracting := [0]
  lhsNonContracting := [0]
  rhsNonContracting := [1]
  lhsBatch := []
  rhsBatch := []
  wf := dot_S400x5_S5x3200_S400x3200_1_0_0_1_n_n_wf
def dot_S400x3200_S3200x400_S400x400_1_0_0_1_n_n : DotDims S400x3200 S3200x400 S400x400 where
  lhsContracting := [1]
  rhsContracting := [0]
  lhsNonContracting := [0]
  rhsNonContracting := [1]
  lhsBatch := []
  rhsBatch := []
  wf := dot_S400x3200_S3200x400_S400x400_1_0_0_1_n_n_wf
def gather_S400x400_S6400x1_S6400x400_1_0_n_n_0_1_1400 : GatherDims S400x400 S6400x1 S6400x400 where
  offsetDims := [1]
  collapsedSliceDims := [0]
  operandBatchingDims := []
  startIndicesBatchingDims := []
  startIndexMap := [0]
  indexVectorDim := 1
  sliceSizes := ![1, 400]
  wf := gather_S400x400_S6400x1_S6400x400_1_0_n_n_0_1_1400_wf
def scatter_S400x400_S6400x1_S6400x400_1_0_0_1 : ScatterDims S400x400 S6400x1 S6400x400 where
  updateWindowDims := [1]
  insertedWindowDims := [0]
  scatterDimsToOperandDims := [0]
  indexVectorDim := 1
  wf := scatter_S400x400_S6400x1_S6400x400_1_0_0_1_wf
def dot_S400x400_S400x512_S400x512_1_0_0_1_n_n : DotDims S400x400 S400x512 S400x512 where
  lhsContracting := [1]
  rhsContracting := [0]
  lhsNonContracting := [0]
  rhsNonContracting := [1]
  lhsBatch := []
  rhsBatch := []
  wf := dot_S400x400_S400x512_S400x512_1_0_0_1_n_n_wf
def dot_S400x512_S512x1024_S400x1024_1_0_0_1_n_n : DotDims S400x512 S512x1024 S400x1024 where
  lhsContracting := [1]
  rhsContracting := [0]
  lhsNonContracting := [0]
  rhsNonContracting := [1]
  lhsBatch := []
  rhsBatch := []
  wf := dot_S400x512_S512x1024_S400x1024_1_0_0_1_n_n_wf
def dot_S400x1024_S1024x512_S400x512_1_0_0_1_n_n : DotDims S400x1024 S1024x512 S400x512 where
  lhsContracting := [1]
  rhsContracting := [0]
  lhsNonContracting := [0]
  rhsNonContracting := [1]
  lhsBatch := []
  rhsBatch := []
  wf := dot_S400x1024_S1024x512_S400x512_1_0_0_1_n_n_wf
def dot_S400x512_S512x64_S400x64_1_0_0_1_n_n : DotDims S400x512 S512x64 S400x64 where
  lhsContracting := [1]
  rhsContracting := [0]
  lhsNonContracting := [0]
  rhsNonContracting := [1]
  lhsBatch := []
  rhsBatch := []
  wf := dot_S400x512_S512x64_S400x64_1_0_0_1_n_n_wf
def dot_S400x64_S64x1_S400x1_1_0_0_1_n_n : DotDims S400x64 S64x1 S400x1 where
  lhsContracting := [1]
  rhsContracting := [0]
  lhsNonContracting := [0]
  rhsNonContracting := [1]
  lhsBatch := []
  rhsBatch := []
  wf := dot_S400x64_S64x1_S400x1_1_0_0_1_n_n_wf

abbrev win0_0 : Pipeline.Window sig grid0 :=
  Pipeline.Window.ofSpec (Memref.whole main_v51) S400x5.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S400x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S400x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3200x400.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S400x400.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S400x3 : Shape := ⟨2, ![400, 3]⟩
abbrev S6400 : Shape := ⟨1, ![6400]⟩
abbrev S5x160000 : Shape := ⟨2, ![5, 160000]⟩
abbrev S3x5 : Shape := ⟨2, ![3, 5]⟩
abbrev S5 : Shape := ⟨1, ![5]⟩
abbrev S160000x400 : Shape := ⟨2, ![160000, 400]⟩
abbrev S400 : Shape := ⟨1, ![400]⟩
abbrev S400x512 : Shape := ⟨2, ![400, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩
abbrev S6400x1 : Shape := ⟨2, ![6400, 1]⟩
abbrev S400x1 : Shape := ⟨2, ![400, 1]⟩
abbrev S6400x3 : Shape := ⟨2, ![6400, 3]⟩
abbrev S400x5 : Shape := ⟨2, ![400, 5]⟩
abbrev S1x5 : Shape := ⟨2, ![1, 5]⟩
abbrev S6400x5 : Shape := ⟨2, ![6400, 5]⟩
abbrev S400x160000 : Shape := ⟨2, ![400, 160000]⟩
abbrev S400x400 : Shape := ⟨2, ![400, 400]⟩
abbrev S6400x400 : Shape := ⟨2, ![6400, 400]⟩
abbrev S1x400 : Shape := ⟨2, ![1, 400]⟩
abbrev S1x512 : Shape := ⟨2, ![1, 512]⟩
abbrev S400x1024 : Shape := ⟨2, ![400, 1024]⟩
abbrev S1x1024 : Shape := ⟨2, ![1, 1024]⟩
abbrev S400x64 : Shape := ⟨2, ![400, 64]⟩
abbrev S1x64 : Shape := ⟨2, ![1, 64]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S400x3, .f32⟩
  | 1 => ⟨S6400, .i32⟩
  | 2 => ⟨S6400, .i32⟩
  | 3 => ⟨S5x160000, .f32⟩
  | 4 => ⟨S3x5, .f32⟩
  | 5 => ⟨S5, .f32⟩
  | 6 => ⟨S160000x400, .f32⟩
  | 7 => ⟨S400, .f32⟩
  | 8 => ⟨S400x512, .f32⟩
  | 9 => ⟨S512, .f32⟩
  | 10 => ⟨S512x1024, .f32⟩
  | 11 => ⟨S1024, .f32⟩
  | 12 => ⟨S1024x512, .f32⟩
  | 13 => ⟨S512, .f32⟩
  | 14 => ⟨S512x64, .f32⟩
  | 15 => ⟨S64, .f32⟩
  | 16 => ⟨S64x1, .f32⟩
  | 17 => ⟨S1, .f32⟩
  | 18 => ⟨S_, .f32⟩
  | 19 => ⟨S6400, .f32⟩
  | 20 => ⟨S_, .f32⟩
  | 21 => ⟨S400, .f32⟩
  | 22 => ⟨S6400x1, .i32⟩
  | 23 => ⟨S400, .f32⟩
  | 24 => ⟨S_, .f32⟩
  | 25 => ⟨S_, .f32⟩
  | 26 => ⟨S400, .f32⟩
  | 27 => ⟨S400, .f32⟩
  | 28 => ⟨S_, .f32⟩
  | 29 => ⟨S400, .f32⟩
  | 30 => ⟨S400, .f32⟩
  | 31 => ⟨S_, .f32⟩
  | 32 => ⟨S6400, .f32⟩
  | 33 => ⟨S_, .f32⟩
  | 34 => ⟨S400, .f32⟩
  | 35 => ⟨S6400x1, .i32⟩
  | 36 => ⟨S400, .f32⟩
  | 37 => ⟨S_, .f32⟩
  | 38 => ⟨S_, .f32⟩
  | 39 => ⟨S400, .f32⟩
  | 40 => ⟨S400, .f32⟩
  | 41 => ⟨S_, .f32⟩
  | 42 => ⟨S400, .f32⟩
  | 43 => ⟨S400, .f32⟩
  | 44 => ⟨S400x1, .f32⟩
  | 45 => ⟨S400x3, .f32⟩
  | 46 => ⟨S400x3, .f32⟩
  | 47 => ⟨S_, .i32⟩
  | 48 => ⟨S6400, .i32⟩
  | 49 => ⟨S6400, .i1⟩
  | 50 => ⟨S_, .i32⟩
  | 51 => ⟨S6400, .i32⟩
  | 52 => ⟨S6400, .i32⟩
  | 53 => ⟨S6400, .i32⟩
  | 54 => ⟨S6400x1, .i32⟩
  | 55 => ⟨S6400x3, .f32⟩
  | 56 => ⟨S_, .f32⟩
  | 57 => ⟨S400x3, .f32⟩
  | 58 => ⟨S6400x1, .i32⟩
  | 59 => ⟨S400x3, .f32⟩
  | 60 => ⟨S400x5, .f32⟩
  | 61 => ⟨S400x1, .f32⟩
  | 62 => ⟨S400x5, .f32⟩
  | 63 => ⟨S400x5, .f32⟩
  | 64 => ⟨S1x5, .f32⟩
  | 65 => ⟨S400x5, .f32⟩
  | 66 => ⟨S400x5, .f32⟩
  | 67 => ⟨S_, .f32⟩
  | 68 => ⟨S400x5, .f32⟩
  | 69 => ⟨S400x5, .i1⟩
  | 70 => ⟨S_, .f32⟩
  | 71 => ⟨S400x5, .f32⟩
  | 72 => ⟨S400x5, .f32⟩
  | 73 => ⟨S400x5, .f32⟩
  | 74 => ⟨S_, .f32⟩
  | 75 => ⟨S6400, .f32⟩
  | 76 => ⟨S_, .f32⟩
  | 77 => ⟨S400, .f32⟩
  | 78 => ⟨S6400x1, .i32⟩
  | 79 => ⟨S400, .f32⟩
  | 80 => ⟨S_, .f32⟩
  | 81 => ⟨S_, .f32⟩
  | 82 => ⟨S400, .f32⟩
  | 83 => ⟨S400, .f32⟩
  | 84 => ⟨S_, .f32⟩
  | 85 => ⟨S400, .f32⟩
  | 86 => ⟨S400, .f32⟩
  | 87 => ⟨S_, .f32⟩
  | 88 => ⟨S6400, .f32⟩
  | 89 => ⟨S_, .f32⟩
  | 90 => ⟨S400, .f32⟩
  | 91 => ⟨S6400x1, .i32⟩
  | 92 => ⟨S400, .f32⟩
  | 93 => ⟨S_, .f32⟩
  | 94 => ⟨S_, .f32⟩
  | 95 => ⟨S400, .f32⟩
  | 96 => ⟨S400, .f32⟩
  | 97 => ⟨S_, .f32⟩
  | 98 => ⟨S400, .f32⟩
  | 99 => ⟨S400, .f32⟩
  | 100 => ⟨S400x1, .f32⟩
  | 101 => ⟨S400x5, .f32⟩
  | 102 => ⟨S400x5, .f32⟩
  | 103 => ⟨S_, .i32⟩
  | 104 => ⟨S6400, .i32⟩
  | 105 => ⟨S6400, .i1⟩
  | 106 => ⟨S_, .i32⟩
  | 107 => ⟨S6400, .i32⟩
  | 108 => ⟨S6400, .i32⟩
  | 109 => ⟨S6400, .i32⟩
  | 110 => ⟨S6400x1, .i32⟩
  | 111 => ⟨S6400x5, .f32⟩
  | 112 => ⟨S_, .f32⟩
  | 113 => ⟨S400x5, .f32⟩
  | 114 => ⟨S6400x1, .i32⟩
  | 115 => ⟨S400x5, .f32⟩
  | 116 => ⟨S400x160000, .f32⟩
  | 117 => ⟨S400x1, .f32⟩
  | 118 => ⟨S400x160000, .f32⟩
  | 119 => ⟨S400x160000, .f32⟩
  | 120 => ⟨S_, .f32⟩
  | 121 => ⟨S400x160000, .f32⟩
  | 122 => ⟨S400x160000, .i1⟩
  | 123 => ⟨S_, .f32⟩
  | 124 => ⟨S400x160000, .f32⟩
  | 125 => ⟨S400x160000, .f32⟩
  | 126 => ⟨S400x160000, .f32⟩
  | 127 => ⟨S_, .f32⟩
  | _ => ⟨S400x3, .f32⟩

abbrev hbmTy0_1 (i : Nat) : BufTy := match i % 128 with
  | 0 => ⟨S6400, .f32⟩
  | 1 => ⟨S_, .f32⟩
  | 2 => ⟨S400, .f32⟩
  | 3 => ⟨S6400x1, .i32⟩
  | 4 => ⟨S400, .f32⟩
  | 5 => ⟨S_, .f32⟩
  | 6 => ⟨S_, .f32⟩
  | 7 => ⟨S400, .f32⟩
  | 8 => ⟨S400, .f32⟩
  | 9 => ⟨S_, .f32⟩
  | 10 => ⟨S400, .f32⟩
  | 11 => ⟨S400, .f32⟩
  | 12 => ⟨S_, .f32⟩
  | 13 => ⟨S6400, .f32⟩
  | 14 => ⟨S_, .f32⟩
  | 15 => ⟨S400, .f32⟩
  | 16 => ⟨S6400x1, .i32⟩
  | 17 => ⟨S400, .f32⟩
  | 18 => ⟨S_, .f32⟩
  | 19 => ⟨S_, .f32⟩
  | 20 => ⟨S400, .f32⟩
  | 21 => ⟨S400, .f32⟩
  | 22 => ⟨S_, .f32⟩
  | 23 => ⟨S400, .f32⟩
  | 24 => ⟨S400, .f32⟩
  | 25 => ⟨S400x1, .f32⟩
  | 26 => ⟨S400x160000, .f32⟩
  | 27 => ⟨S400x160000, .f32⟩
  | 28 => ⟨S400x400, .f32⟩
  | 29 => ⟨S_, .i32⟩
  | 30 => ⟨S6400, .i32⟩
  | 31 => ⟨S6400, .i1⟩
  | 32 => ⟨S_, .i32⟩
  | 33 => ⟨S6400, .i32⟩
  | 34 => ⟨S6400, .i32⟩
  | 35 => ⟨S6400, .i32⟩
  | 36 => ⟨S6400x1, .i32⟩
  | 37 => ⟨S6400x400, .f32⟩
  | 38 => ⟨S_, .f32⟩
  | 39 => ⟨S400x400, .f32⟩
  | 40 => ⟨S6400x1, .i32⟩
  | 41 => ⟨S400x400, .f32⟩
  | 42 => ⟨S400x1, .f32⟩
  | 43 => ⟨S400x400, .f32⟩
  | 44 => ⟨S400x400, .f32⟩
  | 45 => ⟨S1x400, .f32⟩
  | 46 => ⟨S400x400, .f32⟩
  | 47 => ⟨S400x400, .f32⟩
  | 48 => ⟨S_, .f32⟩
  | 49 => ⟨S400x400, .f32⟩
  | 50 => ⟨S400x400, .i1⟩
  | 51 => ⟨S_, .f32⟩
  | 52 => ⟨S400x400, .f32⟩
  | 53 => ⟨S400x400, .f32⟩
  | 54 => ⟨S400x400, .f32⟩
  | 55 => ⟨S400x512, .f32⟩
  | 56 => ⟨S1x512, .f32⟩
  | 57 => ⟨S400x512, .f32⟩
  | 58 => ⟨S400x512, .f32⟩
  | 59 => ⟨S_, .f32⟩
  | 60 => ⟨S400x512, .f32⟩
  | 61 => ⟨S400x512, .i1⟩
  | 62 => ⟨S_, .f32⟩
  | 63 => ⟨S400x512, .f32⟩
  | 64 => ⟨S400x512, .f32⟩
  | 65 => ⟨S400x512, .f32⟩
  | 66 => ⟨S400x1024, .f32⟩
  | 67 => ⟨S1x1024, .f32⟩
  | 68 => ⟨S400x1024, .f32⟩
  | 69 => ⟨S400x1024, .f32⟩
  | 70 => ⟨S_, .f32⟩
  | 71 => ⟨S400x1024, .f32⟩
  | 72 => ⟨S400x1024, .i1⟩
  | 73 => ⟨S_, .f32⟩
  | 74 => ⟨S400x1024, .f32⟩
  | 75 => ⟨S400x1024, .f32⟩
  | 76 => ⟨S400x1024, .f32⟩
  | 77 => ⟨S400x512, .f32⟩
  | 78 => ⟨S1x512, .f32⟩
  | 79 => ⟨S400x512, .f32⟩
  | 80 => ⟨S400x512, .f32⟩
  | 81 => ⟨S_, .f32⟩
  | 82 => ⟨S400x512, .f32⟩
  | 83 => ⟨S400x512, .i1⟩
  | 84 => ⟨S_, .f32⟩
  | 85 => ⟨S400x512, .f32⟩
  | 86 => ⟨S400x512, .f32⟩
  | 87 => ⟨S400x512, .f32⟩
  | 88 => ⟨S400x64, .f32⟩
  | 89 => ⟨S1x64, .f32⟩
  | 90 => ⟨S400x64, .f32⟩
  | 91 => ⟨S400x64, .f32⟩
  | 92 => ⟨S_, .f32⟩
  | 93 => ⟨S400x64, .f32⟩
  | 94 => ⟨S400x64, .i1⟩
  | 95 => ⟨S_, .f32⟩
  | 96 => ⟨S400x64, .f32⟩
  | 97 => ⟨S400x64, .f32⟩
  | 98 => ⟨S400x64, .f32⟩
  | 99 => ⟨S400x1, .f32⟩
  | 100 => ⟨S1x1, .f32⟩
  | 101 => ⟨S400x1, .f32⟩
  | 102 => ⟨S400x1, .f32⟩
  | _ => ⟨S400x3, .f32⟩

abbrev hbmTy (i : Nat) : BufTy := match i / 128 with
  | 0 => hbmTy0_0 i
  | 1 => hbmTy0_1 i
  | _ => ⟨S400x3, .f32⟩

abbrev bufTy : (tb : Table) → Fin (tcTables nBuf tb) → BufTy
  | .hbm, ⟨i, _⟩ => hbmTy i
  | _, _ => ⟨S400x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v4 : Ref sig .tc := ⟨.hbm, 27, rfl⟩
abbrev main_cst_2 : Ref sig .tc := ⟨.hbm, 28, rfl⟩
abbrev main_v5 : Ref sig .tc := ⟨.hbm, 29, rfl⟩
abbrev main_v6 : Ref sig .tc := ⟨.hbm, 30, rfl⟩
abbrev main_cst_3 : Ref sig .tc := ⟨.hbm, 31, rfl⟩
abbrev main_v7 : Ref sig .tc := ⟨.hbm, 32, rfl⟩
abbrev main_cst_4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v11 : Ref sig .tc := ⟨.hbm, 40, rfl⟩
abbrev main_cst_6 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_7 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_8 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_11 : Ref sig .tc := ⟨.hbm, 74, rfl⟩
abbrev main_v39 : Ref sig .tc := ⟨.hbm, 75, rfl⟩
abbrev main_cst_12 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_13 : Ref sig .tc := ⟨.hbm, 80, rfl⟩
abbrev main_call3_v0 : Ref sig .tc := ⟨.hbm, 81, rfl⟩
abbrev main_call3_v1 : Ref sig .tc := ⟨.hbm, 82, rfl⟩
abbrev main_v43 : Ref sig .tc := ⟨.hbm, 83, rfl⟩
abbrev main_cst_14 : Ref sig .tc := ⟨.hbm, 84, rfl⟩
abbrev main_v44 : Ref sig .tc := ⟨.hbm, 85, rfl⟩
abbrev main_v45 : Ref sig .tc := ⟨.hbm, 86, rfl⟩
abbrev main_cst_15 : Ref sig .tc := ⟨.hbm, 87, rfl⟩
abbrev main_v46 : Ref sig .tc := ⟨.hbm, 88, rfl⟩
abbrev main_cst_16 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_17 : Ref sig .tc := ⟨.hbm, 93, rfl⟩
abbrev main_call4_v0 : Ref sig .tc := ⟨.hbm, 94, rfl⟩
abbrev main_call4_v1 : Ref sig .tc := ⟨.hbm, 95, rfl⟩
abbrev main_v50 : Ref sig .tc := ⟨.hbm, 96, rfl⟩
abbrev main_cst_18 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_19 : Ref sig .tc := ⟨.hbm, 103, rfl⟩
abbrev main_v56 : Ref sig .tc := ⟨.hbm, 104, rfl⟩
abbrev main_v57 : Ref sig .tc := ⟨.hbm, 105, rfl⟩
abbrev main_c_20 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_21 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_22 : Ref sig .tc := ⟨.hbm, 120, rfl⟩
abbrev main_v70 : Ref sig .tc := ⟨.hbm, 121, rfl⟩
abbrev main_v71 : Ref sig .tc := ⟨.hbm, 122, rfl⟩
abbrev main_cst_23 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_24 : Ref sig .tc := ⟨.hbm, 127, rfl⟩
abbrev main_v75 : Ref sig .tc := ⟨.hbm, 128, rfl⟩
abbrev main_cst_25 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_26 : Ref sig .tc := ⟨.hbm, 133, rfl⟩
abbrev main_call6_v0 : Ref sig .tc := ⟨.hbm, 134, rfl⟩
abbrev main_call6_v1 : Ref sig .tc := ⟨.hbm, 135, rfl⟩
abbrev main_v79 : Ref sig .tc := ⟨.hbm, 136, rfl⟩
abbrev main_cst_27 : Ref sig .tc := ⟨.hbm, 137, rfl⟩
abbrev main_v80 : Ref sig .tc := ⟨.hbm, 138, rfl⟩
abbrev main_v81 : Ref sig .tc := ⟨.hbm, 139, rfl⟩
abbrev main_cst_28 : Ref sig .tc := ⟨.hbm, 140, rfl⟩
abbrev main_v82 : Ref sig .tc := ⟨.hbm, 141, rfl⟩
abbrev main_cst_29 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_30 : Ref sig .tc := ⟨.hbm, 146, rfl⟩
abbrev main_call7_v0 : Ref sig .tc := ⟨.hbm, 147, rfl⟩
abbrev main_call7_v1 : Ref sig .tc := ⟨.hbm, 148, rfl⟩
abbrev main_v86 : Ref sig .tc := ⟨.hbm, 149, rfl⟩
abbrev main_cst_31 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_c_32 : Ref sig .tc := ⟨.hbm, 157, rfl⟩
abbrev main_v93 : Ref sig .tc := ⟨.hbm, 158, rfl⟩
abbrev main_v94 : Ref sig .tc := ⟨.hbm, 159, rfl⟩
abbrev main_c_33 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_34 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_35 : Ref sig .tc := ⟨.hbm, 176, rfl⟩
abbrev main_v109 : Ref sig .tc := ⟨.hbm, 177, rfl⟩
abbrev main_v110 : Ref sig .tc := ⟨.hbm, 178, rfl⟩
abbrev main_cst_36 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_37 : Ref sig .tc := ⟨.hbm, 187, rfl⟩
abbrev main_v118 : Ref sig .tc := ⟨.hbm, 188, rfl⟩
abbrev main_v119 : Ref sig .tc := ⟨.hbm, 189, rfl⟩
abbrev main_cst_38 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_39 : Ref sig .tc := ⟨.hbm, 198, rfl⟩
abbrev main_v127 : Ref sig .tc := ⟨.hbm, 199, rfl⟩
abbrev main_v128 : Ref sig .tc := ⟨.hbm, 200, rfl⟩
abbrev main_cst_40 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_41 : Ref sig .tc := ⟨.hbm, 209, rfl⟩
abbrev main_v136 : Ref sig .tc := ⟨.hbm, 210, rfl⟩
abbrev main_v137 : Ref sig .tc := ⟨.hbm, 211, rfl⟩
abbrev main_cst_42 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_43 : Ref sig .tc := ⟨.hbm, 220, rfl⟩
abbrev main_v145 : Ref sig .tc := ⟨.hbm, 221, rfl⟩
abbrev main_v146 : Ref sig .tc := ⟨.hbm, 222, rfl⟩
abbrev main_cst_44 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩

abbrev nD : Nat := 1
abbrev τ : Topo := Topo.v7x

variable {F : FTy → Type} [FloatOps F]

class Facts₀ : Prop where
  bcast_S_S6400 : S_.BroadcastsInDim S6400 (![] : Fin 0 → Fin S6400.rank)
  bcast_S_S400 : S_.BroadcastsInDim S400 (![] : Fin 0 → Fin S400.rank)
  bcast_S6400_S6400x1_0 : S6400.BroadcastsInDim S6400x1 (![0] : Fin 1 → Fin S6400x1.rank)
  bcast_S400_S400x1_0 : S400.BroadcastsInDim S400x1 (![0] : Fin 1 → Fin S400x1.rank)
  bcast_S400x1_S400x3_0_1 : S400x1.BroadcastsInDim S400x3 (![0, 1] : Fin 2 → Fin S400x3.rank)
  bcast_S_S400x3 : S_.BroadcastsInDim S400x3 (![] : Fin 0 → Fin S400x3.rank)
  bcast_S400x1_S400x5_0_1 : S400x1.BroadcastsInDim S400x5 (![0, 1] : Fin 2 → Fin S400x5.rank)
  bcast_S5_S1x5_1 : S5.BroadcastsInDim S1x5 (![1] : Fin 1 → Fin S1x5.rank)
  bcast_S1x5_S400x5_0_1 : S1x5.BroadcastsInDim S400x5 (![0, 1] : Fin 2 → Fin S400x5.rank)
  bcast_S_S400x5 : S_.BroadcastsInDim S400x5 (![] : Fin 0 → Fin S400x5.rank)
  bcast_S400x1_S400x160000_0_1 : S400x1.BroadcastsInDim S400x160000 (![0, 1] : Fin 2 → Fin S400x160000.rank)
  bcast_S_S400x160000 : S_.BroadcastsInDim S400x160000 (![] : Fin 0 → Fin S400x160000.rank)
  bcast_S_S400x400 : S_.BroadcastsInDim S400x400 (![] : Fin 0 → Fin S400x400.rank)
  bcast_S400x1_S400x400_0_1 : S400x1.BroadcastsInDim S400x400 (![0, 1] : Fin 2 → Fin S400x400.rank)
  bcast_S400_S1x400_1 : S400.BroadcastsInDim S1x400 (![1] : Fin 1 → Fin S1x400.rank)
  bcast_S1x400_S400x400_0_1 : S1x400.BroadcastsInDim S400x400 (![0, 1] : Fin 2 → Fin S400x400.rank)
  bcast_S512_S1x512_1 : S512.BroadcastsInDim S1x512 (![1] : Fin 1 → Fin S1x512.rank)
  bcast_S1x512_S400x512_0_1 : S1x512.BroadcastsInDim S400x512 (![0, 1] : Fin 2 → Fin S400x512.rank)
  bcast_S_S400x512 : S_.BroadcastsInDim S400x512 (![] : Fin 0 → Fin S400x512.rank)
  bcast_S1024_S1x1024_1 : S1024.BroadcastsInDim S1x1024 (![1] : Fin 1 → Fin S1x1024.rank)
  bcast_S1x1024_S400x1024_0_1 : S1x1024.BroadcastsInDim S400x1024 (![0, 1] : Fin 2 → Fin S400x1024.rank)
  bcast_S_S400x1024 : S_.BroadcastsInDim S400x1024 (![] : Fin 0 → Fin S400x1024.rank)
  bcast_S64_S1x64_1 : S64.BroadcastsInDim S1x64 (![1] : Fin 1 → Fin S1x64.rank)
  bcast_S1x64_S400x64_0_1 : S1x64.BroadcastsInDim S400x64 (![0, 1] : Fin 2 → Fin S400x64.rank)
  bcast_S_S400x64 : S_.BroadcastsInDim S400x64 (![] : Fin 0 → Fin S400x64.rank)
  bcast_S1_S1x1_1 : S1.BroadcastsInDim S1x1 (![1] : Fin 1 → Fin S1x1.rank)
  bcast_S1x1_S400x1_0_1 : S1x1.BroadcastsInDim S400x1 (![0, 1] : Fin 2 → Fin S400x1.rank)
  scatter_S400_S6400x1_S6400_n_0_0_1_wf : ScatterDims.WF S400 S6400x1 S6400 [] [0] [0] 1
  gather_S400x3_S6400x1_S6400x3_1_0_n_n_0_1_13_wf : GatherDims.WF S400x3 S6400x1 S6400x3 [1] [0] [] [0] [] 1 ![1, 3]
  scatter_S400x3_S6400x1_S6400x3_1_0_0_1_wf : ScatterDims.WF S400x3 S6400x1 S6400x3 [1] [0] [0] 1
  dot_S400x3_S3x5_S400x5_1_0_0_1_n_n_wf : DotDims.WF S400x3 S3x5 S400x5 [1] [0] [0] [1] [] []
  gather_S400x5_S6400x1_S6400x5_1_0_n_n_0_1_15_wf : GatherDims.WF S400x5 S6400x1 S6400x5 [1] [0] [] [0] [] 1 ![1, 5]
  scatter_S400x5_S6400x1_S6400x5_1_0_0_1_wf : ScatterDims.WF S400x5 S6400x1 S6400x5 [1] [0] [0] 1
  dot_S400x5_S5x160000_S400x160000_1_0_0_1_n_n_wf : DotDims.WF S400x5 S5x160000 S400x160000 [1] [0] [0] [1] [] []
  dot_S400x160000_S160000x400_S400x400_1_0_0_1_n_n_wf : DotDims.WF S400x160000 S160000x400 S400x400 [1] [0] [0] [1] [] []
  gather_S400x400_S6400x1_S6400x400_1_0_n_n_0_1_1400_wf : GatherDims.WF S400x400 S6400x1 S6400x400 [1] [0] [] [0] [] 1 ![1, 400]
  scatter_S400x400_S6400x1_S6400x400_1_0_0_1_wf : ScatterDims.WF S400x400 S6400x1 S6400x400 [1] [0] [0] 1
  dot_S400x400_S400x512_S400x512_1_0_0_1_n_n_wf : DotDims.WF S400x400 S400x512 S400x512 [1] [0] [0] [1] [] []
  dot_S400x512_S512x1024_S400x1024_1_0_0_1_n_n_wf : DotDims.WF S400x512 S512x1024 S400x1024 [1] [0] [0] [1] [] []
  dot_S400x1024_S1024x512_S400x512_1_0_0_1_n_n_wf : DotDims.WF S400x1024 S1024x512 S400x512 [1] [0] [0] [1] [] []
  dot_S400x512_S512x64_S400x64_1_0_0_1_n_n_wf : DotDims.WF S400x512 S512x64 S400x64 [1] [0] [0] [1] [] []
  dot_S400x64_S64x1_S400x1_1_0_0_1_n_n_wf : DotDims.WF S400x64 S64x1 S400x1 [1] [0] [0] [1] [] []

variable [Facts₀]

def scatter_S400_S6400x1_S6400_n_0_0_1 : ScatterDims S400 S6400x1 S6400 where
  updateWindowDims := []
  insertedWindowDims := [0]
  scatterDimsToOperandDims := [0]
  indexVectorDim := 1
  wf := scatter_S400_S6400x1_S6400_n_0_0_1_wf
def gather_S400x3_S6400x1_S6400x3_1_0_n_n_0_1_13 : GatherDims S400x3 S6400x1 S6400x3 where
  offsetDims := [1]
  collapsedSliceDims := [0]
  operandBatchingDims := []
  startIndicesBatchingDims := []
  startIndexMap := [0]
  indexVectorDim := 1
  sliceSizes := ![1, 3]
  wf := gather_S400x3_S6400x1_S6400x3_1_0_n_n_0_1_13_wf
def scatter_S400x3_S6400x1_S6400x3_1_0_0_1 : ScatterDims S400x3 S6400x1 S6400x3 where
  updateWindowDims := [1]
  insertedWindowDims := [0]
  scatterDimsToOperandDims := [0]
  indexVectorDim := 1
  wf := scatter_S400x3_S6400x1_S6400x3_1_0_0_1_wf
def dot_S400x3_S3x5_S400x5_1_0_0_1_n_n : DotDims S400x3 S3x5 S400x5 where
  lhsContracting := [1]
  rhsContracting := [0]
  lhsNonContracting := [0]
  rhsNonContracting := [1]
  lhsBatch := []
  rhsBatch := []
  wf := dot_S400x3_S3x5_S400x5_1_0_0_1_n_n_wf
def gather_S400x5_S6400x1_S6400x5_1_0_n_n_0_1_15 : GatherDims S400x5 S6400x1 S6400x5 where
  offsetDims := [1]
  collapsedSliceDims := [0]
  operandBatchingDims := []
  startIndicesBatchingDims := []
  startIndexMap := [0]
  indexVectorDim := 1
  sliceSizes := ![1, 5]
  wf := gather_S400x5_S6400x1_S6400x5_1_0_n_n_0_1_15_wf
def scatter_S400x5_S6400x1_S6400x5_1_0_0_1 : ScatterDims S400x5 S6400x1 S6400x5 where
  updateWindowDims := [1]
  insertedWindowDims := [0]
  scatterDimsToOperandDims := [0]
  indexVectorDim := 1
  wf := scatter_S400x5_S6400x1_S6400x5_1_0_0_1_wf
def dot_S400x5_S5x160000_S400x160000_1_0_0_1_n_n : DotDims S400x5 S5x160000 S400x160000 where
  lhsContracting := [1]
  rhsContracting := [0]
  lhsNonContracting := [0]
  rhsNonContracting := [1]
  lhsBatch := []
  rhsBatch := []
  wf := dot_S400x5_S5x160000_S400x160000_1_0_0_1_n_n_wf
def dot_S400x160000_S160000x400_S400x400_1_0_0_1_n_n : DotDims S400x160000 S160000x400 S400x400 where
  lhsContracting := [1]
  rhsContracting := [0]
  lhsNonContracting := [0]
  rhsNonContracting := [1]
  lhsBatch := []
  rhsBatch := []
  wf := dot_S400x160000_S160000x400_S400x400_1_0_0_1_n_n_wf
def gather_S400x400_S6400x1_S6400x400_1_0_n_n_0_1_1400 : GatherDims S400x400 S6400x1 S6400x400 where
  offsetDims := [1]
  collapsedSliceDims := [0]
  operandBatchingDims := []
  startIndicesBatchingDims := []
  startIndexMap := [0]
  indexVectorDim := 1
  sliceSizes := ![1, 400]
  wf := gather_S400x400_S6400x1_S6400x400_1_0_n_n_0_1_1400_wf
def scatter_S400x400_S6400x1_S6400x400_1_0_0_1 : ScatterDims S400x400 S6400x1 S6400x400 where
  updateWindowDims := [1]
  insertedWindowDims := [0]
  scatterDimsToOperandDims := [0]
  indexVectorDim := 1
  wf := scatter_S400x400_S6400x1_S6400x400_1_0_0_1_wf
def dot_S400x400_S400x512_S400x512_1_0_0_1_n_n : DotDims S400x400 S400x512 S400x512 where
  lhsContracting := [1]
  rhsContracting := [0]
  lhsNonContracting := [0]
  rhsNonContracting := [1]
  lhsBatch := []
  rhsBatch := []
  wf := dot_S400x400_S400x512_S400x512_1_0_0_1_n_n_wf
def dot_S400x512_S512x1024_S400x1024_1_0_0_1_n_n : DotDims S400x512 S512x1024 S400x1024 where
  lhsContracting := [1]
  rhsContracting := [0]
  lhsNonContracting := [0]
  rhsNonContracting := [1]
  lhsBatch := []
  rhsBatch := []
  wf := dot_S400x512_S512x1024_S400x1024_1_0_0_1_n_n_wf
def dot_S400x1024_S1024x512_S400x512_1_0_0_1_n_n : DotDims S400x1024 S1024x512 S400x512 where
  lhsContracting := [1]
  rhsContracting := [0]
  lhsNonContracting := [0]
  rhsNonContracting := [1]
  lhsBatch := []
  rhsBatch := []
  wf := dot_S400x1024_S1024x512_S400x512_1_0_0_1_n_n_wf
def dot_S400x512_S512x64_S400x64_1_0_0_1_n_n : DotDims S400x512 S512x64 S400x64 where
  lhsContracting := [1]
  rhsContracting := [0]
  lhsNonContracting := [0]
  rhsNonContracting := [1]
  lhsBatch := []
  rhsBatch := []
  wf := dot_S400x512_S512x64_S400x64_1_0_0_1_n_n_wf
def dot_S400x64_S64x1_S400x1_1_0_0_1_n_n : DotDims S400x64 S64x1 S400x1 where
  lhsContracting := [1]
  rhsContracting := [0]
  lhsNonContracting := [0]
  rhsNonContracting := [1]
  lhsBatch := []
  rhsBatch := []
  wf := dot_S400x64_S64x1_S400x1_1_0_0_1_n_n_wf

class Facts : Prop extends Facts₀ where

variable [Facts]
-- ==== Proof.KEntry.lean ====
/-
  The contents of every TensorCore buffer at the moment the fused region is entered: the argument arrays as given,
  and each intermediate array as the host operations before the region (the two degree scalings, the first graph
  convolution, the aggregation feeding the region) leave it.
-/
import proofs.«109394_j8830452760601_1_alg».proof.Proof.Gen.Kernel.Launch
import proofs.«109394_j8830452760601_1_alg».proof.Proof.Gen.Kernel.Skeleton
import proofs.«109394_j8830452760601_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffer contents when the region is entered, as a valuation: the launch contents run through the
    seven stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same, read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KKit.lean ====
/-
  The schedule of the fused region, as far as the body's proof needs it: each of the five input windows holds its
  block at every grid point (whether the pipeline fetched it there or kept it from the point before); the two
  conditions the body branches on hold exactly at the first and at the last of the 50 points; the output window is
  live only at the last point (elsewhere its staging buffer is handed back untouched and not written back); and the
  region's invariant is the accumulator buffer at some contents together with the generator register.
-/
import proofs.«109394_j8830452760601_1_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The body's first branch (reset the accumulator) is taken when the grid coordinate is zero, -/
abbrev cond0_0 (i : grid0.Coords) : Prop := (Scalar.cmpi .ne (Scalar.extui (Scalar.cmpi .eq (BitVec.ofNat 32 (i 0).val) 0#32)) 0#32) = 1#1
/-- that is, at the first point only. -/
theorem hcond0_0 : ∀ t : Fin cfg0.N, cond0_0 (grid0.coords t) ↔ t.val = 0 :=
  (by decide +kernel : ∀ t : Fin grid0.N, cond0_0 (grid0.coords t) ↔ t.val = 0)

/-- The body's second branch (copy the accumulator to the output) is taken when the coordinate is 49, -/
abbrev cond0_1 (i : grid0.Coords) : Prop := k0_cond2 i = 1#1
/-- that is, at the last point only. -/
theorem hcond0_1 : ∀ t : Fin cfg0.N, cond0_1 (grid0.coords t) ↔ t.val = 49 :=
  (by decide +kernel : ∀ t : Fin grid0.N, cond0_1 (grid0.coords t) ↔ t.val = 49)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the output window is idle and is not written back; -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- at the last point it is live. -/
theorem liveAt0_5 : ∀ t : Fin cfg0.N, cond0_1 (grid0.coords t) → cfg0.idle 5 (grid0.coords t) = false := by decide +kernel

/-- Each window's current staging memref at point t, as the pipeline passes it to the body, and its wholeness. -/
abbrev ms0_0 (t : Fin cfg0.N) : Memref sig .tc .vmem S400x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3200x400 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x400 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S400x400 .f32 := Memref.whole cc0_scratch0

/-- The class invariant of the region with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KBody.lean ====
/-
  The kernel body at one grid point, on any whole staging buffers. Its five inputs are left as they were. The
  accumulator ends at  acc' = step(inputs, acc)  where step adds this point's partial product to acc, and at the
  first point acc is first reset to zero, so acc' = step(inputs, 0). At the last point the output buffer receives
  acc'; at every other point the output buffer is not touched.
-/
import proofs.«109394_j8830452760601_1_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store through the whole-buffer rectangle, made last, covers every index whatever was stored before it. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

theorem hz2 : (![0, 0] : Fin 2 → Nat) = fun _ => 0 := by funext a; fin_cases a <;> rfl

set_option maxHeartbeats 1000000 in
/-- A middle point (neither first nor last): the accumulator takes one step; the output buffer is untouched. -/
theorem runB (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : ¬cond0_0 i) (hc1 : ¬cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (xi5)
            ∗ owns (c : Thread nD τ) arg7 fullShare (k0_pay2 x0 x1 x3 x2 x4 xs)) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2]

set_option maxHeartbeats 1000000 in
/-- The first point: the accumulator is reset to zero, then takes one step; the output buffer is untouched. -/
theorem runA (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : cond0_0 i) (hc1 : ¬cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (xi5)
            ∗ owns (c : Thread nD τ) arg7 fullShare (k0_pay2 x0 x1 x3 x2 x4 (k0_pay1 (F := F)))) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, View.ld_unit_zero (S := S400x5) hz2, View.ld_unit_zero (S := S5x3200) hz2, View.ld_unit_zero (S := S400x1) hz2, View.ld_unit_zero (S := S3200x400) hz2, View.ld_unit_zero (S := S400x400) hz2, View.readCov_unit_zero (S := S400x400) _ hz2]

set_option maxHeartbeats 1000000 in
/-- The last point: the accumulator takes one step and its new contents are copied to the output buffer. -/
theorem runC (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : ¬cond0_0 i) (hc1 : cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k0_pay2 x0 x1 x3 x2 x4 xs)
            ∗ owns (c : Thread nD τ) arg7 fullShare (k0_pay2 x0 x1 x3 x2 x4 xs)) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [View.read_writes_eq_canon _ _ _ (cover_cons_unit_zero hz2 _ _ _), View.canon_cons_unit_zero hz2]
    simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2, View.readCov_unit_zero (S := S400x400) _ hz2]
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2]

end Cert.Kernel.Hand

end
-- ==== Proof.KData.lean ====
/-
  The proof data of the fused region. After the body at grid point n the accumulator holds  accAt n , defined by
  recursion over the points: accAt 0 = step(blocks at 0, 0), accAt (n+1) = step(blocks at n+1, accAt n), where a
  point's blocks are the whole aggregation matrix, columns 3200·n … 3200·n+3199 of the first weight, the two scalings,
  and rows 3200·n … 3200·n+3199 of the second weight. The inputs' staging buffers keep their blocks; the output's
  staging buffer holds the accumulator after the last point. Between points the region's invariant is the accumulator
  at accAt of the point before, with the generator register at some state. The body's obligation at every point follows
  from the three runs of the body, by the position of the point.
-/
import proofs.«109394_j8830452760601_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after the body at position n. -/
def accAt (c : Dev nD) : (n : ℕ) → n < cfg0.N → Vec F S400x400 .f32
  | 0, hn => k0_pay2 (iblk m c 0 ⟨0, hn⟩) (iblk m c 1 ⟨0, hn⟩) (iblk m c 3 ⟨0, hn⟩) (iblk m c 2 ⟨0, hn⟩) (iblk m c 4 ⟨0, hn⟩) (k0_pay1 (F := F))
  | n + 1, hn => k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩)
      (accAt c n (Nat.lt_of_succ_lt hn))

theorem accAt_zero (c : Dev nD) (t : Fin cfg0.N) (h : t.val = 0) :
    accAt m c t.val t.isLt = k0_pay2 (iblk m c 0 t) (iblk m c 1 t) (iblk m c 3 t) (iblk m c 2 t) (iblk m c 4 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt m c t.val t.isLt = k0_pay2 (iblk m c 0 t) (iblk m c 1 t) (iblk m c 3 t) (iblk m c 2 t) (iblk m c 4 t)
      (accAt m c (t.val - 1) (Nat.lt_of_le_of_lt (Nat.sub_le _ _) t.isLt)) := by
  obtain ⟨n, hn⟩ := t
  cases n with
  | zero => exact absurd rfl h
  | succ n => rfl

/-- The region invariant before position n: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the position says which run of the body applies;
    the invariant hands over the accumulator (at anything at the first point, at the previous point's contents later)
    and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 50 := lt_of_lt_of_eq t.isLt (show cfg0.N = 50 from N_0)
  by_cases h0 : t.val = 0
  · have h1 : ¬t.val = 49 := by omega
    rw [Dat.leavesExact_idle (dats m 0 c) 5 t (idleAt0_5 t (fun h => h1 ((hcond0_1 t).mp h))) (noFlush0_5 t (fun h => h1 ((hcond0_1 t).mp h)))]
    rw [accAt_zero m c t h0]
    rw [PhiS_castSucc m c t, PhiS_zero m c _ _ h0, PhiA0_eq]
    iintro ⟨⟨⟨%xs, HS⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond0_0 t).mpr h0) (fun h => h1 ((hcond0_1 t).mp h))
      (iblk m c 0 t) (iblk m c 1 t) (iblk m c 2 t) (iblk m c 3 t) (iblk m c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 49
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [accAt_pos m c t h0]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ (fun h => h0 ((hcond0_0 t).mp h)) ((hcond0_1 t).mpr h1)
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5 t (fun h => h1 ((hcond0_1 t).mp h))) (noFlush0_5 t (fun h => h1 ((hcond0_1 t).mp h)))]
      rw [accAt_pos m c t h0]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 50 := N_0; omega)

end Cert.Kernel.Hand

end
-- ==== Proof.KHost.lean ====
/-
  The host side of the frame run. @main is seven stretches of host operations, the fused region, and eleven more
  stretches of host operations ending in the result. Here: @main reduces to the region continued by the later
  stretches, at the contents the earlier ones leave; the later stretches touch only unscoped buffers, allocate nothing
  and write none of the six arrays the region's windows stage; no operation at all writes an argument array. From
  these, a run to the frame post (every window's array at what the proof data compute, every other unscoped buffer at
  what the later stretches leave in it) is a run after which all eighteen argument arrays hold what they were given,
  and the result buffer holds what the later stretches compute from the region's exit contents.

  The counting is done once per stretch: each operation writes exactly one buffer (its result), and that buffer is
  compared against the list of argument arrays and, for the later stretches, the list of the windows' arrays.
-/
import proofs.«109394_j8830452760601_1_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches -/

/-- The eleven stretches of host operations after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]
/-- The seven stretches of host operations before the region, in order. -/
abbrev headOps : List (List (HloOp τ sig (Elt F))) := [hostOps0, hostOps0_1, hostOps0_2, hostOps0_3, hostOps0_4, hostOps0_5, hostOps0_6]

/-! ## No operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-! ## @main around the region -/

/-- @main reduces to the region continued by the eleven later stretches, holding the unscoped buffers at the contents
    the seven earlier stretches leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main headOps tailOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-! ## What the operations write -/

/-- The argument arrays of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
/-- The arrays of the region's six windows, in window order. -/
abbrev arrRefs : List (Ref sig .tc) := [main_v51, main_arg3, main_v52, main_v53, main_arg6, main_v54]

/-- The operation writes exactly one buffer, and that buffer is none of `L`. -/
def WritesOff (L : List (Ref sig .tc)) (op : HloOp τ sig (Elt F)) : Prop :=
  ∃ y : Ref sig .tc, op.writes = {Proc.devRef .tc y} ∧ y ∉ L

/-- Such an operation writes no buffer of `L`. -/
theorem WritesOff.not_mem {L : List (Ref sig .tc)} {op : HloOp τ sig (Elt F)} (h : WritesOff L op) {r : Ref sig .tc} (hr : r ∈ L) :
    Proc.devRef .tc r ∉ op.writes := by
  obtain ⟨y, hy, hn⟩ := h
  rw [hy, Finset.mem_singleton]
  exact StableHlo.devRef_ne_of_ne (fun e => hn (e ▸ hr))

-- before the region: each operation's result buffer is no argument array
theorem hostOps0_off : (hostOps0 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_off : (hostOps0_1 : List (HloOp τ sig (Elt F))).Forall (WritesOff argRefs) :=
  ⟨⟨_, rfl, by decide⟩, ⟨_, rfl, by decide⟩, ⟨_, rfl, by decide⟩⟩
theorem hostOps0_2_off : (hostOps0_2 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_off : (hostOps0_3 : List (HloOp τ sig (Elt F))).Forall (WritesOff argRefs) :=
  ⟨⟨_, rfl, by decide⟩, ⟨_, rfl, by decide⟩, ⟨_, rfl, by decide⟩⟩
theorem hostOps0_4_off : (hostOps0_4 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_5_off : (hostOps0_5 : List (HloOp τ sig (Elt F))).Forall (WritesOff argRefs) :=
  ⟨_, rfl, by decide⟩
theorem hostOps0_6_off : (hostOps0_6 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
-- after the region: each operation's result buffer is neither an argument array nor a window's array
theorem hostOps1_off : (hostOps1 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_1_off : (hostOps1_1 : List (HloOp τ sig (Elt F))).Forall (WritesOff (argRefs ++ arrRefs)) :=
  ⟨_, rfl, by decide⟩
theorem hostOps1_2_off : (hostOps1_2 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_3_off : (hostOps1_3 : List (HloOp τ sig (Elt F))).Forall (WritesOff (argRefs ++ arrRefs)) :=
  ⟨_, rfl, by decide⟩
theorem hostOps1_4_off : (hostOps1_4 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_5_off : (hostOps1_5 : List (HloOp τ sig (Elt F))).Forall (WritesOff (argRefs ++ arrRefs)) :=
  ⟨_, rfl, by decide⟩
theorem hostOps1_6_off : (hostOps1_6 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_7_off : (hostOps1_7 : List (HloOp τ sig (Elt F))).Forall (WritesOff (argRefs ++ arrRefs)) :=
  ⟨_, rfl, by decide⟩
theorem hostOps1_8_off : (hostOps1_8 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_9_off : (hostOps1_9 : List (HloOp τ sig (Elt F))).Forall (WritesOff (argRefs ++ arrRefs)) :=
  ⟨_, rfl, by decide⟩
theorem hostOps1_10_off : (hostOps1_10 : List (HloOp τ sig (Elt F))).Forall (WritesOff (argRefs ++ arrRefs)) :=
  ⟨⟨_, rfl, by decide⟩, ⟨_, rfl, by decide⟩, ⟨_, rfl, by decide⟩, ⟨_, rfl, by decide⟩⟩

/-- Every operation after the region writes one buffer that is neither an argument array nor an array of a window. -/
theorem tail_off : ∀ ops ∈ (tailOps : List (List (HloOp τ sig (Elt F)))), ∀ op ∈ ops, WritesOff (argRefs ++ arrRefs) op := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_off) op hop
  · exact (List.forall_iff_forall_mem.mp hostOps1_1_off) op hop
  · exact (List.forall_iff_forall_mem.mp hostOps1_2_off) op hop
  · exact (List.forall_iff_forall_mem.mp hostOps1_3_off) op hop
  · exact (List.forall_iff_forall_mem.mp hostOps1_4_off) op hop
  · exact (List.forall_iff_forall_mem.mp hostOps1_5_off) op hop
  · exact (List.forall_iff_forall_mem.mp hostOps1_6_off) op hop
  · exact (List.forall_iff_forall_mem.mp hostOps1_7_off) op hop
  · exact (List.forall_iff_forall_mem.mp hostOps1_8_off) op hop
  · exact (List.forall_iff_forall_mem.mp hostOps1_9_off) op hop
  · exact (List.forall_iff_forall_mem.mp hostOps1_10_off) op hop

/-- Every operation before the region writes one buffer that is no argument array. -/
theorem head_off : ∀ op ∈ (headOps : List (List (HloOp τ sig (Elt F)))).flatten, WritesOff argRefs op := by
  intro op hop
  obtain ⟨ops, hops, hop⟩ := List.mem_flatten.mp hop
  simp only [headOps, List.mem_cons, List.mem_nil_iff, or_false] at hops
  rcases hops with rfl | rfl | rfl | rfl | rfl | rfl | rfl
  · exact (List.forall_iff_forall_mem.mp hostOps0_off) op hop
  · exact (List.forall_iff_forall_mem.mp hostOps0_1_off) op hop
  · exact (List.forall_iff_forall_mem.mp hostOps0_2_off) op hop
  · exact (List.forall_iff_forall_mem.mp hostOps0_3_off) op hop
  · exact (List.forall_iff_forall_mem.mp hostOps0_4_off) op hop
  · exact (List.forall_iff_forall_mem.mp hostOps0_5_off) op hop
  · exact (List.forall_iff_forall_mem.mp hostOps0_6_off) op hop

/-- The operations after the region touch the windows' arrays and the bypassing buffers only: each touches unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- Each window's array is one of the six listed. -/
theorem arrRef_mem : ∀ w, Pipeline.arrRef spec0 w ∈ (argRefs ++ arrRefs) := by decide

/-- And they write no array of a window: each writes only its own result buffer, which is none of the six. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_off ops hops op hop).not_mem (arrRef_mem w)

/-- No operation before the region writes an argument array, so the region finds each as it was given. -/
theorem V0_of_arg (c : Dev nD) {r : Ref sig .tc} (hr : r ∈ argRefs) : V m c r = m ((c : Thread nD τ).loc r) :=
  StableHlo.after_of_forall_not_mem _ _ fun op hop => (head_off op hop).not_mem hr

theorem V_main_arg0 (c : Dev nD) : V m c main_arg0 = m ((c : Thread nD τ).loc main_arg0) := V0_of_arg m c (by decide)
theorem V_main_arg1 (c : Dev nD) : V m c main_arg1 = m ((c : Thread nD τ).loc main_arg1) := V0_of_arg m c (by decide)
theorem V_main_arg2 (c : Dev nD) : V m c main_arg2 = m ((c : Thread nD τ).loc main_arg2) := V0_of_arg m c (by decide)
theorem V_main_arg3 (c : Dev nD) : V m c main_arg3 = m ((c : Thread nD τ).loc main_arg3) := V0_of_arg m c (by decide)
theorem V_main_arg4 (c : Dev nD) : V m c main_arg4 = m ((c : Thread nD τ).loc main_arg4) := V0_of_arg m c (by decide)
theorem V_main_arg5 (c : Dev nD) : V m c main_arg5 = m ((c : Thread nD τ).loc main_arg5) := V0_of_arg m c (by decide)
theorem V_main_arg6 (c : Dev nD) : V m c main_arg6 = m ((c : Thread nD τ).loc main_arg6) := V0_of_arg m c (by decide)
theorem V_main_arg7 (c : Dev nD) : V m c main_arg7 = m ((c : Thread nD τ).loc main_arg7) := V0_of_arg m c (by decide)
theorem V_main_arg8 (c : Dev nD) : V m c main_arg8 = m ((c : Thread nD τ).loc main_arg8) := V0_of_arg m c (by decide)
theorem V_main_arg9 (c : Dev nD) : V m c main_arg9 = m ((c : Thread nD τ).loc main_arg9) := V0_of_arg m c (by decide)
theorem V_main_arg10 (c : Dev nD) : V m c main_arg10 = m ((c : Thread nD τ).loc main_arg10) := V0_of_arg m c (by decide)
theorem V_main_arg11 (c : Dev nD) : V m c main_arg11 = m ((c : Thread nD τ).loc main_arg11) := V0_of_arg m c (by decide)
theorem V_main_arg12 (c : Dev nD) : V m c main_arg12 = m ((c : Thread nD τ).loc main_arg12) := V0_of_arg m c (by decide)
theorem V_main_arg13 (c : Dev nD) : V m c main_arg13 = m ((c : Thread nD τ).loc main_arg13) := V0_of_arg m c (by decide)
theorem V_main_arg14 (c : Dev nD) : V m c main_arg14 = m ((c : Thread nD τ).loc main_arg14) := V0_of_arg m c (by decide)
theorem V_main_arg15 (c : Dev nD) : V m c main_arg15 = m ((c : Thread nD τ).loc main_arg15) := V0_of_arg m c (by decide)
theorem V_main_arg16 (c : Dev nD) : V m c main_arg16 = m ((c : Thread nD τ).loc main_arg16) := V0_of_arg m c (by decide)
theorem V_main_arg17 (c : Dev nD) : V m c main_arg17 = m ((c : Thread nD τ).loc main_arg17) := V0_of_arg m c (by decide)

/-- A buffer that is no window's array and that no operation after the region writes ends as the region found it. -/
theorem afterTail_of_off (dats : (p : Fin 1) → (c : Dev nD) → Dat τ (Elt F) Unit ℕ (UR sig nD τ) ℕ (cfgs p) c)
    (c : Dev nD) {r : Ref sig .tc} (hr : r ∈ argRefs ++ arrRefs) (ha : ∀ w, Pipeline.arrRef spec0 w ≠ r) :
    Pipeline.afterTail₀ cfgs dats 0 (V0 m) tailOps c r = V m c r := by
  unfold Pipeline.afterTail₀
  rw [StableHlo.after_of_forall_not_mem _ _ fun op hop => ?_, Pipeline.withArrays_of_ne _ c (V0 m c) _ r ha]
  obtain ⟨ops, hops, hop⟩ := List.mem_flatten.mp hop
  exact (tail_off ops hops op hop).not_mem hr

/-- An argument array that no window stages ends unchanged: it bypasses the region, no operation after the region writes
    it, and none before did. -/
theorem post_bypass (dats : (p : Fin 1) → (c : Dev nD) → Dat τ (Elt F) Unit ℕ (UR sig nD τ) ℕ (cfgs p) c)
    {r₀ : PUnit × MemSt nD τ sig (Elt F)}
    (h : Pipeline.FramePost cfgs dats 0 (Pipeline.afterTail₀ cfgs dats 0 (V0 m) tailOps) r₀) (c : Dev nD)
    {r : Ref sig .tc} (hs : r.isScoped = false) (ha : ∀ w, (spec0 w).arr.view.ref ≠ r) (hr : r ∈ argRefs) :
    r₀.2.mem ((c.tc : Thread nD τ).loc r) = m ((c.tc : Thread nD τ).loc r) :=
  ((h c).2 r (Pipeline.mem_restRefs_of r hs ha)).trans
    ((afterTail_of_off m dats c (List.mem_append_left _ hr) ha).trans (V0_of_arg m c hr))

/-- An argument array that an input window stages ends unchanged: the region leaves an input's array as it found it, and
    no operation before the region wrote it. -/
theorem post_staged (dats : (p : Fin 1) → (c : Dev nD) → Dat τ (Elt F) Unit ℕ (UR sig nD τ) ℕ (cfgs p) c)
    (hA : ∀ c w, (dats 0 c).A w = V m c (Pipeline.arrRef spec0 w))
    {r₀ : PUnit × MemSt nD τ sig (Elt F)}
    (h : Pipeline.FramePost cfgs dats 0 (Pipeline.afterTail₀ cfgs dats 0 (V0 m) tailOps) r₀) (c : Dev nD)
    (w : Fin 6) (hin : (cfg0.win w).isOut = false) (hr : Pipeline.arrRef spec0 w ∈ argRefs) :
    r₀.2.mem ((c.tc : Thread nD τ).loc (Pipeline.arrRef spec0 w)) = m ((c.tc : Thread nD τ).loc (Pipeline.arrRef spec0 w)) :=
  ((h c).1 w).trans (((dats 0 c).arrAt_in w hin _).trans ((hA c w).trans (V0_of_arg m c hr)))

/-- At a final state satisfying the frame post, read at the contents after the operations that follow the region, every
    argument array holds what it was given: the two staged ones as inputs of the region, the other sixteen as buffers
    that bypass it. -/
theorem args_of (dats : (p : Fin 1) → (c : Dev nD) → Dat τ (Elt F) Unit ℕ (UR sig nD τ) ℕ (cfgs p) c)
    (hA : ∀ c w, (dats 0 c).A w = V m c (Pipeline.arrRef spec0 w))
    (r₀ : PUnit × MemSt nD τ sig (Elt F))
    (h : Pipeline.FramePost cfgs dats 0 (Pipeline.afterTail₀ cfgs dats 0 (V0 m) tailOps) r₀) (c : Dev nD) :
    r₀.2.mem ((c.tc : Thread nD τ).loc main_arg0) = m ((c.tc : Thread nD τ).loc main_arg0)
      ∧ r₀.2.mem ((c.tc : Thread nD τ).loc main_arg1) = m ((c.tc : Thread nD τ).loc main_arg1)
      ∧ r₀.2.mem ((c.tc : Thread nD τ).loc main_arg2) = m ((c.tc : Thread nD τ).loc main_arg2)
      ∧ r₀.2.mem ((c.tc : Thread nD τ).loc main_arg3) = m ((c.tc : Thread nD τ).loc main_arg3)
      ∧ r₀.2.mem ((c.tc : Thread nD τ).loc main_arg4) = m ((c.tc : Thread nD τ).loc main_arg4)
      ∧ r₀.2.mem ((c.tc : Thread nD τ).loc main_arg5) = m ((c.tc : Thread nD τ).loc main_arg5)
      ∧ r₀.2.mem ((c.tc : Thread nD τ).loc main_arg6) = m ((c.tc : Thread nD τ).loc main_arg6)
      ∧ r₀.2.mem ((c.tc : Thread nD τ).loc main_arg7) = m ((c.tc : Thread nD τ).loc main_arg7)
      ∧ r₀.2.mem ((c.tc : Thread nD τ).loc main_arg8) = m ((c.tc : Thread nD τ).loc main_arg8)
      ∧ r₀.2.mem ((c.tc : Thread nD τ).loc main_arg9) = m ((c.tc : Thread nD τ).loc main_arg9)
      ∧ r₀.2.mem ((c.tc : Thread nD τ).loc main_arg10) = m ((c.tc : Thread nD τ).loc main_arg10)
      ∧ r₀.2.mem ((c.tc : Thread nD τ).loc main_arg11) = m ((c.tc : Thread nD τ).loc main_arg11)
      ∧ r₀.2.mem ((c.tc : Thread nD τ).loc main_arg12) = m ((c.tc : Thread nD τ).loc main_arg12)
      ∧ r₀.2.mem ((c.tc : Thread nD τ).loc main_arg13) = m ((c.tc : Thread nD τ).loc main_arg13)
      ∧ r₀.2.mem ((c.tc : Thread nD τ).loc main_arg14) = m ((c.tc : Thread nD τ).loc main_arg14)
      ∧ r₀.2.mem ((c.tc : Thread nD τ).loc main_arg15) = m ((c.tc : Thread nD τ).loc main_arg15)
      ∧ r₀.2.mem ((c.tc : Thread nD τ).loc main_arg16) = m ((c.tc : Thread nD τ).loc main_arg16)
      ∧ r₀.2.mem ((c.tc : Thread nD τ).loc main_arg17) = m ((c.tc : Thread nD τ).loc main_arg17) :=
  ⟨post_bypass m dats h c rfl (by decide) (by decide),
   post_bypass m dats h c rfl (by decide) (by decide),
   post_bypass m dats h c rfl (by decide) (by decide),
   post_staged m dats hA h c 1 rfl (by decide),
   post_bypass m dats h c rfl (by decide) (by decide),
   post_bypass m dats h c rfl (by decide) (by decide),
   post_staged m dats hA h c 4 rfl (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide)⟩

/-- The frame from a frame run: for any proof data whose arrays are the region-entry contents, a run to the frame post
    read at the contents after the operations that follow the region is a run after which every argument array holds
    what it was given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_of m dats hA r h c) h

/-- The program's result buffer bypasses the region: at the end it holds what the operations after the region leave in it,
    computed from the region's exit contents. -/
theorem result_of (dats : (p : Fin 1) → (c : Dev nD) → Dat τ (Elt F) Unit ℕ (UR sig nD τ) ℕ (cfgs p) c)
    (r₀ : PUnit × MemSt nD τ sig (Elt F))
    (h : Pipeline.FramePost cfgs dats 0 (Pipeline.afterTail₀ cfgs dats 0 (V0 m) tailOps) r₀) (c : Dev nD) :
    r₀.2.mem ((c.tc : Thread nD τ).loc main_v115) = Pipeline.afterTail₀ cfgs dats 0 (V0 m) tailOps c main_v115 :=
  (h c).2 main_v115 (Pipeline.mem_restRefs_of main_v115 rfl (by decide))

/-- The region's exit contents at a window's array: what the proof data compute for it after the last grid point. -/
theorem exit_at_arr (dats : (p : Fin 1) → (c : Dev nD) → Dat τ (Elt F) Unit ℕ (UR sig nD τ) ℕ (cfgs p) c) (c : Dev nD) (w : Fin 6) :
    Pipeline.withArrays spec0 c (V0 m c) (fun w => (dats 0 c).arrAt w cfg0.N) (Proc.devRef .tc (Pipeline.arrRef spec0 w))
      = (dats 0 c).arrAt w cfg0.N :=
  Pipeline.withArrays_arr spec0 launch0.win.arr_inj c (V0 m c) _ w

/-- The region's exit contents at a buffer that is no window's array: what the region found there. -/
theorem exit_at_rest (dats : (p : Fin 1) → (c : Dev nD) → Dat τ (Elt F) Unit ℕ (UR sig nD τ) ℕ (cfgs p) c) (c : Dev nD)
    (r : Ref sig .tc) (ha : ∀ w, Pipeline.arrRef spec0 w ≠ r) :
    Pipeline.withArrays spec0 c (V0 m c) (fun w => (dats 0 c).arrAt w cfg0.N) (Proc.devRef .tc r) = V m c r :=
  Pipeline.withArrays_of_ne spec0 c (V0 m c) _ r ha

end Cert.Kernel.Hand

end
-- ==== Proof.KRun.lean ====
/-
  The whole program's run. Every weakly fair execution of @main ends, nothing faults; at the end every array of
  the fused region holds what the proof data compute for it, and every other buffer what the host operations after
  the region leave in it. In particular the eighteen argument arrays end as they began.
-/
import proofs.«109394_j8830452760601_1_alg».proof.Proof.KData
import proofs.«109394_j8830452760601_1_alg».proof.Proof.KHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end and its argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KIEntry.lean ====
/-
  The contents of every TensorCore buffer at the moment the fused region is entered: the argument arrays as given,
  and each intermediate array as the host operations before the region (the two degree scalings, the first graph
  convolution, the aggregation feeding the region) leave it.
-/
import proofs.«109394_j8830452760601_1_alg».proof.Proof.Gen.KernelIdeal.Launch
import proofs.«109394_j8830452760601_1_alg».proof.Proof.Gen.KernelIdeal.Skeleton
import proofs.«109394_j8830452760601_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffer contents when the region is entered, as a valuation: the launch contents run through the
    seven stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same, read at a TensorCore reference. -/
abbrev V (c : Dev nD) (b : Ref sig .tc) : Buf (Elt F) ((c : Thread nD τ).loc b) := V0 m c (Proc.devRef .tc b)

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIKit.lean ====
/-
  The schedule of the fused region, as far as the body's proof needs it: each of the five input windows holds its
  block at every grid point (whether the pipeline fetched it there or kept it from the point before); the two
  conditions the body branches on hold exactly at the first and at the last of the 50 points; the output window is
  live only at the last point (elsewhere its staging buffer is handed back untouched and not written back); and the
  region's invariant is the accumulator buffer at some contents together with the generator register.
-/
import proofs.«109394_j8830452760601_1_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The body's first branch (reset the accumulator) is taken when the grid coordinate is zero, -/
abbrev cond0_0 (i : grid0.Coords) : Prop := (Scalar.cmpi .ne (Scalar.extui (Scalar.cmpi .eq (BitVec.ofNat 32 (i 0).val) 0#32)) 0#32) = 1#1
/-- that is, at the first point only. -/
theorem hcond0_0 : ∀ t : Fin cfg0.N, cond0_0 (grid0.coords t) ↔ t.val = 0 :=
  (by decide +kernel : ∀ t : Fin grid0.N, cond0_0 (grid0.coords t) ↔ t.val = 0)

/-- The body's second branch (copy the accumulator to the output) is taken when the coordinate is 49, -/
abbrev cond0_1 (i : grid0.Coords) : Prop := k0_cond2 i = 1#1
/-- that is, at the last point only. -/
theorem hcond0_1 : ∀ t : Fin cfg0.N, cond0_1 (grid0.coords t) ↔ t.val = 49 :=
  (by decide +kernel : ∀ t : Fin grid0.N, cond0_1 (grid0.coords t) ↔ t.val = 49)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the output window is idle and is not written back; -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- at the last point it is live. -/
theorem liveAt0_5 : ∀ t : Fin cfg0.N, cond0_1 (grid0.coords t) → cfg0.idle 5 (grid0.coords t) = false := by decide +kernel

/-- Each window's current staging memref at point t, as the pipeline passes it to the body, and its wholeness. -/
abbrev ms0_0 (t : Fin cfg0.N) : Memref sig .tc .vmem S400x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S400x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3200x400 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x400 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S400x400 .f32 := Memref.whole cc0_scratch0

/-- The class invariant of the region with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIBody.lean ====
/-
  The kernel body at one grid point, on any whole staging buffers. Its five inputs are left as they were. The
  accumulator ends at  acc' = step(inputs, acc)  where step adds this point's partial product to acc, and at the
  first point acc is first reset to zero, so acc' = step(inputs, 0). At the last point the output buffer receives
  acc'; at every other point the output buffer is not touched.
-/
import proofs.«109394_j8830452760601_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store through the whole-buffer rectangle, made last, covers every index whatever was stored before it. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

theorem hz2 : (![0, 0] : Fin 2 → Nat) = fun _ => 0 := by funext a; fin_cases a <;> rfl

set_option maxHeartbeats 1000000 in
/-- A middle point (neither first nor last): the accumulator takes one step; the output buffer is untouched. -/
theorem runB (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : ¬cond0_0 i) (hc1 : ¬cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (xi5)
            ∗ owns (c : Thread nD τ) arg7 fullShare (k0_pay2 x0 x1 x3 x2 x4 xs)) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2]

set_option maxHeartbeats 1000000 in
/-- The first point: the accumulator is reset to zero, then takes one step; the output buffer is untouched. -/
theorem runA (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : cond0_0 i) (hc1 : ¬cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (xi5)
            ∗ owns (c : Thread nD τ) arg7 fullShare (k0_pay2 x0 x1 x3 x2 x4 (k0_pay1 (F := F)))) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, View.ld_unit_zero (S := S400x5) hz2, View.ld_unit_zero (S := S5x3200) hz2, View.ld_unit_zero (S := S400x1) hz2, View.ld_unit_zero (S := S3200x400) hz2, View.ld_unit_zero (S := S400x400) hz2, View.readCov_unit_zero (S := S400x400) _ hz2]

set_option maxHeartbeats 1000000 in
/-- The last point: the accumulator takes one step and its new contents are copied to the output buffer. -/
theorem runC (c : Dev nD) (i : grid0.Coords)
    (arg1 : Memref sig .tc .vmem S400x5 .f32) (harg1 : arg1.IsWhole) (arg2 : Memref sig .tc .vmem S5x3200 .f32) (harg2 : arg2.IsWhole)
    (arg3 : Memref sig .tc .vmem S400x1 .f32) (harg3 : arg3.IsWhole) (arg4 : Memref sig .tc .vmem S400x1 .f32) (harg4 : arg4.IsWhole)
    (arg5 : Memref sig .tc .vmem S3200x400 .f32) (harg5 : arg5.IsWhole) (arg6 : Memref sig .tc .vmem S400x400 .f32) (harg6 : arg6.IsWhole)
    (arg7 : Memref sig .tc .vmem S400x400 .f32) (harg7 : arg7.IsWhole) (hc0 : ¬cond0_0 i) (hc1 : cond0_1 i)
    (x0 : Vec F S400x5 .f32) (x1 : Vec F S5x3200 .f32) (x2 x3 : Vec F S400x1 .f32) (x4 : Vec F S3200x400 .f32) (xi5 xs : Vec F S400x400 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k0_pay2 x0 x1 x3 x2 x4 xs)
            ∗ owns (c : Thread nD τ) arg7 fullShare (k0_pay2 x0 x1 x3 x2 x4 xs)) -∗ K ⟨⟩))
      ⊢ wp frame (wpE (defs₀ (F := F)) Variants.none c none) E (cc0__conv23_kernel i arg1 harg1 arg2 harg2 arg3 harg3 arg4 harg4 arg5 harg5 arg6 harg6 arg7 harg7) K := by
  simp only [cc0__conv23_kernel_eq_skeleton]; unfold cc0__conv23_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [View.read_writes_eq_canon _ _ _ (cover_cons_unit_zero hz2 _ _ _), View.canon_cons_unit_zero hz2]
    simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2, View.readCov_unit_zero (S := S400x400) _ hz2]
  iexists _; isplitr
  swap; · iexact HS
  ipureintro
  sl_unfold_run_names
  rw [View.read_writes_eq_canon _ _ _ (cover_cons_unit_zero hz2 _ _ _), View.canon_cons_unit_zero hz2]
  simp only [View.readAt_eq_ld, hf0, hf1, hf2, hf3, hf4, hfs, View.ld_unit_zero (S := S400x5) hz2, View.ld_unit_zero (S := S5x3200) hz2, View.ld_unit_zero (S := S400x1) hz2, View.ld_unit_zero (S := S3200x400) hz2, View.ld_unit_zero (S := S400x400) hz2]

end Cert.KernelIdeal.Hand

end
-- ==== Proof.KIData.lean ====
/-
  The proof data of the fused region. After the body at grid point n the accumulator holds  accAt n , defined by
  recursion over the points: accAt 0 = step(blocks at 0, 0), accAt (n+1) = step(blocks at n+1, accAt n), where a
  point's blocks are the whole aggregation matrix, columns 3200·n … 3200·n+3199 of the first weight, the two scalings,
  and rows 3200·n … 3200·n+3199 of the second weight. The inputs' staging buffers keep their blocks; the output's
  staging buffer holds the accumulator after the last point. Between points the region's invariant is the accumulator
  at accAt of the point before, with the generator register at some state. The body's obligation at every point follows
  from the three runs of the body, by the position of the point.
-/
import proofs.«109394_j8830452760601_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after the body at position n. -/
def accAt (c : Dev nD) : (n : ℕ) → n < cfg0.N → Vec F S400x400 .f32
  | 0, hn => k0_pay2 (iblk m c 0 ⟨0, hn⟩) (iblk m c 1 ⟨0, hn⟩) (iblk m c 3 ⟨0, hn⟩) (iblk m c 2 ⟨0, hn⟩) (iblk m c 4 ⟨0, hn⟩) (k0_pay1 (F := F))
  | n + 1, hn => k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩)
      (accAt c n (Nat.lt_of_succ_lt hn))

theorem accAt_zero (c : Dev nD) (t : Fin cfg0.N) (h : t.val = 0) :
    accAt m c t.val t.isLt = k0_pay2 (iblk m c 0 t) (iblk m c 1 t) (iblk m c 3 t) (iblk m c 2 t) (iblk m c 4 t) (k0_pay1 (F := F)) := by
  obtain ⟨n, hn⟩ := t
  cases n with
  | zero => rfl
  | succ n => exact absurd h (Nat.succ_ne_zero n)

theorem accAt_pos (c : Dev nD) (t : Fin cfg0.N) (h : t.val ≠ 0) :
    accAt m c t.val t.isLt = k0_pay2 (iblk m c 0 t) (iblk m c 1 t) (iblk m c 3 t) (iblk m c 2 t) (iblk m c 4 t)
      (accAt m c (t.val - 1) (Nat.lt_of_le_of_lt (Nat.sub_le _ _) t.isLt)) := by
  obtain ⟨n, hn⟩ := t
  cases n with
  | zero => exact absurd rfl h
  | succ n => rfl

/-- The region invariant before position n: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; the position says which run of the body applies;
    the invariant hands over the accumulator (at anything at the first point, at the previous point's contents later)
    and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 50 := lt_of_lt_of_eq t.isLt (show cfg0.N = 50 from N_0)
  by_cases h0 : t.val = 0
  · have h1 : ¬t.val = 49 := by omega
    rw [Dat.leavesExact_idle (dats m 0 c) 5 t (idleAt0_5 t (fun h => h1 ((hcond0_1 t).mp h))) (noFlush0_5 t (fun h => h1 ((hcond0_1 t).mp h)))]
    rw [accAt_zero m c t h0]
    rw [PhiS_castSucc m c t, PhiS_zero m c _ _ h0, PhiA0_eq]
    iintro ⟨⟨⟨%xs, HS⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond0_0 t).mpr h0) (fun h => h1 ((hcond0_1 t).mp h))
      (iblk m c 0 t) (iblk m c 1 t) (iblk m c 2 t) (iblk m c 3 t) (iblk m c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 49
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [accAt_pos m c t h0]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ (fun h => h0 ((hcond0_0 t).mp h)) ((hcond0_1 t).mpr h1)
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5 t (fun h => h1 ((hcond0_1 t).mp h))) (noFlush0_5 t (fun h => h1 ((hcond0_1 t).mp h)))]
      rw [accAt_pos m c t h0]
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 50 := N_0; omega)

end Cert.KernelIdeal.Hand

end
-- ==== Proof.KIHost.lean ====
/-
  The host side of the frame run. @main is seven stretches of host operations, the fused region, and eleven more
  stretches of host operations ending in the result. Here: @main reduces to the region continued by the later
  stretches, at the contents the earlier ones leave; the later stretches touch only unscoped buffers, allocate nothing
  and write none of the six arrays the region's windows stage; no operation at all writes an argument array. From
  these, a run to the frame post (every window's array at what the proof data compute, every other unscoped buffer at
  what the later stretches leave in it) is a run after which all eighteen argument arrays hold what they were given,
  and the result buffer holds what the later stretches compute from the region's exit contents.

  The counting is done once per stretch: each operation writes exactly one buffer (its result), and that buffer is
  compared against the list of argument arrays and, for the later stretches, the list of the windows' arrays.
-/
import proofs.«109394_j8830452760601_1_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches -/

/-- The eleven stretches of host operations after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10]
/-- The seven stretches of host operations before the region, in order. -/
abbrev headOps : List (List (HloOp τ sig (Elt F))) := [hostOps0, hostOps0_1, hostOps0_2, hostOps0_3, hostOps0_4, hostOps0_5, hostOps0_6]

/-! ## No operation allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-! ## @main around the region -/

/-- @main reduces to the region continued by the eleven later stretches, holding the unscoped buffers at the contents
    the seven earlier stretches leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main headOps tailOps
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-! ## What the operations write -/

/-- The argument arrays of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
/-- The arrays of the region's six windows, in window order. -/
abbrev arrRefs : List (Ref sig .tc) := [main_v51, main_arg3, main_v52, main_v53, main_arg6, main_v54]

/-- The operation writes exactly one buffer, and that buffer is none of `L`. -/
def WritesOff (L : List (Ref sig .tc)) (op : HloOp τ sig (Elt F)) : Prop :=
  ∃ y : Ref sig .tc, op.writes = {Proc.devRef .tc y} ∧ y ∉ L

/-- Such an operation writes no buffer of `L`. -/
theorem WritesOff.not_mem {L : List (Ref sig .tc)} {op : HloOp τ sig (Elt F)} (h : WritesOff L op) {r : Ref sig .tc} (hr : r ∈ L) :
    Proc.devRef .tc r ∉ op.writes := by
  obtain ⟨y, hy, hn⟩ := h
  rw [hy, Finset.mem_singleton]
  exact StableHlo.devRef_ne_of_ne (fun e => hn (e ▸ hr))

-- before the region: each operation's result buffer is no argument array
theorem hostOps0_off : (hostOps0 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_off : (hostOps0_1 : List (HloOp τ sig (Elt F))).Forall (WritesOff argRefs) :=
  ⟨⟨_, rfl, by decide⟩, ⟨_, rfl, by decide⟩, ⟨_, rfl, by decide⟩⟩
theorem hostOps0_2_off : (hostOps0_2 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_off : (hostOps0_3 : List (HloOp τ sig (Elt F))).Forall (WritesOff argRefs) :=
  ⟨⟨_, rfl, by decide⟩, ⟨_, rfl, by decide⟩, ⟨_, rfl, by decide⟩⟩
theorem hostOps0_4_off : (hostOps0_4 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_5_off : (hostOps0_5 : List (HloOp τ sig (Elt F))).Forall (WritesOff argRefs) :=
  ⟨_, rfl, by decide⟩
theorem hostOps0_6_off : (hostOps0_6 : List (HloOp τ sig (Elt F))).Forall (WritesOff argRefs) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
-- after the region: each operation's result buffer is neither an argument array nor a window's array
theorem hostOps1_off : (hostOps1 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_1_off : (hostOps1_1 : List (HloOp τ sig (Elt F))).Forall (WritesOff (argRefs ++ arrRefs)) :=
  ⟨_, rfl, by decide⟩
theorem hostOps1_2_off : (hostOps1_2 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_3_off : (hostOps1_3 : List (HloOp τ sig (Elt F))).Forall (WritesOff (argRefs ++ arrRefs)) :=
  ⟨_, rfl, by decide⟩
theorem hostOps1_4_off : (hostOps1_4 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_5_off : (hostOps1_5 : List (HloOp τ sig (Elt F))).Forall (WritesOff (argRefs ++ arrRefs)) :=
  ⟨_, rfl, by decide⟩
theorem hostOps1_6_off : (hostOps1_6 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_7_off : (hostOps1_7 : List (HloOp τ sig (Elt F))).Forall (WritesOff (argRefs ++ arrRefs)) :=
  ⟨_, rfl, by decide⟩
theorem hostOps1_8_off : (hostOps1_8 : List (HloOp τ sig (Elt F))).Forall (WritesOff (argRefs ++ arrRefs)) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_9_off : (hostOps1_9 : List (HloOp τ sig (Elt F))).Forall (WritesOff (argRefs ++ arrRefs)) :=
  ⟨_, rfl, by decide⟩
theorem hostOps1_10_off : (hostOps1_10 : List (HloOp τ sig (Elt F))).Forall (WritesOff (argRefs ++ arrRefs)) :=
  ⟨⟨_, rfl, by decide⟩, ⟨_, rfl, by decide⟩, ⟨_, rfl, by decide⟩, ⟨_, rfl, by decide⟩⟩

/-- Every operation after the region writes one buffer that is neither an argument array nor an array of a window. -/
theorem tail_off : ∀ ops ∈ (tailOps : List (List (HloOp τ sig (Elt F)))), ∀ op ∈ ops, WritesOff (argRefs ++ arrRefs) op := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_off) op hop
  · exact (List.forall_iff_forall_mem.mp hostOps1_1_off) op hop
  · exact (List.forall_iff_forall_mem.mp hostOps1_2_off) op hop
  · exact (List.forall_iff_forall_mem.mp hostOps1_3_off) op hop
  · exact (List.forall_iff_forall_mem.mp hostOps1_4_off) op hop
  · exact (List.forall_iff_forall_mem.mp hostOps1_5_off) op hop
  · exact (List.forall_iff_forall_mem.mp hostOps1_6_off) op hop
  · exact (List.forall_iff_forall_mem.mp hostOps1_7_off) op hop
  · exact (List.forall_iff_forall_mem.mp hostOps1_8_off) op hop
  · exact (List.forall_iff_forall_mem.mp hostOps1_9_off) op hop
  · exact (List.forall_iff_forall_mem.mp hostOps1_10_off) op hop

/-- Every operation before the region writes one buffer that is no argument array. -/
theorem head_off : ∀ op ∈ (headOps : List (List (HloOp τ sig (Elt F)))).flatten, WritesOff argRefs op := by
  intro op hop
  obtain ⟨ops, hops, hop⟩ := List.mem_flatten.mp hop
  simp only [headOps, List.mem_cons, List.mem_nil_iff, or_false] at hops
  rcases hops with rfl | rfl | rfl | rfl | rfl | rfl | rfl
  · exact (List.forall_iff_forall_mem.mp hostOps0_off) op hop
  · exact (List.forall_iff_forall_mem.mp hostOps0_1_off) op hop
  · exact (List.forall_iff_forall_mem.mp hostOps0_2_off) op hop
  · exact (List.forall_iff_forall_mem.mp hostOps0_3_off) op hop
  · exact (List.forall_iff_forall_mem.mp hostOps0_4_off) op hop
  · exact (List.forall_iff_forall_mem.mp hostOps0_5_off) op hop
  · exact (List.forall_iff_forall_mem.mp hostOps0_6_off) op hop

/-- The operations after the region touch the windows' arrays and the bypassing buffers only: each touches unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- Each window's array is one of the six listed. -/
theorem arrRef_mem : ∀ w, Pipeline.arrRef spec0 w ∈ (argRefs ++ arrRefs) := by decide

/-- And they write no array of a window: each writes only its own result buffer, which is none of the six. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_off ops hops op hop).not_mem (arrRef_mem w)

/-- No operation before the region writes an argument array, so the region finds each as it was given. -/
theorem V0_of_arg (c : Dev nD) {r : Ref sig .tc} (hr : r ∈ argRefs) : V m c r = m ((c : Thread nD τ).loc r) :=
  StableHlo.after_of_forall_not_mem _ _ fun op hop => (head_off op hop).not_mem hr

theorem V_main_arg0 (c : Dev nD) : V m c main_arg0 = m ((c : Thread nD τ).loc main_arg0) := V0_of_arg m c (by decide)
theorem V_main_arg1 (c : Dev nD) : V m c main_arg1 = m ((c : Thread nD τ).loc main_arg1) := V0_of_arg m c (by decide)
theorem V_main_arg2 (c : Dev nD) : V m c main_arg2 = m ((c : Thread nD τ).loc main_arg2) := V0_of_arg m c (by decide)
theorem V_main_arg3 (c : Dev nD) : V m c main_arg3 = m ((c : Thread nD τ).loc main_arg3) := V0_of_arg m c (by decide)
theorem V_main_arg4 (c : Dev nD) : V m c main_arg4 = m ((c : Thread nD τ).loc main_arg4) := V0_of_arg m c (by decide)
theorem V_main_arg5 (c : Dev nD) : V m c main_arg5 = m ((c : Thread nD τ).loc main_arg5) := V0_of_arg m c (by decide)
theorem V_main_arg6 (c : Dev nD) : V m c main_arg6 = m ((c : Thread nD τ).loc main_arg6) := V0_of_arg m c (by decide)
theorem V_main_arg7 (c : Dev nD) : V m c main_arg7 = m ((c : Thread nD τ).loc main_arg7) := V0_of_arg m c (by decide)
theorem V_main_arg8 (c : Dev nD) : V m c main_arg8 = m ((c : Thread nD τ).loc main_arg8) := V0_of_arg m c (by decide)
theorem V_main_arg9 (c : Dev nD) : V m c main_arg9 = m ((c : Thread nD τ).loc main_arg9) := V0_of_arg m c (by decide)
theorem V_main_arg10 (c : Dev nD) : V m c main_arg10 = m ((c : Thread nD τ).loc main_arg10) := V0_of_arg m c (by decide)
theorem V_main_arg11 (c : Dev nD) : V m c main_arg11 = m ((c : Thread nD τ).loc main_arg11) := V0_of_arg m c (by decide)
theorem V_main_arg12 (c : Dev nD) : V m c main_arg12 = m ((c : Thread nD τ).loc main_arg12) := V0_of_arg m c (by decide)
theorem V_main_arg13 (c : Dev nD) : V m c main_arg13 = m ((c : Thread nD τ).loc main_arg13) := V0_of_arg m c (by decide)
theorem V_main_arg14 (c : Dev nD) : V m c main_arg14 = m ((c : Thread nD τ).loc main_arg14) := V0_of_arg m c (by decide)
theorem V_main_arg15 (c : Dev nD) : V m c main_arg15 = m ((c : Thread nD τ).loc main_arg15) := V0_of_arg m c (by decide)
theorem V_main_arg16 (c : Dev nD) : V m c main_arg16 = m ((c : Thread nD τ).loc main_arg16) := V0_of_arg m c (by decide)
theorem V_main_arg17 (c : Dev nD) : V m c main_arg17 = m ((c : Thread nD τ).loc main_arg17) := V0_of_arg m c (by decide)

/-- A buffer that is no window's array and that no operation after the region writes ends as the region found it. -/
theorem afterTail_of_off (dats : (p : Fin 1) → (c : Dev nD) → Dat τ (Elt F) Unit ℕ (UR sig nD τ) ℕ (cfgs p) c)
    (c : Dev nD) {r : Ref sig .tc} (hr : r ∈ argRefs ++ arrRefs) (ha : ∀ w, Pipeline.arrRef spec0 w ≠ r) :
    Pipeline.afterTail₀ cfgs dats 0 (V0 m) tailOps c r = V m c r := by
  unfold Pipeline.afterTail₀
  rw [StableHlo.after_of_forall_not_mem _ _ fun op hop => ?_, Pipeline.withArrays_of_ne _ c (V0 m c) _ r ha]
  obtain ⟨ops, hops, hop⟩ := List.mem_flatten.mp hop
  exact (tail_off ops hops op hop).not_mem hr

/-- An argument array that no window stages ends unchanged: it bypasses the region, no operation after the region writes
    it, and none before did. -/
theorem post_bypass (dats : (p : Fin 1) → (c : Dev nD) → Dat τ (Elt F) Unit ℕ (UR sig nD τ) ℕ (cfgs p) c)
    {r₀ : PUnit × MemSt nD τ sig (Elt F)}
    (h : Pipeline.FramePost cfgs dats 0 (Pipeline.afterTail₀ cfgs dats 0 (V0 m) tailOps) r₀) (c : Dev nD)
    {r : Ref sig .tc} (hs : r.isScoped = false) (ha : ∀ w, (spec0 w).arr.view.ref ≠ r) (hr : r ∈ argRefs) :
    r₀.2.mem ((c.tc : Thread nD τ).loc r) = m ((c.tc : Thread nD τ).loc r) :=
  ((h c).2 r (Pipeline.mem_restRefs_of r hs ha)).trans
    ((afterTail_of_off m dats c (List.mem_append_left _ hr) ha).trans (V0_of_arg m c hr))

/-- An argument array that an input window stages ends unchanged: the region leaves an input's array as it found it, and
    no operation before the region wrote it. -/
theorem post_staged (dats : (p : Fin 1) → (c : Dev nD) → Dat τ (Elt F) Unit ℕ (UR sig nD τ) ℕ (cfgs p) c)
    (hA : ∀ c w, (dats 0 c).A w = V m c (Pipeline.arrRef spec0 w))
    {r₀ : PUnit × MemSt nD τ sig (Elt F)}
    (h : Pipeline.FramePost cfgs dats 0 (Pipeline.afterTail₀ cfgs dats 0 (V0 m) tailOps) r₀) (c : Dev nD)
    (w : Fin 6) (hin : (cfg0.win w).isOut = false) (hr : Pipeline.arrRef spec0 w ∈ argRefs) :
    r₀.2.mem ((c.tc : Thread nD τ).loc (Pipeline.arrRef spec0 w)) = m ((c.tc : Thread nD τ).loc (Pipeline.arrRef spec0 w)) :=
  ((h c).1 w).trans (((dats 0 c).arrAt_in w hin _).trans ((hA c w).trans (V0_of_arg m c hr)))

/-- At a final state satisfying the frame post, read at the contents after the operations that follow the region, every
    argument array holds what it was given: the two staged ones as inputs of the region, the other sixteen as buffers
    that bypass it. -/
theorem args_of (dats : (p : Fin 1) → (c : Dev nD) → Dat τ (Elt F) Unit ℕ (UR sig nD τ) ℕ (cfgs p) c)
    (hA : ∀ c w, (dats 0 c).A w = V m c (Pipeline.arrRef spec0 w))
    (r₀ : PUnit × MemSt nD τ sig (Elt F))
    (h : Pipeline.FramePost cfgs dats 0 (Pipeline.afterTail₀ cfgs dats 0 (V0 m) tailOps) r₀) (c : Dev nD) :
    r₀.2.mem ((c.tc : Thread nD τ).loc main_arg0) = m ((c.tc : Thread nD τ).loc main_arg0)
      ∧ r₀.2.mem ((c.tc : Thread nD τ).loc main_arg1) = m ((c.tc : Thread nD τ).loc main_arg1)
      ∧ r₀.2.mem ((c.tc : Thread nD τ).loc main_arg2) = m ((c.tc : Thread nD τ).loc main_arg2)
      ∧ r₀.2.mem ((c.tc : Thread nD τ).loc main_arg3) = m ((c.tc : Thread nD τ).loc main_arg3)
      ∧ r₀.2.mem ((c.tc : Thread nD τ).loc main_arg4) = m ((c.tc : Thread nD τ).loc main_arg4)
      ∧ r₀.2.mem ((c.tc : Thread nD τ).loc main_arg5) = m ((c.tc : Thread nD τ).loc main_arg5)
      ∧ r₀.2.mem ((c.tc : Thread nD τ).loc main_arg6) = m ((c.tc : Thread nD τ).loc main_arg6)
      ∧ r₀.2.mem ((c.tc : Thread nD τ).loc main_arg7) = m ((c.tc : Thread nD τ).loc main_arg7)
      ∧ r₀.2.mem ((c.tc : Thread nD τ).loc main_arg8) = m ((c.tc : Thread nD τ).loc main_arg8)
      ∧ r₀.2.mem ((c.tc : Thread nD τ).loc main_arg9) = m ((c.tc : Thread nD τ).loc main_arg9)
      ∧ r₀.2.mem ((c.tc : Thread nD τ).loc main_arg10) = m ((c.tc : Thread nD τ).loc main_arg10)
      ∧ r₀.2.mem ((c.tc : Thread nD τ).loc main_arg11) = m ((c.tc : Thread nD τ).loc main_arg11)
      ∧ r₀.2.mem ((c.tc : Thread nD τ).loc main_arg12) = m ((c.tc : Thread nD τ).loc main_arg12)
      ∧ r₀.2.mem ((c.tc : Thread nD τ).loc main_arg13) = m ((c.tc : Thread nD τ).loc main_arg13)
      ∧ r₀.2.mem ((c.tc : Thread nD τ).loc main_arg14) = m ((c.tc : Thread nD τ).loc main_arg14)
      ∧ r₀.2.mem ((c.tc : Thread nD τ).loc main_arg15) = m ((c.tc : Thread nD τ).loc main_arg15)
      ∧ r₀.2.mem ((c.tc : Thread nD τ).loc main_arg16) = m ((c.tc : Thread nD τ).loc main_arg16)
      ∧ r₀.2.mem ((c.tc : Thread nD τ).loc main_arg17) = m ((c.tc : Thread nD τ).loc main_arg17) :=
  ⟨post_bypass m dats h c rfl (by decide) (by decide),
   post_bypass m dats h c rfl (by decide) (by decide),
   post_bypass m dats h c rfl (by decide) (by decide),
   post_staged m dats hA h c 1 rfl (by decide),
   post_bypass m dats h c rfl (by decide) (by decide),
   post_bypass m dats h c rfl (by decide) (by decide),
   post_staged m dats hA h c 4 rfl (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide),
   post_bypass m dats h c rfl (by decide) (by decide)⟩

/-- The frame from a frame run: for any proof data whose arrays are the region-entry contents, a run to the frame post
    read at the contents after the operations that follow the region is a run after which every argument array holds
    what it was given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_of m dats hA r h c) h

/-- The program's result buffer bypasses the region: at the end it holds what the operations after the region leave in it,
    computed from the region's exit contents. -/
theorem result_of (dats : (p : Fin 1) → (c : Dev nD) → Dat τ (Elt F) Unit ℕ (UR sig nD τ) ℕ (cfgs p) c)
    (r₀ : PUnit × MemSt nD τ sig (Elt F))
    (h : Pipeline.FramePost cfgs dats 0 (Pipeline.afterTail₀ cfgs dats 0 (V0 m) tailOps) r₀) (c : Dev nD) :
    r₀.2.mem ((c.tc : Thread nD τ).loc main_v115) = Pipeline.afterTail₀ cfgs dats 0 (V0 m) tailOps c main_v115 :=
  (h c).2 main_v115 (Pipeline.mem_restRefs_of main_v115 rfl (by decide))

/-- The region's exit contents at a window's array: what the proof data compute for it after the last grid point. -/
theorem exit_at_arr (dats : (p : Fin 1) → (c : Dev nD) → Dat τ (Elt F) Unit ℕ (UR sig nD τ) ℕ (cfgs p) c) (c : Dev nD) (w : Fin 6) :
    Pipeline.withArrays spec0 c (V0 m c) (fun w => (dats 0 c).arrAt w cfg0.N) (Proc.devRef .tc (Pipeline.arrRef spec0 w))
      = (dats 0 c).arrAt w cfg0.N :=
  Pipeline.withArrays_arr spec0 launch0.win.arr_inj c (V0 m c) _ w

/-- The region's exit contents at a buffer that is no window's array: what the region found there. -/
theorem exit_at_rest (dats : (p : Fin 1) → (c : Dev nD) → Dat τ (Elt F) Unit ℕ (UR sig nD τ) ℕ (cfgs p) c) (c : Dev nD)
    (r : Ref sig .tc) (ha : ∀ w, Pipeline.arrRef spec0 w ≠ r) :
    Pipeline.withArrays spec0 c (V0 m c) (fun w => (dats 0 c).arrAt w cfg0.N) (Proc.devRef .tc r) = V m c r :=
  Pipeline.withArrays_of_ne spec0 c (V0 m c) _ r ha

end Cert.KernelIdeal.Hand

end
-- ==== Proof.KIRun.lean ====
/-
  The whole program's run. Every weakly fair execution of @main ends, nothing faults; at the end every array of
  the fused region holds what the proof data compute for it, and every other buffer what the host operations after
  the region leave in it. In particular the eighteen argument arrays end as they began.
-/
import proofs.«109394_j8830452760601_1_alg».proof.Proof.KIData
import proofs.«109394_j8830452760601_1_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end and its argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.LibAccumulate.lean ====
/-
  Accumulated sums. A quantity that starts as 0 + f 0 and has f (n + 1) added at step n + 1 is, after step n, the
  sum of f over the first n + 1 naturals. Stated for any commutative additive monoid (the extended reals are one),
  unbounded and for a recursion that only runs below a bound; then for an accumulation over the consecutive blocks of
  a blocked index range, whose last value is the whole sum (16 blocks of 256, 11 blocks of 384).
-/
import proofs.«109394_j8830452760601_1_alg».proof.Proof.LibBlockSum

namespace Cert.LibAccumulate

open Finset

variable {M : Type*} [AddCommMonoid M]

/-- g 0 = 0 + f 0 and g (n + 1) = g n + f (n + 1) give g n = Σ_{j ≤ n} f j. -/
theorem partial_sums (f g : ℕ → M) (h0 : g 0 = 0 + f 0) (hs : ∀ n, g (n + 1) = g n + f (n + 1)) (n : ℕ) :
    g n = ∑ j ∈ range (n + 1), f j := by
  induction n with
  | zero => rw [h0, zero_add, Finset.sum_range_one]
  | succ n ih => rw [hs, ih, Finset.sum_range_succ f (n + 1)]

/-- The same when the recursion is only known below a bound N. -/
theorem partial_sums_lt (N : ℕ) (f g : ℕ → M) (h0 : g 0 = 0 + f 0)
    (hs : ∀ n, n + 1 < N → g (n + 1) = g n + f (n + 1)) (n : ℕ) (hn : n < N) :
    g n = ∑ j ∈ range (n + 1), f j := by
  induction n with
  | zero => rw [h0, zero_add, Finset.sum_range_one]
  | succ n ih => rw [hs n hn, ih (by omega), Finset.sum_range_succ f (n + 1)]

/-- After the last step the accumulated value is the sum over all N steps. -/
theorem total_sum (N : ℕ) (f g : ℕ → M) (h0 : g 0 = 0 + f 0)
    (hs : ∀ n, n + 1 < N → g (n + 1) = g n + f (n + 1)) (n : ℕ) (hn : n + 1 = N) :
    g n = ∑ j : Fin N, f j.val := by
  rw [partial_sums_lt N f g h0 hs n (by omega), hn, Fin.sum_univ_eq_sum_range (fun j => f j) N]

/-- The same with the steps and the accumulated values indexed by Fin N. -/
theorem total_sum_fin (N : ℕ) (f g : Fin N → M) (n : ℕ) (hn : n + 1 = N)
    (h0 : g ⟨0, by omega⟩ = 0 + f ⟨0, by omega⟩)
    (hs : ∀ (k : ℕ) (hk : k + 1 < N), g ⟨k + 1, hk⟩ = g ⟨k, by omega⟩ + f ⟨k + 1, hk⟩) :
    g ⟨n, by omega⟩ = ∑ j : Fin N, f j := by
  have key := total_sum N (fun k => if hk : k < N then f ⟨k, hk⟩ else 0) (fun k => if hk : k < N then g ⟨k, hk⟩ else 0)
    (by rw [dif_pos (by omega), dif_pos (by omega)]; exact h0)
    (fun k hk => by rw [dif_pos hk, dif_pos (by omega), dif_pos hk]; exact hs k hk) n hn
  rw [dif_pos (by omega)] at key
  rw [key]
  exact Finset.sum_congr rfl fun j _ => by rw [dif_pos j.isLt]

/-- Partial value of the accumulation indexed by Fin N: after step k it is the sum of the first k + 1 terms. -/
theorem partial_sums_fin (N : ℕ) (f g : Fin N → M) (hN : 0 < N) (h0 : g ⟨0, hN⟩ = 0 + f ⟨0, hN⟩)
    (hs : ∀ (k : ℕ) (hk : k + 1 < N), g ⟨k + 1, hk⟩ = g ⟨k, by omega⟩ + f ⟨k + 1, hk⟩) (k : Fin N) :
    g k = ∑ j ∈ range (k.val + 1), (if hj : j < N then f ⟨j, hj⟩ else 0) := by
  have key := partial_sums_lt N (fun k => if hk : k < N then f ⟨k, hk⟩ else 0)
    (fun k => if hk : k < N then g ⟨k, hk⟩ else 0)
    (by rw [dif_pos hN, dif_pos hN]; exact h0)
    (fun k hk => by rw [dif_pos hk, dif_pos (by omega), dif_pos hk]; exact hs k hk) k.val k.isLt
  rw [dif_pos k.isLt] at key
  exact key

/-! ## Accumulating the blocks of a blocked range -/

/-- An accumulation over the a blocks of b consecutive indices of a family over Fin n, n = a * b: starting from
    0 + (block 0's sum) and adding block k + 1's sum at step k + 1, the value after the last step is the whole sum. -/
theorem total_of_blocks {n : ℕ} (a b : ℕ) (hn : a * b = n) (F : Fin n → M) (g : Fin a → M) (m : ℕ) (hm : m + 1 = a)
    (h0 : g ⟨0, by omega⟩ = 0 + ∑ l : Fin b, F ⟨b * 0 + l.val, hn ▸ LibBlockSum.block_index_lt (by omega) l.isLt⟩)
    (hs : ∀ (k : ℕ) (hk : k + 1 < a), g ⟨k + 1, hk⟩
      = g ⟨k, by omega⟩ + ∑ l : Fin b, F ⟨b * (k + 1) + l.val, hn ▸ LibBlockSum.block_index_lt hk l.isLt⟩) :
    g ⟨m, by omega⟩ = ∑ i : Fin n, F i := by
  rw [← LibBlockSum.sum_fin_blocks_of_eq a b hn F]
  exact total_sum_fin a (fun j => ∑ l : Fin b, F ⟨b * j.val + l.val, hn ▸ LibBlockSum.block_index_lt j.isLt l.isLt⟩) g
    m hm h0 hs

/-- Sixteen blocks of 256: the sixteenth accumulated value is the sum over all 4096 indices. -/
theorem total_16_256 (F : Fin 4096 → M) (g : Fin 16 → M)
    (h0 : g 0 = 0 + ∑ l : Fin 256, F ⟨256 * 0 + l.val, by omega⟩)
    (hs : ∀ (k : ℕ) (hk : k + 1 < 16), g ⟨k + 1, hk⟩
      = g ⟨k, by omega⟩ + ∑ l : Fin 256, F ⟨256 * (k + 1) + l.val, by omega⟩) :
    g 15 = ∑ i : Fin 4096, F i :=
  total_of_blocks 16 256 rfl F g 15 rfl h0 hs

/-- Eleven blocks of 384: the eleventh accumulated value is the sum over all 4224 indices. -/
theorem total_11_384 (F : Fin 4224 → M) (g : Fin 11 → M)
    (h0 : g 0 = 0 + ∑ l : Fin 384, F ⟨384 * 0 + l.val, by omega⟩)
    (hs : ∀ (k : ℕ) (hk : k + 1 < 11), g ⟨k + 1, hk⟩
      = g ⟨k, by omega⟩ + ∑ l : Fin 384, F ⟨384 * (k + 1) + l.val, by omega⟩) :
    g 10 = ∑ i : Fin 4224, F i :=
  total_of_blocks 11 384 rfl F g 10 rfl h0 hs

end Cert.LibAccumulate
-- ==== Proof.Conv23Spec.lean ====
/-
  The fused middle of the network, as one function on the extended reals.

  For a node-feature matrix a : 400×5, a weight w : 5×160000, the two degree scalings nd, ns (one number per node) and a
  second weight W3 : 160000×400, the middle stage is, entry by entry,

      mid i n = Σ_{k < 160000}  leak((Σ_{j<5} a i j · w j k) · nd i) · ns i · W3 k n ,

  where leak y is y for 0 ≤ y and slope · y otherwise. The 160000 summands split into 50 consecutive blocks of 3200; a
  running total that starts from 0 + (block 0) and adds block t at step t ends at the whole sum, because addition on the
  extended reals is associative and commutative (no finiteness is needed).
-/
import Idealize.ShloMosaic.PureOps.Ideal
import Idealize.ShloMosaic.Lib.ValueIdx
import proofs.«109394_j8830452760601_1_alg».proof.Proof.LibAccumulate

noncomputable section

namespace Cert.Conv23

open Idealize.ShloMosaic

/-- The leaky rectifier on an extended real: y where 0 ≤ y, the slope times y elsewhere. The zero and the slope are the two
    float32 words both programs spell (the slope is the float32 nearest 0.01). -/
def leak (y : EReal) : EReal :=
  Scalar.select (Ideal.cmp .oge y (Ideal.ofBits .f32 0x00000000#32)) y (Ideal.ofBits .f32 0x3C23D70A#32 * y)

/-- One summand of the middle stage: column k of the first product, scaled, rectified, scaled again, times row k of W3. -/
def term (a : Fin 400 → Fin 5 → EReal) (w : Fin 5 → Fin 160000 → EReal) (nd ns : Fin 400 → EReal)
    (W3 : Fin 160000 → Fin 400 → EReal) (i n : Fin 400) (k : Fin 160000) : EReal :=
  leak ((∑ j : Fin 5, a i j * w j k) * nd i) * ns i * W3 k n

/-- The middle stage: the sum of all 160000 summands. -/
def mid (a : Fin 400 → Fin 5 → EReal) (w : Fin 5 → Fin 160000 → EReal) (nd ns : Fin 400 → EReal)
    (W3 : Fin 160000 → Fin 400 → EReal) (i n : Fin 400) : EReal :=
  ∑ k : Fin 160000, term a w nd ns W3 i n k

/-- Column q of block t is column 3200·t + q of the whole. -/
def col (t : Fin 50) (q : Fin 3200) : Fin 160000 := ⟨3200 * t.val + q.val, by have := t.isLt; have := q.isLt; omega⟩

/-- Block t's share of the middle stage. -/
def blockSum (a : Fin 400 → Fin 5 → EReal) (w : Fin 5 → Fin 160000 → EReal) (nd ns : Fin 400 → EReal)
    (W3 : Fin 160000 → Fin 400 → EReal) (i n : Fin 400) (t : Fin 50) : EReal :=
  ∑ q : Fin 3200, term a w nd ns W3 i n (col t q)

/-- A running total over the 50 blocks — 0 plus block 0 first, then one block added per step — ends at the middle stage. -/
theorem running_total_eq_mid (a : Fin 400 → Fin 5 → EReal) (w : Fin 5 → Fin 160000 → EReal) (nd ns : Fin 400 → EReal)
    (W3 : Fin 160000 → Fin 400 → EReal) (i n : Fin 400) (g : Fin 50 → EReal)
    (h0 : g 0 = 0 + blockSum a w nd ns W3 i n 0)
    (hs : ∀ (k : ℕ) (hk : k + 1 < 50), g ⟨k + 1, hk⟩ = g ⟨k, by omega⟩ + blockSum a w nd ns W3 i n ⟨k + 1, hk⟩) :
    g 49 = mid a w nd ns W3 i n :=
  Cert.LibAccumulate.total_of_blocks 50 3200 rfl (term a w nd ns W3 i n) g 49 rfl h0 hs

end Cert.Conv23

end
-- ==== Proof.KIPay.lean ====
/-
  The body's arithmetic, entry by entry, on the extended reals. The reset value is zero everywhere. One step adds to
  the accumulator's entry (i, n) the point's partial sum  Σ_q leak((Σ_j a i j · w j q) · nd i) · ns i · W3 q n  over
  the 3200 columns q of the point's blocks: a matrix product into a zero accumulator is the plain sum of products, a
  change of float format is the identity, and a column broadcast reads the column's one entry.
-/
import proofs.«109394_j8830452760601_1_alg».proof.Proof.KIData
import proofs.«109394_j8830452760601_1_alg».proof.Proof.Conv23Spec
import Idealize.ShloMosaic.PureOps.Ideal.Laws
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

theorem d1_lhs0 (i : S400x3200.Idx) (q : dot_S400x5_S5x3200_S400x3200_1_0_0_1_n_n.contr.Idx) : (dot_S400x5_S5x3200_S400x3200_1_0_0_1_n_n.lhsIdx i q 0).val = (i 0).val := by
  unfold DotDims.lhsIdx
  rw [dif_neg (show ¬(0 : Fin S400x5.rank) ∈ dot_S400x5_S5x3200_S400x3200_1_0_0_1_n_n.lhsBatch by decide), dif_pos (show (0 : Fin S400x5.rank) ∈ dot_S400x5_S5x3200_S400x3200_1_0_0_1_n_n.lhsNonContracting by decide)]
  rfl
theorem d1_lhs1 (i : S400x3200.Idx) (q : dot_S400x5_S5x3200_S400x3200_1_0_0_1_n_n.contr.Idx) : (dot_S400x5_S5x3200_S400x3200_1_0_0_1_n_n.lhsIdx i q 1).val = (q ⟨0, by decide⟩).val :=
  dot_S400x5_S5x3200_S400x3200_1_0_0_1_n_n.lhsIdx_val_of_single rfl i q
theorem d1_rhs0 (i : S400x3200.Idx) (q : dot_S400x5_S5x3200_S400x3200_1_0_0_1_n_n.contr.Idx) : (dot_S400x5_S5x3200_S400x3200_1_0_0_1_n_n.rhsIdx i q 0).val = (q ⟨0, by decide⟩).val :=
  dot_S400x5_S5x3200_S400x3200_1_0_0_1_n_n.rhsIdx_val_of_single rfl i q
theorem d1_rhs1 (i : S400x3200.Idx) (q : dot_S400x5_S5x3200_S400x3200_1_0_0_1_n_n.contr.Idx) : (dot_S400x5_S5x3200_S400x3200_1_0_0_1_n_n.rhsIdx i q 1).val = (i 1).val := by
  unfold DotDims.rhsIdx
  rw [dif_neg (show ¬(1 : Fin S5x3200.rank) ∈ dot_S400x5_S5x3200_S400x3200_1_0_0_1_n_n.rhsBatch by decide), dif_pos (show (1 : Fin S5x3200.rank) ∈ dot_S400x5_S5x3200_S400x3200_1_0_0_1_n_n.rhsNonContracting by decide)]
  rfl

theorem d2_lhs0 (i : S400x400.Idx) (q : dot_S400x3200_S3200x400_S400x400_1_0_0_1_n_n.contr.Idx) : (dot_S400x3200_S3200x400_S400x400_1_0_0_1_n_n.lhsIdx i q 0).val = (i 0).val := by
  unfold DotDims.lhsIdx
  rw [dif_neg (show ¬(0 : Fin S400x3200.rank) ∈ dot_S400x3200_S3200x400_S400x400_1_0_0_1_n_n.lhsBatch by decide), dif_pos (show (0 : Fin S400x3200.rank) ∈ dot_S400x3200_S3200x400_S400x400_1_0_0_1_n_n.lhsNonContracting by decide)]
  rfl
theorem d2_lhs1 (i : S400x400.Idx) (q : dot_S400x3200_S3200x400_S400x400_1_0_0_1_n_n.contr.Idx) : (dot_S400x3200_S3200x400_S400x400_1_0_0_1_n_n.lhsIdx i q 1).val = (q ⟨0, by decide⟩).val :=
  dot_S400x3200_S3200x400_S400x400_1_0_0_1_n_n.lhsIdx_val_of_single rfl i q
theorem d2_rhs0 (i : S400x400.Idx) (q : dot_S400x3200_S3200x400_S400x400_1_0_0_1_n_n.contr.Idx) : (dot_S400x3200_S3200x400_S400x400_1_0_0_1_n_n.rhsIdx i q 0).val = (q ⟨0, by decide⟩).val :=
  dot_S400x3200_S3200x400_S400x400_1_0_0_1_n_n.rhsIdx_val_of_single rfl i q
theorem d2_rhs1 (i : S400x400.Idx) (q : dot_S400x3200_S3200x400_S400x400_1_0_0_1_n_n.contr.Idx) : (dot_S400x3200_S3200x400_S400x400_1_0_0_1_n_n.rhsIdx i q 1).val = (i 1).val := by
  unfold DotDims.rhsIdx
  rw [dif_neg (show ¬(1 : Fin S3200x400.rank) ∈ dot_S400x3200_S3200x400_S400x400_1_0_0_1_n_n.rhsBatch by decide), dif_pos (show (1 : Fin S3200x400.rank) ∈ dot_S400x3200_S3200x400_S400x400_1_0_0_1_n_n.rhsNonContracting by decide)]
  rfl

/-- The first product at (i, q): the sum over the five features. -/
theorem matmul1_apply (l : FVec Ideal S400x5 .bf16) (r : FVec Ideal S5x3200 .bf16) (i : Fin 400) (q : Fin 3200) :
    matmul dot_S400x5_S5x3200_S400x3200_1_0_0_1_n_n none l r (constant (F := Ideal) S400x3200 .f32 0x00000000#32) (ix2 i q)
      = ∑ j : Fin 5, l (ix2 i j) * r (ix2 j q) := by
  simp only [matmul]
  rw [Ideal.matmul_constant_zero_apply, ← Equiv.sum_comp (ValueIdx.contrEquiv1 dot_S400x5_S5x3200_S400x3200_1_0_0_1_n_n 5 rfl rfl).symm]
  refine Finset.sum_congr rfl fun k _ => ?_
  have hk := ValueIdx.contrEquiv1_symm_val dot_S400x5_S5x3200_S400x3200_1_0_0_1_n_n 5 rfl rfl k
  have el : dot_S400x5_S5x3200_S400x3200_1_0_0_1_n_n.lhsIdx (ix2 i q) ((ValueIdx.contrEquiv1 dot_S400x5_S5x3200_S400x3200_1_0_0_1_n_n 5 rfl rfl).symm k) = ix2 i k := funext fun a => Fin.ext (by
    match a with
    | ⟨0, _⟩ => exact d1_lhs0 _ _
    | ⟨1, _⟩ => exact (d1_lhs1 _ _).trans hk)
  have er : dot_S400x5_S5x3200_S400x3200_1_0_0_1_n_n.rhsIdx (ix2 i q) ((ValueIdx.contrEquiv1 dot_S400x5_S5x3200_S400x3200_1_0_0_1_n_n 5 rfl rfl).symm k) = ix2 k q := funext fun a => Fin.ext (by
    match a with
    | ⟨0, _⟩ => exact (d1_rhs0 _ _).trans hk
    | ⟨1, _⟩ => exact d1_rhs1 _ _)
  rw [el, er]

/-- The second product at (i, n): the sum over the point's 3200 columns. -/
theorem matmul2_apply (l : FVec Ideal S400x3200 .bf16) (r : FVec Ideal S3200x400 .bf16) (i n : Fin 400) :
    matmul dot_S400x3200_S3200x400_S400x400_1_0_0_1_n_n none l r (constant (F := Ideal) S400x400 .f32 0x00000000#32) (ix2 i n)
      = ∑ q : Fin 3200, l (ix2 i q) * r (ix2 q n) := by
  simp only [matmul]
  rw [Ideal.matmul_constant_zero_apply, ← Equiv.sum_comp (ValueIdx.contrEquiv1 dot_S400x3200_S3200x400_S400x400_1_0_0_1_n_n 3200 rfl rfl).symm]
  refine Finset.sum_congr rfl fun k _ => ?_
  have hk := ValueIdx.contrEquiv1_symm_val dot_S400x3200_S3200x400_S400x400_1_0_0_1_n_n 3200 rfl rfl k
  have el : dot_S400x3200_S3200x400_S400x400_1_0_0_1_n_n.lhsIdx (ix2 i n) ((ValueIdx.contrEquiv1 dot_S400x3200_S3200x400_S400x400_1_0_0_1_n_n 3200 rfl rfl).symm k) = ix2 i k := funext fun a => Fin.ext (by
    match a with
    | ⟨0, _⟩ => exact d2_lhs0 _ _
    | ⟨1, _⟩ => exact (d2_lhs1 _ _).trans hk)
  have er : dot_S400x3200_S3200x400_S400x400_1_0_0_1_n_n.rhsIdx (ix2 i n) ((ValueIdx.contrEquiv1 dot_S400x3200_S3200x400_S400x400_1_0_0_1_n_n 3200 rfl rfl).symm k) = ix2 k n := funext fun a => Fin.ext (by
    match a with
    | ⟨0, _⟩ => exact (d2_rhs0 _ _).trans hk
    | ⟨1, _⟩ => exact d2_rhs1 _ _)
  rw [el, er]

/-- A column of 400 numbers broadcast along 3200 columns reads, at (i, q), the column's entry i. -/
theorem bcast_col {α : Type} (v : S400x1.Idx → α) (h : S400x1.Broadcasts S400x3200) (i : Fin 400) (q : Fin 3200) :
    broadcastTo S400x3200 v h (ix2 i q) = v (ix2 i (0 : Fin 1)) := by
  refine broadcastTo_apply v h (ix2 i q) (ix2 i (0 : Fin 1)) fun ax => ?_
  match ax with
  | ⟨0, _⟩ => show i.val = if (400 : ℕ) = 1 then 0 else i.val; rw [if_neg (by decide)]
  | ⟨1, _⟩ => show (0 : ℕ) = if (1 : ℕ) = 1 then 0 else q.val; rw [if_pos rfl]

/-- The reset value is zero at every entry. -/
theorem pay1_apply (y : S400x400.Idx) : k0_pay1 (F := Ideal) y = 0 := by
  unfold k0_pay1
  simp only [shapeCast_self]
  exact Ideal.ofBits_zero_f32

/-- One step at entry (i, n). -/
theorem pay2_apply (x0 : Vec Ideal S400x5 .f32) (x1 : Vec Ideal S5x3200 .f32) (nd ns : Vec Ideal S400x1 .f32)
    (x4 : Vec Ideal S3200x400 .f32) (acc : Vec Ideal S400x400 .f32) (i n : Fin 400) :
    k0_pay2 (F := Ideal) x0 x1 nd ns x4 acc (ix2 i n)
      = acc (ix2 i n) + ∑ q : Fin 3200,
          Cert.Conv23.leak ((∑ j : Fin 5, x0 (ix2 i j) * x1 (ix2 j q)) * nd (ix2 i (0 : Fin 1))) * ns (ix2 i (0 : Fin 1)) * x4 (ix2 q n) := by
  unfold k0_pay2
  simp only [shapeCast_self]
  rw [addf_apply, matmul2_apply]
  refine congrArg (acc (ix2 i n) + ·) (Finset.sum_congr rfl fun q _ => ?_)
  simp only [truncf_apply, mulf_apply, select_apply, cmpf_apply, broadcast_apply, bcast_col, matmul1_apply]
  rfl

end Cert.KernelIdeal.Hand

end
-- ==== Proof.KIValue.lean ====
/-
  What the fused region leaves in its output array, entry by entry, on the extended reals.

  A grid point's blocks are restrictions of the arrays the region finds: the aggregation matrix and the two scalings
  whole, columns 3200·t … 3200·t+3199 of the first weight, rows 3200·t … 3200·t+3199 of the second. So one step of
  the accumulator at point t adds block t's share of the middle stage, the accumulator after the last point is the
  whole middle stage (a running total over the 50 blocks), and since the output window is one block covering its
  array, written back once after the last point, the array ends holding exactly that.
-/
import proofs.«109394_j8830452760601_1_alg».proof.Proof.KIPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The printed block index maps, decided over the grid: only the two weights' windows move, along the long axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The arrays the region finds, as plain two-index families. -/
def aF (c : Dev nD) : Fin 400 → Fin 5 → EReal := fun i j => (V m c main_v51 : S400x5.Idx → EReal) (ix2 i j)
def wF (c : Dev nD) : Fin 5 → Fin 160000 → EReal := fun j k => (V m c main_arg3 : S5x160000.Idx → EReal) (ix2 j k)
def nsF (c : Dev nD) : Fin 400 → EReal := fun i => (V m c main_v52 : S400x1.Idx → EReal) (ix2 i (0 : Fin 1))
def ndF (c : Dev nD) : Fin 400 → EReal := fun i => (V m c main_v53 : S400x1.Idx → EReal) (ix2 i (0 : Fin 1))
def w3F (c : Dev nD) : Fin 160000 → Fin 400 → EReal := fun k n => (V m c main_arg6 : S160000x400.Idx → EReal) (ix2 k n)

/-- Each window's block at point t, read at an entry, is the array at the entry's place in the whole. -/
theorem iblk0_apply (c : Dev nD) (t : Fin cfg0.N) (i : Fin 400) (j : Fin 5) :
    iblk m c 0 t (ix2 i j) = aF m c i j := by
  obtain ⟨e0, e1, -⟩ := idx_facts t
  show (V m c main_v51 : S400x5.Idx → EReal) (((cfg0.win 0).blk t).view.emb (ix2 i j)) = _
  unfold aF
  refine congrArg _ (funext fun a => Fin.ext ?_)
  match a with
  | ⟨0, _⟩ => show win0_0.index t (0 : Fin 2) * 400 + 1 * i.val = i.val; omega
  | ⟨1, _⟩ => show win0_0.index t (1 : Fin 2) * 5 + 1 * j.val = j.val; omega

theorem iblk1_apply (c : Dev nD) (t : Fin cfg0.N) (j : Fin 5) (q : Fin 3200) (k : Fin 160000) (hk : k.val = 3200 * t.val + q.val) :
    iblk m c 1 t (ix2 j q) = wF m c j k := by
  obtain ⟨-, -, e0, e1, -⟩ := idx_facts t
  show (V m c main_arg3 : S5x160000.Idx → EReal) (((cfg0.win 1).blk t).view.emb (ix2 j q)) = _
  unfold wF
  refine congrArg _ (funext fun a => Fin.ext ?_)
  match a with
  | ⟨0, _⟩ => show win0_1.index t (0 : Fin 2) * 5 + 1 * j.val = j.val; omega
  | ⟨1, _⟩ => show win0_1.index t (1 : Fin 2) * 3200 + 1 * q.val = k.val; omega

theorem iblk2_apply (c : Dev nD) (t : Fin cfg0.N) (i : Fin 400) :
    iblk m c 2 t (ix2 i (0 : Fin 1)) = nsF m c i := by
  obtain ⟨-, -, -, -, e0, e1, -⟩ := idx_facts t
  show (V m c main_v52 : S400x1.Idx → EReal) (((cfg0.win 2).blk t).view.emb (ix2 i (0 : Fin 1))) = _
  unfold nsF
  refine congrArg _ (funext fun a => Fin.ext ?_)
  match a with
  | ⟨0, _⟩ => show win0_2.index t (0 : Fin 2) * 400 + 1 * i.val = i.val; omega
  | ⟨1, _⟩ => show win0_2.index t (1 : Fin 2) * 1 + 1 * 0 = 0; omega

theorem iblk3_apply (c : Dev nD) (t : Fin cfg0.N) (i : Fin 400) :
    iblk m c 3 t (ix2 i (0 : Fin 1)) = ndF m c i := by
  obtain ⟨-, -, -, -, -, -, e0, e1, -⟩ := idx_facts t
  show (V m c main_v53 : S400x1.Idx → EReal) (((cfg0.win 3).blk t).view.emb (ix2 i (0 : Fin 1))) = _
  unfold ndF
  refine congrArg _ (funext fun a => Fin.ext ?_)
  match a with
  | ⟨0, _⟩ => show win0_3.index t (0 : Fin 2) * 400 + 1 * i.val = i.val; omega
  | ⟨1, _⟩ => show win0_3.index t (1 : Fin 2) * 1 + 1 * 0 = 0; omega

theorem iblk4_apply (c : Dev nD) (t : Fin cfg0.N) (q : Fin 3200) (n : Fin 400) (k : Fin 160000) (hk : k.val = 3200 * t.val + q.val) :
    iblk m c 4 t (ix2 q n) = w3F m c k n := by
  obtain ⟨-, -, -, -, -, -, -, -, e0, e1, -⟩ := idx_facts t
  show (V m c main_arg6 : S160000x400.Idx → EReal) (((cfg0.win 4).blk t).view.emb (ix2 q n)) = _
  unfold w3F
  refine congrArg _ (funext fun a => Fin.ext ?_)
  match a with
  | ⟨0, _⟩ => show win0_4.index t (0 : Fin 2) * 3200 + 1 * q.val = k.val; omega
  | ⟨1, _⟩ => show win0_4.index t (1 : Fin 2) * 400 + 1 * n.val = n.val; omega

/-- One step at point t adds block t's share of the middle stage to the accumulator's entry. -/
theorem step_apply (c : Dev nD) (t : Fin cfg0.N) (tt : Fin 50) (ht : tt.val = t.val) (acc : Vec Ideal S400x400 .f32) (i n : Fin 400) :
    k0_pay2 (F := Ideal) (iblk m c 0 t) (iblk m c 1 t) (iblk m c 3 t) (iblk m c 2 t) (iblk m c 4 t) acc (ix2 i n)
      = acc (ix2 i n) + Cert.Conv23.blockSum (aF m c) (wF m c) (ndF m c) (nsF m c) (w3F m c) i n tt := by
  refine (pay2_apply (iblk m c 0 t) (iblk m c 1 t) (iblk m c 3 t) (iblk m c 2 t) (iblk m c 4 t) acc i n).trans ?_
  refine congrArg (acc (ix2 i n) + ·) (Finset.sum_congr rfl fun q _ => ?_)
  have hk : (Cert.Conv23.col tt q).val = 3200 * t.val + q.val := by show 3200 * tt.val + q.val = _; rw [ht]
  have e1 : ∀ j : Fin 5, iblk m c 1 t (ix2 j q) = wF m c j (Cert.Conv23.col tt q) := fun j => iblk1_apply m c t j q _ hk
  have e4 : iblk m c 4 t (ix2 q n) = w3F m c (Cert.Conv23.col tt q) n := iblk4_apply m c t q n _ hk
  simp only [iblk0_apply m c t, iblk2_apply m c t, iblk3_apply m c t, e1, e4]
  rfl

/-- The accumulator's entry after the first point, and after each later one. -/
theorem acc_zero (c : Dev nD) (h : 0 < cfg0.N) (i n : Fin 400) :
    accAt m c 0 h (ix2 i n) = 0 + Cert.Conv23.blockSum (aF m c) (wF m c) (ndF m c) (nsF m c) (w3F m c) i n 0 := by
  show k0_pay2 (F := Ideal) (iblk m c 0 ⟨0, h⟩) (iblk m c 1 ⟨0, h⟩) (iblk m c 3 ⟨0, h⟩) (iblk m c 2 ⟨0, h⟩) (iblk m c 4 ⟨0, h⟩) (k0_pay1 (F := Ideal)) (ix2 i n) = _
  rw [step_apply m c ⟨0, h⟩ 0 rfl, pay1_apply]

theorem acc_succ (c : Dev nD) (k : ℕ) (hk : k + 1 < cfg0.N) (hk' : k + 1 < 50) (i n : Fin 400) :
    accAt m c (k + 1) hk (ix2 i n)
      = accAt m c k (Nat.lt_of_succ_lt hk) (ix2 i n) + Cert.Conv23.blockSum (aF m c) (wF m c) (ndF m c) (nsF m c) (w3F m c) i n ⟨k + 1, hk'⟩ :=
  step_apply m c ⟨k + 1, hk⟩ ⟨k + 1, hk'⟩ rfl _ i n

theorem lt_N {k : ℕ} (h : k < 50) : k < cfg0.N := lt_of_lt_of_eq h N_0.symm

/-- After the last point the accumulator holds the middle stage. -/
theorem acc_last (c : Dev nD) (i n : Fin 400) :
    accAt m c 49 (lt_N (by decide)) (ix2 i n) = Cert.Conv23.mid (aF m c) (wF m c) (ndF m c) (nsF m c) (w3F m c) i n :=
  Cert.Conv23.running_total_eq_mid (aF m c) (wF m c) (ndF m c) (nsF m c) (w3F m c) i n
    (fun t => accAt m c t.val (lt_N t.isLt) (ix2 i n))
    (acc_zero m c _ i n)
    (fun k hk => acc_succ m c k (lt_N hk) hk i n)

/-- An index of the output array is in point t's block iff each coordinate is in the block's range. -/
theorem mem_blk5 (t : Fin cfg0.N) (i : S400x400.Idx) :
    i ∈ ((cfg0.win 5).blk t).view.set ↔ ∀ a : Fin 2, win0_5.index t a * S400x400.size a ≤ (i a).val ∧ (i a).val < win0_5.index t a * S400x400.size a + S400x400.size a := by
  show i ∈ ((View.whole main_v54).slice (win0_5.rect t)).set ↔ _
  rw [View.set_slice_whole, Rect.mem_set_unit]
  exact Iff.rfl

/-- The output array after the run is the accumulator after the last point. -/
theorem final5 (c : Dev nD) : (dats m 0 c).arrAt 5 cfg0.N = accAt m c 49 (lt_N (by decide)) := by
  refine (dats m 0 c).arrAt_eq_of_cover 5 _ (fun t hf => ?_) (fun i => ?_)
  · have hN : cfg0.N = 50 := N_0
    have h49 : t.val = 49 := by have := (flush0_5 t).mp hf; have := t.isLt; omega
    obtain ⟨-, -, -, -, -, -, -, -, -, -, e0, e1⟩ := idx_facts t
    show (cfg0.win 5).cut (grid0.coords t) ((dats m 0 c).after 5 t) = _
    rw [after0_5]
    obtain ⟨tv, htv⟩ := t
    simp only at h49
    subst h49
    funext j
    show accAt m c 49 _ j = accAt m c 49 _ (((cfg0.win 5).blk ⟨49, htv⟩).view.emb j)
    refine congrArg _ (funext fun a => Fin.ext ?_)
    match a with
    | ⟨0, _⟩ => show (j 0).val = win0_5.index ⟨49, htv⟩ (0 : Fin 2) * 400 + 1 * (j 0).val; omega
    | ⟨1, _⟩ => show (j 1).val = win0_5.index ⟨49, htv⟩ (1 : Fin 2) * 400 + 1 * (j 1).val; omega
  · refine ⟨⟨49, lt_N (by decide)⟩, (flush0_5 _).mpr rfl, ?_⟩
    obtain ⟨-, -, -, -, -, -, -, -, -, -, e0, e1⟩ := idx_facts (⟨49, lt_N (by decide)⟩ : Fin cfg0.N)
    rw [mem_blk5]
    intro a
    match a with
    | ⟨0, _⟩ => show win0_5.index _ (0 : Fin 2) * 400 ≤ (i 0).val ∧ (i 0).val < win0_5.index _ (0 : Fin 2) * 400 + 400; have h0 : (i 0).val < 400 := (i 0).isLt; omega
    | ⟨1, _⟩ => show win0_5.index _ (1 : Fin 2) * 400 ≤ (i 1).val ∧ (i 1).val < win0_5.index _ (1 : Fin 2) * 400 + 400; have h1 : (i 1).val < 400 := (i 1).isLt; omega

/-- THE REGION'S VALUE: the output array, entry by entry, is the middle stage of the arrays the region finds. -/
theorem region_value (c : Dev nD) (i n : Fin 400) :
    ((dats m 0 c).arrAt 5 cfg0.N : S400x400.Idx → EReal) (ix2 i n)
      = Cert.Conv23.mid (aF m c) (wF m c) (ndF m c) (nsF m c) (w3F m c) i n := by
  rw [final5 m c]
  exact acc_last m c i n

end Cert.KernelIdeal.Hand

end
-- ==== Proof.KIHostHead.lean ====
/-
  The host operations BEFORE the fused region against the reference. The region reads three arrays those operations
  computed: the aggregated features (the first graph convolution's output, scaled by the first degree scaling, gathered
  along the edges' sources and summed into the edges' targets) and the two degree scalings as columns. Each is the same
  composition of operations as the corresponding stage of the reference; the reference recomputes the degree scalings
  at every use, this program computes each once, and the recomputed stages are the same functions of the edge lists.
-/
import proofs.«109394_j8830452760601_1_alg».proof.Proof.KIHost
import proofs.«109394_j8830452760601_1_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A column reshape read at an index: row i of the [400,1] array is entry i of the vector. -/
theorem reshape_col {α : Type} (x : S400.Idx → α) (h : S400.ShapeCasts S400x1) (i : Fin 400) :
    shapeCast S400x1 x h (ValueIdx.ix2 i (0 : Fin 1)) = x (ValueIdx.ix1 i) :=
  shapeCast_apply x h _ _ (by
    rw [Shape.rowMajor_val_one, Shape.rowMajor_val_two]
    show i.val = i.val * 1 + 0
    omega)

set_option maxHeartbeats 4000000 in
open StableHlo in
/-- What the region finds in the arrays the host operations before it computed: the aggregated features feeding the
    region, the two degree scalings as columns, and the second scaling as a vector — each the same composition of
    operations as the reference's, the reference recomputing the scalings where this program reuses them. -/
theorem head_vals (c : Dev nD) :
    (V m c main_v51 : S400x5.Idx → EReal) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
    ∧ (V m c main_v52 : S400x1.Idx → EReal) = (fun j => shapeCast S400x1 (Cert.ReferenceIdeal.ReadP.val_main_v81 (F := Ideal) (m ((c.tc : Thread nD τ).loc main_arg1))) shapeCasts_S400_S400x1 j)
    ∧ (V m c main_v53 : S400x1.Idx → EReal) = (fun j => shapeCast S400x1 (Cert.ReferenceIdeal.ReadP.val_main_v52 (F := Ideal) (m ((c.tc : Thread nD τ).loc main_arg2))) shapeCasts_S400_S400x1 j)
    ∧ (V m c main_v13 : S400.Idx → EReal) = Cert.ReferenceIdeal.ReadP.val_main_v88 (F := Ideal) (m ((c.tc : Thread nD τ).loc main_arg2)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  exact ⟨rfl, rfl, rfl, rfl⟩

/-- The aggregation feeding the region is the reference's. -/
theorem head_agg (c : Dev nD) : (V m c main_v51 : S400x5.Idx → EReal) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := (head_vals m c).1

/-- The first degree scaling, as the column the region reads. -/
theorem head_ns (c : Dev nD) (i : Fin 400) :
    (V m c main_v52 : S400x1.Idx → EReal) (ValueIdx.ix2 i (0 : Fin 1)) = Cert.ReferenceIdeal.ReadP.val_main_v81 (F := Ideal) (m ((c.tc : Thread nD τ).loc main_arg1)) (ValueIdx.ix1 i) := by
  rw [(head_vals m c).2.1]; exact reshape_col _ _ i

/-- The second degree scaling, as the column the region reads. -/
theorem head_nd (c : Dev nD) (i : Fin 400) :
    (V m c main_v53 : S400x1.Idx → EReal) (ValueIdx.ix2 i (0 : Fin 1)) = Cert.ReferenceIdeal.ReadP.val_main_v52 (F := Ideal) (m ((c.tc : Thread nD τ).loc main_arg2)) (ValueIdx.ix1 i) := by
  rw [(head_vals m c).2.2.1]; exact reshape_col _ _ i

/-- The second degree scaling as the operations after the region read it. -/
theorem V_main_v13 (c : Dev nD) : (V m c main_v13 : S400.Idx → EReal) = Cert.ReferenceIdeal.ReadP.val_main_v88 (F := Ideal) (m ((c.tc : Thread nD τ).loc main_arg2)) := (head_vals m c).2.2.2

end Cert.KernelIdeal.Hand

end
-- ==== Proof.KIHostTail.lean ====
/-
  The host operations AFTER the fused region against the reference: the second aggregation (gather along the edges'
  sources, sum into the edges' targets, the second degree scaling, the bias, the leaky rectifier) and the five dense
  layers. Run from any contents that hold the reference's values in the buffers they read, they leave the reference's
  result in the result buffer. The eleven stretches are taken one at a time: each stretch's results are matched with the
  reference's stages while the values it reads stay folded, so no comparison ever opens more than one stretch.
-/
import proofs.«109394_j8830452760601_1_alg».proof.Proof.KIHost
import proofs.«109394_j8830452760601_1_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A stretch none of whose operations writes the buffer `r` leaves it as it was. -/
theorem keep_of_off {ops : List (HloOp τ sig (Elt Ideal))} (h : ops.Forall (WritesOff (argRefs ++ arrRefs)))
    (Y : Valuation τ sig (Elt Ideal)) {r : Ref sig .tc} (hr : r ∈ argRefs ++ arrRefs) :
    StableHlo.after ops Y (Proc.devRef .tc r) = Y (Proc.devRef .tc r) :=
  StableHlo.after_of_forall_not_mem _ _ fun op hop => ((List.forall_iff_forall_mem.mp h) op hop).not_mem hr

set_option maxHeartbeats 1000000 in
open StableHlo in
/-- Stretch 0 of the operations after the region: run from contents holding the reference's values in the buffers it
    reads, it leaves the reference's values in the buffers the later stretches read. -/
theorem tail_st0 (c : Dev nD) (Y : Valuation τ sig (Elt Ideal))
    (h0 : Y (Proc.devRef .tc main_v54) = Cert.ReferenceIdeal.ReadP.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (h1 : Y (Proc.devRef .tc main_arg1) = (m ((c.tc : Thread nD τ).loc main_arg1)))
    (h2 : Y (Proc.devRef .tc main_arg2) = (m ((c.tc : Thread nD τ).loc main_arg2)))
    (h3 : Y (Proc.devRef .tc main_v13) = Cert.ReferenceIdeal.ReadP.val_main_v88 (F := Ideal) (m ((c.tc : Thread nD τ).loc main_arg2)))
    (h4 : Y (Proc.devRef .tc main_arg7) = (m ((c.tc : Thread nD τ).loc main_arg7))) :
    StableHlo.after hostOps1 Y (Proc.devRef .tc main_v70) = Cert.ReferenceIdeal.ReadP.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ StableHlo.after hostOps1 Y (Proc.devRef .tc main_v72) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ StableHlo.after hostOps1 Y (Proc.devRef .tc main_v74) = Cert.ReferenceIdeal.ReadP.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp only [hostOps1]
  after_results_simp
  rw [h0, h1, h2, h3, h4]
  try simp only [StableHlo.TRef.toBuf, StableHlo.TRef.ofBuf, cast_eq]
  exact ⟨rfl, rfl, rfl⟩

set_option maxHeartbeats 1000000 in
open StableHlo in
/-- Stretch 1 of the operations after the region: run from contents holding the reference's values in the buffers it
    reads, it leaves the reference's values in the buffers the later stretches read. -/
theorem tail_st1 (c : Dev nD) (Y : Valuation τ sig (Elt Ideal))
    (h0 : Y (Proc.devRef .tc main_v72) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (h1 : Y (Proc.devRef .tc main_v70) = Cert.ReferenceIdeal.ReadP.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (h2 : Y (Proc.devRef .tc main_v74) = Cert.ReferenceIdeal.ReadP.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    StableHlo.after hostOps1_1 Y (Proc.devRef .tc main_v75) = Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp only [hostOps1_1]
  after_results_simp
  rw [h0, h1, h2]
  try simp only [StableHlo.TRef.toBuf, StableHlo.TRef.ofBuf, cast_eq]
  exact rfl

set_option maxHeartbeats 1000000 in
open StableHlo in
/-- Stretch 2 of the operations after the region: run from contents holding the reference's values in the buffers it
    reads, it leaves the reference's values in the buffers the later stretches read. -/
theorem tail_st2 (c : Dev nD) (Y : Valuation τ sig (Elt Ideal))
    (h0 : Y (Proc.devRef .tc main_v75) = Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (h1 : Y (Proc.devRef .tc main_arg8) = (m ((c.tc : Thread nD τ).loc main_arg8)))
    (h2 : Y (Proc.devRef .tc main_arg9) = (m ((c.tc : Thread nD τ).loc main_arg9))) :
    StableHlo.after hostOps1_2 Y (Proc.devRef .tc main_v79) = Cert.ReferenceIdeal.ReadP.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ StableHlo.after hostOps1_2 Y (Proc.devRef .tc main_v81) = Cert.ReferenceIdeal.ReadP.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ StableHlo.after hostOps1_2 Y (Proc.devRef .tc main_v83) = Cert.ReferenceIdeal.ReadP.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp only [hostOps1_2]
  after_results_simp
  rw [h0, h1, h2]
  try simp only [StableHlo.TRef.toBuf, StableHlo.TRef.ofBuf, cast_eq]
  exact ⟨rfl, rfl, rfl⟩

set_option maxHeartbeats 1000000 in
open StableHlo in
/-- Stretch 3 of the operations after the region: run from contents holding the reference's values in the buffers it
    reads, it leaves the reference's values in the buffers the later stretches read. -/
theorem tail_st3 (c : Dev nD) (Y : Valuation τ sig (Elt Ideal))
    (h0 : Y (Proc.devRef .tc main_v81) = Cert.ReferenceIdeal.ReadP.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (h1 : Y (Proc.devRef .tc main_v79) = Cert.ReferenceIdeal.ReadP.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (h2 : Y (Proc.devRef .tc main_v83) = Cert.ReferenceIdeal.ReadP.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :
    StableHlo.after hostOps1_3 Y (Proc.devRef .tc main_v84) = Cert.ReferenceIdeal.ReadP.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  simp only [hostOps1_3]
  after_results_simp
  rw [h0, h1, h2]
  try simp only [StableHlo.TRef.toBuf, StableHlo.TRef.ofBuf, cast_eq]
  exact rfl

set_option maxHeartbeats 1000000 in
open StableHlo in
/-- Stretch 4 of the operations after the region: run from contents holding the reference's values in the buffers it
    reads, it leaves the reference's values in the buffers the later stretches read. -/
theorem tail_st4 (c : Dev nD) (Y : Valuation τ sig (Elt Ideal))
    (h0 : Y (Proc.devRef .tc main_v84) = Cert.ReferenceIdeal.ReadP.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (h1 : Y (Proc.devRef .tc main_arg10) = (m ((c.tc : Thread nD τ).loc main_arg10)))
    (h2 : Y (Proc.devRef .tc main_arg11) = (m ((c.tc : Thread nD τ).loc main_arg11))) :
    StableHlo.after hostOps1_4 Y (Proc.devRef .tc main_v88) = Cert.ReferenceIdeal.ReadP.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ StableHlo.after hostOps1_4 Y (Proc.devRef .tc main_v90) = Cert.ReferenceIdeal.ReadP.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ StableHlo.after hostOps1_4 Y (Proc.devRef .tc main_v92) = Cert.ReferenceIdeal.ReadP.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [hostOps1_4]
  after_results_simp
  rw [h0, h1, h2]
  try simp only [StableHlo.TRef.toBuf, StableHlo.TRef.ofBuf, cast_eq]
  exact ⟨rfl, rfl, rfl⟩

set_option maxHeartbeats 1000000 in
open StableHlo in
/-- Stretch 5 of the operations after the region: run from contents holding the reference's values in the buffers it
    reads, it leaves the reference's values in the buffers the later stretches read. -/
theorem tail_st5 (c : Dev nD) (Y : Valuation τ sig (Elt Ideal))
    (h0 : Y (Proc.devRef .tc main_v90) = Cert.ReferenceIdeal.ReadP.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h1 : Y (Proc.devRef .tc main_v88) = Cert.ReferenceIdeal.ReadP.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h2 : Y (Proc.devRef .tc main_v92) = Cert.ReferenceIdeal.ReadP.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    StableHlo.after hostOps1_5 Y (Proc.devRef .tc main_v93) = Cert.ReferenceIdeal.ReadP.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [hostOps1_5]
  after_results_simp
  rw [h0, h1, h2]
  try simp only [StableHlo.TRef.toBuf, StableHlo.TRef.ofBuf, cast_eq]
  exact rfl

set_option maxHeartbeats 1000000 in
open StableHlo in
/-- Stretch 6 of the operations after the region: run from contents holding the reference's values in the buffers it
    reads, it leaves the reference's values in the buffers the later stretches read. -/
theorem tail_st6 (c : Dev nD) (Y : Valuation τ sig (Elt Ideal))
    (h0 : Y (Proc.devRef .tc main_v93) = Cert.ReferenceIdeal.ReadP.val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h1 : Y (Proc.devRef .tc main_arg12) = (m ((c.tc : Thread nD τ).loc main_arg12)))
    (h2 : Y (Proc.devRef .tc main_arg13) = (m ((c.tc : Thread nD τ).loc main_arg13))) :
    StableHlo.after hostOps1_6 Y (Proc.devRef .tc main_v97) = Cert.ReferenceIdeal.ReadP.val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    ∧ StableHlo.after hostOps1_6 Y (Proc.devRef .tc main_v99) = Cert.ReferenceIdeal.ReadP.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    ∧ StableHlo.after hostOps1_6 Y (Proc.devRef .tc main_v101) = Cert.ReferenceIdeal.ReadP.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp only [hostOps1_6]
  after_results_simp
  rw [h0, h1, h2]
  try simp only [StableHlo.TRef.toBuf, StableHlo.TRef.ofBuf, cast_eq]
  exact ⟨rfl, rfl, rfl⟩

set_option maxHeartbeats 1000000 in
open StableHlo in
/-- Stretch 7 of the operations after the region: run from contents holding the reference's values in the buffers it
    reads, it leaves the reference's values in the buffers the later stretches read. -/
theorem tail_st7 (c : Dev nD) (Y : Valuation τ sig (Elt Ideal))
    (h0 : Y (Proc.devRef .tc main_v99) = Cert.ReferenceIdeal.ReadP.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
    (h1 : Y (Proc.devRef .tc main_v97) = Cert.ReferenceIdeal.ReadP.val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
    (h2 : Y (Proc.devRef .tc main_v101) = Cert.ReferenceIdeal.ReadP.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :
    StableHlo.after hostOps1_7 Y (Proc.devRef .tc main_v102) = Cert.ReferenceIdeal.ReadP.val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp only [hostOps1_7]
  after_results_simp
  rw [h0, h1, h2]
  try simp only [StableHlo.TRef.toBuf, StableHlo.TRef.ofBuf, cast_eq]
  exact rfl

set_option maxHeartbeats 1000000 in
open StableHlo in
/-- Stretch 8 of the operations after the region: run from contents holding the reference's values in the buffers it
    reads, it leaves the reference's values in the buffers the later stretches read. -/
theorem tail_st8 (c : Dev nD) (Y : Valuation τ sig (Elt Ideal))
    (h0 : Y (Proc.devRef .tc main_v102) = Cert.ReferenceIdeal.ReadP.val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
    (h1 : Y (Proc.devRef .tc main_arg14) = (m ((c.tc : Thread nD τ).loc main_arg14)))
    (h2 : Y (Proc.devRef .tc main_arg15) = (m ((c.tc : Thread nD τ).loc main_arg15))) :
    StableHlo.after hostOps1_8 Y (Proc.devRef .tc main_v106) = Cert.ReferenceIdeal.ReadP.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    ∧ StableHlo.after hostOps1_8 Y (Proc.devRef .tc main_v108) = Cert.ReferenceIdeal.ReadP.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    ∧ StableHlo.after hostOps1_8 Y (Proc.devRef .tc main_v110) = Cert.ReferenceIdeal.ReadP.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp only [hostOps1_8]
  after_results_simp
  rw [h0, h1, h2]
  try simp only [StableHlo.TRef.toBuf, StableHlo.TRef.ofBuf, cast_eq]
  exact ⟨rfl, rfl, rfl⟩

set_option maxHeartbeats 1000000 in
open StableHlo in
/-- Stretch 9 of the operations after the region: run from contents holding the reference's values in the buffers it
    reads, it leaves the reference's values in the buffers the later stretches read. -/
theorem tail_st9 (c : Dev nD) (Y : Valuation τ sig (Elt Ideal))
    (h0 : Y (Proc.devRef .tc main_v108) = Cert.ReferenceIdeal.ReadP.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    (h1 : Y (Proc.devRef .tc main_v106) = Cert.ReferenceIdeal.ReadP.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    (h2 : Y (Proc.devRef .tc main_v110) = Cert.ReferenceIdeal.ReadP.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :
    StableHlo.after hostOps1_9 Y (Proc.devRef .tc main_v111) = Cert.ReferenceIdeal.ReadP.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  simp only [hostOps1_9]
  after_results_simp
  rw [h0, h1, h2]
  try simp only [StableHlo.TRef.toBuf, StableHlo.TRef.ofBuf, cast_eq]
  exact rfl

set_option maxHeartbeats 1000000 in
open StableHlo in
/-- Stretch 10 of the operations after the region: run from contents holding the reference's values in the buffers it
    reads, it leaves the reference's values in the buffers the later stretches read. -/
theorem tail_st10 (c : Dev nD) (Y : Valuation τ sig (Elt Ideal))
    (h0 : Y (Proc.devRef .tc main_v111) = Cert.ReferenceIdeal.ReadP.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    (h1 : Y (Proc.devRef .tc main_arg16) = (m ((c.tc : Thread nD τ).loc main_arg16)))
    (h2 : Y (Proc.devRef .tc main_arg17) = (m ((c.tc : Thread nD τ).loc main_arg17))) :
    StableHlo.after hostOps1_10 Y (Proc.devRef .tc main_v115) = Cert.ReferenceIdeal.ReadP.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  simp only [hostOps1_10]
  after_results_simp
  rw [h0, h1, h2]
  try simp only [StableHlo.TRef.toBuf, StableHlo.TRef.ofBuf, cast_eq]
  exact rfl

/-- The operations after the region, run from ANY contents that hold the reference's values in the buffers they read,
    leave the reference's result in the result buffer: stretch by stretch, each stretch's results the reference's stages. -/
theorem tail_val (c : Dev nD) (Y : Valuation τ sig (Elt Ideal))
    (h54 : Y (Proc.devRef .tc main_v54) = Cert.ReferenceIdeal.ReadP.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (h13 : Y (Proc.devRef .tc main_v13) = Cert.ReferenceIdeal.ReadP.val_main_v88 (F := Ideal) (m ((c.tc : Thread nD τ).loc main_arg2)))
    (h_1 : Y (Proc.devRef .tc main_arg1) = (m ((c.tc : Thread nD τ).loc main_arg1)))
    (h_2 : Y (Proc.devRef .tc main_arg2) = (m ((c.tc : Thread nD τ).loc main_arg2)))
    (h_7 : Y (Proc.devRef .tc main_arg7) = (m ((c.tc : Thread nD τ).loc main_arg7)))
    (h_8 : Y (Proc.devRef .tc main_arg8) = (m ((c.tc : Thread nD τ).loc main_arg8)))
    (h_9 : Y (Proc.devRef .tc main_arg9) = (m ((c.tc : Thread nD τ).loc main_arg9)))
    (h_10 : Y (Proc.devRef .tc main_arg10) = (m ((c.tc : Thread nD τ).loc main_arg10)))
    (h_11 : Y (Proc.devRef .tc main_arg11) = (m ((c.tc : Thread nD τ).loc main_arg11)))
    (h_12 : Y (Proc.devRef .tc main_arg12) = (m ((c.tc : Thread nD τ).loc main_arg12)))
    (h_13 : Y (Proc.devRef .tc main_arg13) = (m ((c.tc : Thread nD τ).loc main_arg13)))
    (h_14 : Y (Proc.devRef .tc main_arg14) = (m ((c.tc : Thread nD τ).loc main_arg14)))
    (h_15 : Y (Proc.devRef .tc main_arg15) = (m ((c.tc : Thread nD τ).loc main_arg15)))
    (h_16 : Y (Proc.devRef .tc main_arg16) = (m ((c.tc : Thread nD τ).loc main_arg16)))
    (h_17 : Y (Proc.devRef .tc main_arg17) = (m ((c.tc : Thread nD τ).loc main_arg17))) :
    StableHlo.after (tailOps (F := Ideal)).flatten Y (Proc.devRef .tc main_v115) = Cert.ReferenceIdeal.ReadP.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  simp only [tailOps, List.flatten_cons, List.flatten_nil, List.append_nil, StableHlo.after_append]
  have a0 := tail_st0 m c Y h54 h_1 h_2 h13 h_7
  have a1 := tail_st1 m c (StableHlo.after hostOps1 Y) a0.2.1 a0.1 a0.2.2
  have a2 := tail_st2 m c (StableHlo.after hostOps1_1 (StableHlo.after hostOps1 Y)) a1 ((keep_of_off hostOps1_1_off (StableHlo.after hostOps1 Y) (r := main_arg8) (by decide)).trans ((keep_of_off hostOps1_off Y (r := main_arg8) (by decide)).trans h_8)) ((keep_of_off hostOps1_1_off (StableHlo.after hostOps1 Y) (r := main_arg9) (by decide)).trans ((keep_of_off hostOps1_off Y (r := main_arg9) (by decide)).trans h_9))
  have a3 := tail_st3 m c (StableHlo.after hostOps1_2 (StableHlo.after hostOps1_1 (StableHlo.after hostOps1 Y))) a2.2.1 a2.1 a2.2.2
  have a4 := tail_st4 m c (StableHlo.after hostOps1_3 (StableHlo.after hostOps1_2 (StableHlo.after hostOps1_1 (StableHlo.after hostOps1 Y)))) a3 ((keep_of_off hostOps1_3_off (StableHlo.after hostOps1_2 (StableHlo.after hostOps1_1 (StableHlo.after hostOps1 Y))) (r := main_arg10) (by decide)).trans ((keep_of_off hostOps1_2_off (StableHlo.after hostOps1_1 (StableHlo.after hostOps1 Y)) (r := main_arg10) (by decide)).trans ((keep_of_off hostOps1_1_off (StableHlo.after hostOps1 Y) (r := main_arg10) (by decide)).trans ((keep_of_off hostOps1_off Y (r := main_arg10) (by decide)).trans h_10)))) ((keep_of_off hostOps1_3_off (StableHlo.after hostOps1_2 (StableHlo.after hostOps1_1 (StableHlo.after hostOps1 Y))) (r := main_arg11) (by decide)).trans ((keep_of_off hostOps1_2_off (StableHlo.after hostOps1_1 (StableHlo.after hostOps1 Y)) (r := main_arg11) (by decide)).trans ((keep_of_off hostOps1_1_off (StableHlo.after hostOps1 Y) (r := main_arg11) (by decide)).trans ((keep_of_off hostOps1_off Y (r := main_arg11) (by decide)).trans h_11))))
  have a5 := tail_st5 m c (StableHlo.after hostOps1_4 (StableHlo.after hostOps1_3 (StableHlo.after hostOps1_2 (StableHlo.after hostOps1_1 (StableHlo.after hostOps1 Y))))) a4.2.1 a4.1 a4.2.2
  have a6 := tail_st6 m c (StableHlo.after hostOps1_5 (StableHlo.after hostOps1_4 (StableHlo.after hostOps1_3 (StableHlo.after hostOps1_2 (StableHlo.after hostOps1_1 (StableHlo.after hostOps1 Y)))))) a5 ((keep_of_off hostOps1_5_off (StableHlo.after hostOps1_4 (StableHlo.after hostOps1_3 (StableHlo.after hostOps1_2 (StableHlo.after hostOps1_1 (StableHlo.after hostOps1 Y))))) (r := main_arg12) (by decide)).trans ((keep_of_off hostOps1_4_off (StableHlo.after hostOps1_3 (StableHlo.after hostOps1_2 (StableHlo.after hostOps1_1 (StableHlo.after hostOps1 Y)))) (r := main_arg12) (by decide)).trans ((keep_of_off hostOps1_3_off (StableHlo.after hostOps1_2 (StableHlo.after hostOps1_1 (StableHlo.after hostOps1 Y))) (r := main_arg12) (by decide)).trans ((keep_of_off hostOps1_2_off (StableHlo.after hostOps1_1 (StableHlo.after hostOps1 Y)) (r := main_arg12) (by decide)).trans ((keep_of_off hostOps1_1_off (StableHlo.after hostOps1 Y) (r := main_arg12) (by decide)).trans ((keep_of_off hostOps1_off Y (r := main_arg12) (by decide)).trans h_12)))))) ((keep_of_off hostOps1_5_off (StableHlo.after hostOps1_4 (StableHlo.after hostOps1_3 (StableHlo.after hostOps1_2 (StableHlo.after hostOps1_1 (StableHlo.after hostOps1 Y))))) (r := main_arg13) (by decide)).trans ((keep_of_off hostOps1_4_off (StableHlo.after hostOps1_3 (StableHlo.after hostOps1_2 (StableHlo.after hostOps1_1 (StableHlo.after hostOps1 Y)))) (r := main_arg13) (by decide)).trans ((keep_of_off hostOps1_3_off (StableHlo.after hostOps1_2 (StableHlo.after hostOps1_1 (StableHlo.after hostOps1 Y))) (r := main_arg13) (by decide)).trans ((keep_of_off hostOps1_2_off (StableHlo.after hostOps1_1 (StableHlo.after hostOps1 Y)) (r := main_arg13) (by decide)).trans ((keep_of_off hostOps1_1_off (StableHlo.after hostOps1 Y) (r := main_arg13) (by decide)).trans ((keep_of_off hostOps1_off Y (r := main_arg13) (by decide)).trans h_13))))))
  have a7 := tail_st7 m c (StableHlo.after hostOps1_6 (StableHlo.after hostOps1_5 (StableHlo.after hostOps1_4 (StableHlo.after hostOps1_3 (StableHlo.after hostOps1_2 (StableHlo.after hostOps1_1 (StableHlo.after hostOps1 Y))))))) a6.2.1 a6.1 a6.2.2
  have a8 := tail_st8 m c (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y)))))))) a7 ((keep_of_off hostOps1_7_off (StableHlo.after hostOps1_6 (StableHlo.after hostOps1_5 (StableHlo.after hostOps1_4 (StableHlo.after hostOps1_3 (StableHlo.after hostOps1_2 (StableHlo.after hostOps1_1 (StableHlo.after hostOps1 Y))))))) (r := main_arg14) (by decide)).trans ((keep_of_off hostOps1_6_off (StableHlo.after hostOps1_5 (StableHlo.after hostOps1_4 (StableHlo.after hostOps1_3 (StableHlo.after hostOps1_2 (StableHlo.after hostOps1_1 (StableHlo.after hostOps1 Y)))))) (r := main_arg14) (by decide)).trans ((keep_of_off hostOps1_5_off (StableHlo.after hostOps1_4 (StableHlo.after hostOps1_3 (StableHlo.after hostOps1_2 (StableHlo.after hostOps1_1 (StableHlo.after hostOps1 Y))))) (r := main_arg14) (by decide)).trans ((keep_of_off hostOps1_4_off (StableHlo.after hostOps1_3 (StableHlo.after hostOps1_2 (StableHlo.after hostOps1_1 (StableHlo.after hostOps1 Y)))) (r := main_arg14) (by decide)).trans ((keep_of_off hostOps1_3_off (StableHlo.after hostOps1_2 (StableHlo.after hostOps1_1 (StableHlo.after hostOps1 Y))) (r := main_arg14) (by decide)).trans ((keep_of_off hostOps1_2_off (StableHlo.after hostOps1_1 (StableHlo.after hostOps1 Y)) (r := main_arg14) (by decide)).trans ((keep_of_off hostOps1_1_off (StableHlo.after hostOps1 Y) (r := main_arg14) (by decide)).trans ((keep_of_off hostOps1_off Y (r := main_arg14) (by decide)).trans h_14)))))))) ((keep_of_off hostOps1_7_off (StableHlo.after hostOps1_6 (StableHlo.after hostOps1_5 (StableHlo.after hostOps1_4 (StableHlo.after hostOps1_3 (StableHlo.after hostOps1_2 (StableHlo.after hostOps1_1 (StableHlo.after hostOps1 Y))))))) (r := main_arg15) (by decide)).trans ((keep_of_off hostOps1_6_off (StableHlo.after hostOps1_5 (StableHlo.after hostOps1_4 (StableHlo.after hostOps1_3 (StableHlo.after hostOps1_2 (StableHlo.after hostOps1_1 (StableHlo.after hostOps1 Y)))))) (r := main_arg15) (by decide)).trans ((keep_of_off hostOps1_5_off (StableHlo.after hostOps1_4 (StableHlo.after hostOps1_3 (StableHlo.after hostOps1_2 (StableHlo.after hostOps1_1 (StableHlo.after hostOps1 Y))))) (r := main_arg15) (by decide)).trans ((keep_of_off hostOps1_4_off (StableHlo.after hostOps1_3 (StableHlo.after hostOps1_2 (StableHlo.after hostOps1_1 (StableHlo.after hostOps1 Y)))) (r := main_arg15) (by decide)).trans ((keep_of_off hostOps1_3_off (StableHlo.after hostOps1_2 (StableHlo.after hostOps1_1 (StableHlo.after hostOps1 Y))) (r := main_arg15) (by decide)).trans ((keep_of_off hostOps1_2_off (StableHlo.after hostOps1_1 (StableHlo.after hostOps1 Y)) (r := main_arg15) (by decide)).trans ((keep_of_off hostOps1_1_off (StableHlo.after hostOps1 Y) (r := main_arg15) (by decide)).trans ((keep_of_off hostOps1_off Y (r := main_arg15) (by decide)).trans h_15))))))))
  have a9 := tail_st9 m c (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y))))))))) a8.2.1 a8.1 a8.2.2
  have a10 := tail_st10 m c (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y)))))))))) a9 ((keep_of_off hostOps1_9_off (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y))))))))) (r := main_arg16) (by decide)).trans ((keep_of_off hostOps1_8_off (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y)))))))) (r := main_arg16) (by decide)).trans ((keep_of_off hostOps1_7_off (StableHlo.after hostOps1_6 (StableHlo.after hostOps1_5 (StableHlo.after hostOps1_4 (StableHlo.after hostOps1_3 (StableHlo.after hostOps1_2 (StableHlo.after hostOps1_1 (StableHlo.after hostOps1 Y))))))) (r := main_arg16) (by decide)).trans ((keep_of_off hostOps1_6_off (StableHlo.after hostOps1_5 (StableHlo.after hostOps1_4 (StableHlo.after hostOps1_3 (StableHlo.after hostOps1_2 (StableHlo.after hostOps1_1 (StableHlo.after hostOps1 Y)))))) (r := main_arg16) (by decide)).trans ((keep_of_off hostOps1_5_off (StableHlo.after hostOps1_4 (StableHlo.after hostOps1_3 (StableHlo.after hostOps1_2 (StableHlo.after hostOps1_1 (StableHlo.after hostOps1 Y))))) (r := main_arg16) (by decide)).trans ((keep_of_off hostOps1_4_off (StableHlo.after hostOps1_3 (StableHlo.after hostOps1_2 (StableHlo.after hostOps1_1 (StableHlo.after hostOps1 Y)))) (r := main_arg16) (by decide)).trans ((keep_of_off hostOps1_3_off (StableHlo.after hostOps1_2 (StableHlo.after hostOps1_1 (StableHlo.after hostOps1 Y))) (r := main_arg16) (by decide)).trans ((keep_of_off hostOps1_2_off (StableHlo.after hostOps1_1 (StableHlo.after hostOps1 Y)) (r := main_arg16) (by decide)).trans ((keep_of_off hostOps1_1_off (StableHlo.after hostOps1 Y) (r := main_arg16) (by decide)).trans ((keep_of_off hostOps1_off Y (r := main_arg16) (by decide)).trans h_16)))))))))) ((keep_of_off hostOps1_9_off (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y))))))))) (r := main_arg17) (by decide)).trans ((keep_of_off hostOps1_8_off (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 Y)))))))) (r := main_arg17) (by decide)).trans ((keep_of_off hostOps1_7_off (StableHlo.after hostOps1_6 (StableHlo.after hostOps1_5 (StableHlo.after hostOps1_4 (StableHlo.after hostOps1_3 (StableHlo.after hostOps1_2 (StableHlo.after hostOps1_1 (StableHlo.after hostOps1 Y))))))) (r := main_arg17) (by decide)).trans ((keep_of_off hostOps1_6_off (StableHlo.after hostOps1_5 (StableHlo.after hostOps1_4 (StableHlo.after hostOps1_3 (StableHlo.after hostOps1_2 (StableHlo.after hostOps1_1 (StableHlo.after hostOps1 Y)))))) (r := main_arg17) (by decide)).trans ((keep_of_off hostOps1_5_off (StableHlo.after hostOps1_4 (StableHlo.after hostOps1_3 (StableHlo.after hostOps1_2 (StableHlo.after hostOps1_1 (StableHlo.after hostOps1 Y))))) (r := main_arg17) (by decide)).trans ((keep_of_off hostOps1_4_off (StableHlo.after hostOps1_3 (StableHlo.after hostOps1_2 (StableHlo.after hostOps1_1 (StableHlo.after hostOps1 Y)))) (r := main_arg17) (by decide)).trans ((keep_of_off hostOps1_3_off (StableHlo.after hostOps1_2 (StableHlo.after hostOps1_1 (StableHlo.after hostOps1 Y))) (r := main_arg17) (by decide)).trans ((keep_of_off hostOps1_2_off (StableHlo.after hostOps1_1 (StableHlo.after hostOps1 Y)) (r := main_arg17) (by decide)).trans ((keep_of_off hostOps1_1_off (StableHlo.after hostOps1 Y) (r := main_arg17) (by decide)).trans ((keep_of_off hostOps1_off Y (r := main_arg17) (by decide)).trans h_17))))))))))
  exact a10

end Cert.KernelIdeal.Hand

end
-- ==== Proof.KIHostValue.lean ====
/-
  The host side of the value claim, assembled: what the region finds (KIHostHead) and what the operations after it
  compute from its exit contents (KIHostTail). At the region's exit the output window's array holds what the proof data
  compute and every other buffer is as the region found it; so if the region's output is the reference's value at that
  stage, the program's result is the reference's result.
-/
import proofs.«109394_j8830452760601_1_alg».proof.Proof.KIHostHead
import proofs.«109394_j8830452760601_1_alg».proof.Proof.KIHostTail
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- THE TAIL: if the region leaves the reference's value in its output array, the operations after the region leave
    the reference's result in the result buffer. The region's exit contents hold the output array at what the proof
    data compute, and every other buffer the later operations read — the edge lists, the second degree scaling, the
    dense layers' weights — as the region found it. -/
theorem tail_eq (dats : (p : Fin 1) → (c : Dev nD) → Dat τ (Elt Ideal) Unit ℕ (UR sig nD τ) ℕ (cfgs p) c)
    (hA : ∀ c w, (dats 0 c).A w = V m c (Pipeline.arrRef spec0 w)) (c : Dev nD)
    (hP : (dats 0 c).arrAt 5 cfg0.N = Cert.ReferenceIdeal.ReadP.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    Pipeline.afterTail₀ cfgs dats 0 (V0 m) tailOps c main_v115 = Cert.ReferenceIdeal.ReadP.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  tail_val m c _ ((exit_at_arr m dats c 5).trans hP)
    ((exit_at_rest m dats c main_v13 (by decide)).trans (V_main_v13 m c))
    ((exit_at_rest m dats c main_arg1 (by decide)).trans (V_main_arg1 m c))
    ((exit_at_rest m dats c main_arg2 (by decide)).trans (V_main_arg2 m c))
    ((exit_at_rest m dats c main_arg7 (by decide)).trans (V_main_arg7 m c))
    ((exit_at_rest m dats c main_arg8 (by decide)).trans (V_main_arg8 m c))
    ((exit_at_rest m dats c main_arg9 (by decide)).trans (V_main_arg9 m c))
    ((exit_at_rest m dats c main_arg10 (by decide)).trans (V_main_arg10 m c))
    ((exit_at_rest m dats c main_arg11 (by decide)).trans (V_main_arg11 m c))
    ((exit_at_rest m dats c main_arg12 (by decide)).trans (V_main_arg12 m c))
    ((exit_at_rest m dats c main_arg13 (by decide)).trans (V_main_arg13 m c))
    ((exit_at_rest m dats c main_arg14 (by decide)).trans (V_main_arg14 m c))
    ((exit_at_rest m dats c main_arg15 (by decide)).trans (V_main_arg15 m c))
    ((exit_at_rest m dats c main_arg16 (by decide)).trans (V_main_arg16 m c))
    ((exit_at_rest m dats c main_arg17 (by decide)).trans (V_main_arg17 m c))

end Cert.KernelIdeal.Hand

end
-- ==== Proof.RefMid.lean ====
/-
  The reference's middle stage, read one entry at a time, is the fused middle stage `Cert.Conv23.mid`.

  The reference multiplies the aggregated node features a (400×5) by the weight w (5×160000), scales row i by nd i,
  applies the leaky rectifier (compare with 0, multiply by the slope, select), scales row i by ns i, and multiplies by the
  second weight W3 (160000×400). Entry (i, n) of the result is therefore

      Σ_{k < 160000}  leak((Σ_{j<5} a i j · w j k) · nd i) · ns i · W3 k n ,

  which is `Cert.Conv23.mid a w nd ns W3 i n`. The two scalings reach the 400×160000 array through two broadcasts
  (400 → 400×1 → 400×160000), so at entry (i, k) each reads its entry i whatever k is; the two float words (the zero and
  the slope) stay as the words the program spells.
-/
import proofs.«109394_j8830452760601_1_alg».proof.Proof.RefReadP
import proofs.«109394_j8830452760601_1_alg».proof.Proof.Conv23Spec

noncomputable section

namespace Cert.RefMid

open Cert.ReferenceIdeal Idealize.ShloMosaic Idealize.ShloMosaic.ValueIdx

/-! ## The reference's index maps at an index given by its coordinates -/

/-- Entry (i, n) of the last product reads its left operand, at contraction position k, at (i, k) … -/
theorem lidx92 (i n : Fin 400) (k : Fin 160000) : ReadP.lidx_main_v92 (ix2 i n) k = ix2 i k :=
  funext fun a => by match a with | ⟨0, _⟩ => rfl | ⟨1, _⟩ => rfl

/-- … and its right operand at (k, n). -/
theorem ridx92 (i n : Fin 400) (k : Fin 160000) : ReadP.ridx_main_v92 (ix2 i n) k = ix2 k n :=
  funext fun a => by match a with | ⟨0, _⟩ => rfl | ⟨1, _⟩ => rfl

/-- Entry (i, k) of the first product reads its left operand, at contraction position j, at (i, j) … -/
theorem lidx66 (i : Fin 400) (k : Fin 160000) (j : Fin 5) : ReadP.lidx_main_v66 (ix2 i k) j = ix2 i j :=
  funext fun a => by match a with | ⟨0, _⟩ => rfl | ⟨1, _⟩ => rfl

/-- … and its right operand at (j, k). -/
theorem ridx66 (i : Fin 400) (k : Fin 160000) (j : Fin 5) : ReadP.ridx_main_v66 (ix2 i k) j = ix2 j k :=
  funext fun a => by match a with | ⟨0, _⟩ => rfl | ⟨1, _⟩ => rfl

/-- The first scaling's two broadcasts, composed, read entry i at (i, k). -/
theorem idx6768 (i : Fin 400) (k : Fin 160000) : ReadP.idx_main_v67 (ReadP.idx_main_v68 (ix2 i k)) = ix1 i :=
  funext fun a => by match a with | ⟨0, _⟩ => rfl

/-- The second scaling's two broadcasts, composed, read entry i at (i, k). -/
theorem idx8990 (i : Fin 400) (k : Fin 160000) : ReadP.idx_main_v89 (ReadP.idx_main_v90 (ix2 i k)) = ix1 i :=
  funext fun a => by match a with | ⟨0, _⟩ => rfl

/-! ## The operations of the middle stage at entry (i, k) -/

section
variable (x0 : (⟨S400x3, .f32⟩ : BufTy).Contents (Elt Ideal)) (x1 x2 : (⟨S6400, .i32⟩ : BufTy).Contents (Elt Ideal))
  (x3 : (⟨S5x160000, .f32⟩ : BufTy).Contents (Elt Ideal)) (x4 : (⟨S3x5, .f32⟩ : BufTy).Contents (Elt Ideal))
  (x5 : (⟨S5, .f32⟩ : BufTy).Contents (Elt Ideal)) (x6 : (⟨S160000x400, .f32⟩ : BufTy).Contents (Elt Ideal))

/-- The first scaling, broadcast to 400×160000, is nd i at (i, k). -/
theorem v68_at (i : Fin 400) (k : Fin 160000) :
    ReadP.val_main_v68 (F := Ideal) x2 (ix2 i k) = ReadP.val_main_v52 (F := Ideal) x2 (ix1 i) := by
  rw [ReadP.val_main_v68_apply, ReadP.val_main_v67_apply, idx6768]

/-- The second scaling, broadcast to 400×160000, is ns i at (i, k). -/
theorem v90_at (i : Fin 400) (k : Fin 160000) :
    ReadP.val_main_v90 (F := Ideal) x1 (ix2 i k) = ReadP.val_main_v81 (F := Ideal) x1 (ix1 i) := by
  rw [ReadP.val_main_v90_apply, ReadP.val_main_v89_apply, idx8990]

/-- The broadcast zero is the zero word everywhere. -/
theorem v70_at (i : Fin 400) (k : Fin 160000) :
    ReadP.val_main_v70 (F := Ideal) (ix2 i k) = Ideal.ofBits .f32 0x00000000#32 := by
  rw [ReadP.val_main_v70_apply, ReadP.val_main_cst_22_apply, Ideal.ofBits_def]

/-- The broadcast slope is the slope word everywhere. -/
theorem v72_at (i : Fin 400) (k : Fin 160000) :
    ReadP.val_main_v72 (F := Ideal) (ix2 i k) = Ideal.ofBits .f32 0x3C23D70A#32 := by
  rw [ReadP.val_main_v72_apply, ReadP.val_main_cst_23_apply, Ideal.ofBits_def]

/-- Entry (i, k) of the first product: row i of a against column k of w. -/
theorem v66_at (i : Fin 400) (k : Fin 160000) :
    ReadP.val_main_v66 (F := Ideal) x0 x1 x2 x3 x4 x5 (ix2 i k)
      = ∑ j : Fin 5, ReadP.val_main_v65 (F := Ideal) x0 x1 x2 x4 x5 (ix2 i j) * x3 (ix2 j k) := by
  rw [ReadP.val_main_v66_apply]
  refine Finset.sum_congr rfl fun j _ => ?_
  rw [lidx66, ridx66]

/-- Entry (i, k) after the first scaling. -/
theorem v69_at (i : Fin 400) (k : Fin 160000) :
    ReadP.val_main_v69 (F := Ideal) x0 x1 x2 x3 x4 x5 (ix2 i k)
      = (∑ j : Fin 5, ReadP.val_main_v65 (F := Ideal) x0 x1 x2 x4 x5 (ix2 i j) * x3 (ix2 j k))
          * ReadP.val_main_v52 (F := Ideal) x2 (ix1 i) := by
  rw [ReadP.val_main_v69_apply, Ideal.mulf_def, v66_at, v68_at]

/-- Entry (i, k) after the rectifier: the compare, the multiply by the slope and the select are `leak`. -/
theorem v74_at (i : Fin 400) (k : Fin 160000) :
    ReadP.val_main_v74 (F := Ideal) x0 x1 x2 x3 x4 x5 (ix2 i k)
      = Cert.Conv23.leak ((∑ j : Fin 5, ReadP.val_main_v65 (F := Ideal) x0 x1 x2 x4 x5 (ix2 i j) * x3 (ix2 j k))
          * ReadP.val_main_v52 (F := Ideal) x2 (ix1 i)) := by
  rw [ReadP.val_main_v74_apply, ReadP.val_main_v71_apply, ReadP.val_main_v73_apply, v70_at, v72_at, v69_at, Ideal.mulf_def]
  rfl

/-- The reference's middle stage at entry (i, n) is the fused middle stage of the five arrays it reads. -/
theorem ref_mid (i n : Fin 400) :
    ReadP.val_main_v92 (F := Ideal) x0 x1 x2 x3 x4 x5 x6 (ix2 i n)
      = Cert.Conv23.mid (fun i j => ReadP.val_main_v65 (F := Ideal) x0 x1 x2 x4 x5 (ix2 i j)) (fun j k => x3 (ix2 j k))
          (fun i => ReadP.val_main_v52 (F := Ideal) x2 (ix1 i)) (fun i => ReadP.val_main_v81 (F := Ideal) x1 (ix1 i))
          (fun k n => x6 (ix2 k n)) i n := by
  rw [ReadP.val_main_v92_apply]
  unfold Cert.Conv23.mid
  refine Finset.sum_congr rfl fun k _ => ?_
  rw [lidx92, ridx92, ReadP.val_main_v91_apply, Ideal.mulf_def, v74_at, v90_at]
  rfl

end

end Cert.RefMid

end
-- ==== Proof.Bridge.lean ====
/-
  The region's output array is the reference's middle stage. Entry by entry both are the fused middle stage of the
  same five arrays: the aggregation matrix and the two degree scalings the two programs compute by the same host
  operations from the same arguments, and the two weights, which are arguments.
-/
import proofs.«109394_j8830452760601_1_alg».proof.Proof.KIValue
import proofs.«109394_j8830452760601_1_alg».proof.Proof.KIHostValue
import proofs.«109394_j8830452760601_1_alg».proof.Proof.RefMid

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

theorem region_is_ref (c : Dev nD) :
    (dats m 0 c).arrAt 5 cfg0.N = Cert.ReferenceIdeal.ReadP.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine funext fun idx => ?_
  obtain ⟨i, n, rfl⟩ : ∃ (i : Fin 400) (n : Fin 400), idx = ix2 i n := ⟨idx 0, idx 1, eq_ix2 idx⟩
  refine (region_value m c i n).trans (Eq.symm ((Cert.RefMid.ref_mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i n).trans ?_))
  have ha : aF m c = fun i j => Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (ix2 i j) := by
    funext i j; unfold aF; rw [head_agg m c]
  have hw : wF m c = fun j k => (m ((c.tc : Thread nD τ).loc main_arg3)) (ix2 j k) := by
    funext j k; unfold wF; rw [V_main_arg3 m c]
  have hnd : ndF m c = fun i => Cert.ReferenceIdeal.ReadP.val_main_v52 (F := Ideal) (m ((c.tc : Thread nD τ).loc main_arg2)) (ix1 i) := by
    funext i; unfold ndF; exact head_nd m c i
  have hns : nsF m c = fun i => Cert.ReferenceIdeal.ReadP.val_main_v81 (F := Ideal) (m ((c.tc : Thread nD τ).loc main_arg1)) (ix1 i) := by
    funext i; unfold nsF; exact head_ns m c i
  have hw3 : w3F m c = fun k n => (m ((c.tc : Thread nD τ).loc main_arg6)) (ix2 k n) := by
    funext k n; unfold w3F; rw [V_main_arg6 m c]
  rw [ha, hw, hnd, hns, hw3]

end Cert.KernelIdeal.Hand

end
-- ==== Proof.RefValue.lean ====
/-
  The reference's 213 operations, folded over the launch contents, leave at the result buffer the last stage of the
  reference read one operation at a time.

  The list of operations is cut into 14 consecutive stretches. For each stretch one lemma: from ANY buffer contents Y
  that hold, in the buffers the stretch or a later stretch reads, the stages' values (or the arguments), the contents
  after the stretch hold the stages' values in every buffer a later stretch reads (those the stretch writes and those
  it leaves alone). Each equation inside a stretch unfolds only that stretch's stage definitions. The stretches
  composed give the whole fold.
-/
import proofs.«109394_j8830452760601_1_alg».proof.Proof.RefReadP

set_option maxRecDepth 16384

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stretches: the operations of the reference's list, in order -/

/-- Operations 0 to 15 of the list. -/
abbrev ch0 : List (HloOp τ sig (Elt F)) :=
  [ nullary main_cst (constant S_ .f32 0x3F800000#32),
    unary main_cst main_v0 (broadcastInDim S6400 ![] bcast_S_S6400 : (⟨S_, .f32⟩ : BufTy).Contents (Elt F) → (⟨S6400, .f32⟩ : BufTy).Contents (Elt F)),
    nullary main_cst_0 (constant S_ .f32 0x00000000#32),
    unary main_cst_0 main_v1 (broadcastInDim S400 ![] bcast_S_S400 : (⟨S_, .f32⟩ : BufTy).Contents (Elt F) → (⟨S400, .f32⟩ : BufTy).Contents (Elt F)),
    unary main_arg1 main_v2 (broadcastInDim S6400x1 ![0] bcast_S6400_S6400x1_0 : (⟨S6400, .i32⟩ : BufTy).Contents (Elt F) → (⟨S6400x1, .i32⟩ : BufTy).Contents (Elt F)),
    ternary main_v1 main_v2 main_v0 main_v3 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S400, .f32⟩) main_call0_v1) (broadcastInDim S400 ![] bcast_S_S400),
    TRef.binary (TRef.of (T := ⟨S400, .f32⟩) main_call0_v1) (TRef.of (T := ⟨S400, .f32⟩) main_v3) (TRef.of (T := ⟨S400, .f32⟩) main_v4) maximumf,
    nullary main_cst_2 (constant S_ .f32 0xBF000000#32),
    unary main_cst_2 main_v5 (broadcastInDim S400 ![] bcast_S_S400 : (⟨S_, .f32⟩ : BufTy).Contents (Elt F) → (⟨S400, .f32⟩ : BufTy).Contents (Elt F)),
    binary main_v4 main_v5 main_v6 (Host.powf : (⟨S400, .f32⟩ : BufTy).Contents (Elt F) → (⟨S400, .f32⟩ : BufTy).Contents (Elt F) → (⟨S400, .f32⟩ : BufTy).Contents (Elt F)),
    nullary main_cst_3 (constant S_ .f32 0x3F800000#32),
    unary main_cst_3 main_v7 (broadcastInDim S6400 ![] bcast_S_S6400 : (⟨S_, .f32⟩ : BufTy).Contents (Elt F) → (⟨S6400, .f32⟩ : BufTy).Contents (Elt F)),
    nullary main_cst_4 (constant S_ .f32 0x00000000#32) ]

/-- Operations 16 to 31 of the list. -/
abbrev ch1 : List (HloOp τ sig (Elt F)) :=
  [ unary main_cst_4 main_v8 (broadcastInDim S400 ![] bcast_S_S400 : (⟨S_, .f32⟩ : BufTy).Contents (Elt F) → (⟨S400, .f32⟩ : BufTy).Contents (Elt F)),
    unary main_arg2 main_v9 (broadcastInDim S6400x1 ![0] bcast_S6400_S6400x1_0 : (⟨S6400, .i32⟩ : BufTy).Contents (Elt F) → (⟨S6400x1, .i32⟩ : BufTy).Contents (Elt F)),
    ternary main_v8 main_v9 main_v7 main_v10 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)),
    nullary main_cst_5 (constant S_ .f32 0x3F800000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S400, .f32⟩) main_call1_v1) (broadcastInDim S400 ![] bcast_S_S400),
    TRef.binary (TRef.of (T := ⟨S400, .f32⟩) main_call1_v1) (TRef.of (T := ⟨S400, .f32⟩) main_v10) (TRef.of (T := ⟨S400, .f32⟩) main_v11) maximumf,
    nullary main_cst_6 (constant S_ .f32 0xBF000000#32),
    unary main_cst_6 main_v12 (broadcastInDim S400 ![] bcast_S_S400 : (⟨S_, .f32⟩ : BufTy).Contents (Elt F) → (⟨S400, .f32⟩ : BufTy).Contents (Elt F)),
    binary main_v11 main_v12 main_v13 (Host.powf : (⟨S400, .f32⟩ : BufTy).Contents (Elt F) → (⟨S400, .f32⟩ : BufTy).Contents (Elt F) → (⟨S400, .f32⟩ : BufTy).Contents (Elt F)),
    unary main_v6 main_v14 (broadcastInDim S400x1 ![0] bcast_S400_S400x1_0 : (⟨S400, .f32⟩ : BufTy).Contents (Elt F) → (⟨S400x1, .f32⟩ : BufTy).Contents (Elt F)),
    unary main_v14 main_v15 (broadcastInDim S400x3 ![0, 1] bcast_S400x1_S400x3_0_1 : (⟨S400x1, .f32⟩ : BufTy).Contents (Elt F) → (⟨S400x3, .f32⟩ : BufTy).Contents (Elt F)),
    binary main_arg0 main_v15 main_v16 (mulf : (⟨S400x3, .f32⟩ : BufTy).Contents (Elt F) → (⟨S400x3, .f32⟩ : BufTy).Contents (Elt F) → (⟨S400x3, .f32⟩ : BufTy).Contents (Elt F)),
    nullary main_c (constantI S_ 32 0#32),
    unary main_c main_v17 (broadcastInDim S6400 ![] bcast_S_S6400 : (⟨S_, .i32⟩ : BufTy).Contents (Elt F) → (⟨S6400, .i32⟩ : BufTy).Contents (Elt F)),
    binary main_arg1 main_v17 main_v18 (cmpi .slt : (⟨S6400, .i32⟩ : BufTy).Contents (Elt F) → (⟨S6400, .i32⟩ : BufTy).Contents (Elt F) → (⟨S6400, .i1⟩ : BufTy).Contents (Elt F)) ]

/-- Operations 32 to 47 of the list. -/
abbrev ch2 : List (HloOp τ sig (Elt F)) :=
  [ nullary main_c_7 (constantI S_ 32 400#32),
    unary main_c_7 main_v19 (broadcastInDim S6400 ![] bcast_S_S6400 : (⟨S_, .i32⟩ : BufTy).Contents (Elt F) → (⟨S6400, .i32⟩ : BufTy).Contents (Elt F)),
    binary main_arg1 main_v19 main_v20 (addi : (⟨S6400, .i32⟩ : BufTy).Contents (Elt F) → (⟨S6400, .i32⟩ : BufTy).Contents (Elt F) → (⟨S6400, .i32⟩ : BufTy).Contents (Elt F)),
    ternary main_v18 main_v20 main_arg1 main_v21 (select : (⟨S6400, .i1⟩ : BufTy).Contents (Elt F) → (⟨S6400, .i32⟩ : BufTy).Contents (Elt F) → (⟨S6400, .i32⟩ : BufTy).Contents (Elt F) → (⟨S6400, .i32⟩ : BufTy).Contents (Elt F)),
    unary main_v21 main_v22 (broadcastInDim S6400x1 ![0] bcast_S6400_S6400x1_0 : (⟨S6400, .i32⟩ : BufTy).Contents (Elt F) → (⟨S6400x1, .i32⟩ : BufTy).Contents (Elt F)),
    binary main_v16 main_v22 main_v23 ((fun x i => Host.gather gather_S400x3_S6400x1_S6400x3_1_0_n_n_0_1_13 x i) : (⟨S400x3, .f32⟩ : BufTy).Contents (Elt F) → (⟨S6400x1, .i32⟩ : BufTy).Contents (Elt F) → (⟨S6400x3, .f32⟩ : BufTy).Contents (Elt F)),
    nullary main_cst_8 (constant S_ .f32 0x00000000#32),
    unary main_cst_8 main_v24 (broadcastInDim S400x3 ![] bcast_S_S400x3 : (⟨S_, .f32⟩ : BufTy).Contents (Elt F) → (⟨S400x3, .f32⟩ : BufTy).Contents (Elt F)),
    unary main_arg2 main_v25 (broadcastInDim S6400x1 ![0] bcast_S6400_S6400x1_0 : (⟨S6400, .i32⟩ : BufTy).Contents (Elt F) → (⟨S6400x1, .i32⟩ : BufTy).Contents (Elt F)),
    ternary main_v24 main_v25 main_v23 main_v26 ((fun x i u => Host.scatterAdd scatter_S400x3_S6400x1_S6400x3_1_0_0_1 x i u) : (⟨S400x3, .f32⟩ : BufTy).Contents (Elt F) → (⟨S6400x1, .i32⟩ : BufTy).Contents (Elt F) → (⟨S6400x3, .f32⟩ : BufTy).Contents (Elt F) → (⟨S400x3, .f32⟩ : BufTy).Contents (Elt F)),
    binary main_v26 main_arg4 main_v27 ((fun l r => Host.dotGeneral dot_S400x3_S3x5_S400x5_1_0_0_1_n_n none l r) : (⟨S400x3, .f32⟩ : BufTy).Contents (Elt F) → (⟨S3x5, .f32⟩ : BufTy).Contents (Elt F) → (⟨S400x5, .f32⟩ : BufTy).Contents (Elt F)),
    unary main_v13 main_v28 (broadcastInDim S400x1 ![0] bcast_S400_S400x1_0 : (⟨S400, .f32⟩ : BufTy).Contents (Elt F) → (⟨S400x1, .f32⟩ : BufTy).Contents (Elt F)),
    unary main_v28 main_v29 (broadcastInDim S400x5 ![0, 1] bcast_S400x1_S400x5_0_1 : (⟨S400x1, .f32⟩ : BufTy).Contents (Elt F) → (⟨S400x5, .f32⟩ : BufTy).Contents (Elt F)),
    binary main_v27 main_v29 main_v30 (mulf : (⟨S400x5, .f32⟩ : BufTy).Contents (Elt F) → (⟨S400x5, .f32⟩ : BufTy).Contents (Elt F) → (⟨S400x5, .f32⟩ : BufTy).Contents (Elt F)),
    unary main_arg5 main_v31 (broadcastInDim S1x5 ![1] bcast_S5_S1x5_1 : (⟨S5, .f32⟩ : BufTy).Contents (Elt F) → (⟨S1x5, .f32⟩ : BufTy).Contents (Elt F)),
    unary main_v31 main_v32 (broadcastInDim S400x5 ![0, 1] bcast_S1x5_S400x5_0_1 : (⟨S1x5, .f32⟩ : BufTy).Contents (Elt F) → (⟨S400x5, .f32⟩ : BufTy).Contents (Elt F)) ]

/-- Operations 48 to 63 of the list. -/
abbrev ch3 : List (HloOp τ sig (Elt F)) :=
  [ binary main_v30 main_v32 main_v33 (addf : (⟨S400x5, .f32⟩ : BufTy).Contents (Elt F) → (⟨S400x5, .f32⟩ : BufTy).Contents (Elt F) → (⟨S400x5, .f32⟩ : BufTy).Contents (Elt F)),
    nullary main_cst_9 (constant S_ .f32 0x00000000#32),
    unary main_cst_9 main_v34 (broadcastInDim S400x5 ![] bcast_S_S400x5 : (⟨S_, .f32⟩ : BufTy).Contents (Elt F) → (⟨S400x5, .f32⟩ : BufTy).Contents (Elt F)),
    binary main_v33 main_v34 main_v35 (cmpf .oge : (⟨S400x5, .f32⟩ : BufTy).Contents (Elt F) → (⟨S400x5, .f32⟩ : BufTy).Contents (Elt F) → (⟨S400x5, .i1⟩ : BufTy).Contents (Elt F)),
    nullary main_cst_10 (constant S_ .f32 0x3C23D70A#32),
    unary main_cst_10 main_v36 (broadcastInDim S400x5 ![] bcast_S_S400x5 : (⟨S_, .f32⟩ : BufTy).Contents (Elt F) → (⟨S400x5, .f32⟩ : BufTy).Contents (Elt F)),
    binary main_v36 main_v33 main_v37 (mulf : (⟨S400x5, .f32⟩ : BufTy).Contents (Elt F) → (⟨S400x5, .f32⟩ : BufTy).Contents (Elt F) → (⟨S400x5, .f32⟩ : BufTy).Contents (Elt F)),
    TRef.ternary (TRef.of (T := ⟨S400x5, .i1⟩) main_v35) (TRef.of (T := ⟨S400x5, .f32⟩) main_v33) (TRef.of (T := ⟨S400x5, .f32⟩) main_v37) (TRef.of (T := ⟨S400x5, .f32⟩) main_v38) select,
    nullary main_cst_11 (constant S_ .f32 0x3F800000#32),
    unary main_cst_11 main_v39 (broadcastInDim S6400 ![] bcast_S_S6400 : (⟨S_, .f32⟩ : BufTy).Contents (Elt F) → (⟨S6400, .f32⟩ : BufTy).Contents (Elt F)),
    nullary main_cst_12 (constant S_ .f32 0x00000000#32),
    unary main_cst_12 main_v40 (broadcastInDim S400 ![] bcast_S_S400 : (⟨S_, .f32⟩ : BufTy).Contents (Elt F) → (⟨S400, .f32⟩ : BufTy).Contents (Elt F)),
    unary main_arg1 main_v41 (broadcastInDim S6400x1 ![0] bcast_S6400_S6400x1_0 : (⟨S6400, .i32⟩ : BufTy).Contents (Elt F) → (⟨S6400x1, .i32⟩ : BufTy).Contents (Elt F)),
    ternary main_v40 main_v41 main_v39 main_v42 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)),
    nullary main_cst_13 (constant S_ .f32 0x3F800000#32),
    TRef.unary (TRef.of (T := ⟨S_, .f32⟩) main_cst_13) (TRef.of (T := ⟨S_, .f32⟩) main_call3_v0) id ]

/-- Operations 64 to 79 of the list. -/
abbrev ch4 : List (HloOp τ sig (Elt F)) :=
  [ TRef.unary (TRef.of (T := ⟨S_, .f32⟩) main_call3_v0) (TRef.of (T := ⟨S400, .f32⟩) main_call3_v1) (broadcastInDim S400 ![] bcast_S_S400),
    TRef.binary (TRef.of (T := ⟨S400, .f32⟩) main_call3_v1) (TRef.of (T := ⟨S400, .f32⟩) main_v42) (TRef.of (T := ⟨S400, .f32⟩) main_v43) maximumf,
    nullary main_cst_14 (constant S_ .f32 0xBF000000#32),
    unary main_cst_14 main_v44 (broadcastInDim S400 ![] bcast_S_S400 : (⟨S_, .f32⟩ : BufTy).Contents (Elt F) → (⟨S400, .f32⟩ : BufTy).Contents (Elt F)),
    binary main_v43 main_v44 main_v45 (Host.powf : (⟨S400, .f32⟩ : BufTy).Contents (Elt F) → (⟨S400, .f32⟩ : BufTy).Contents (Elt F) → (⟨S400, .f32⟩ : BufTy).Contents (Elt F)),
    nullary main_cst_15 (constant S_ .f32 0x3F800000#32),
    unary main_cst_15 main_v46 (broadcastInDim S6400 ![] bcast_S_S6400 : (⟨S_, .f32⟩ : BufTy).Contents (Elt F) → (⟨S6400, .f32⟩ : BufTy).Contents (Elt F)),
    nullary main_cst_16 (constant S_ .f32 0x00000000#32),
    unary main_cst_16 main_v47 (broadcastInDim S400 ![] bcast_S_S400 : (⟨S_, .f32⟩ : BufTy).Contents (Elt F) → (⟨S400, .f32⟩ : BufTy).Contents (Elt F)),
    unary main_arg2 main_v48 (broadcastInDim S6400x1 ![0] bcast_S6400_S6400x1_0 : (⟨S6400, .i32⟩ : BufTy).Contents (Elt F) → (⟨S6400x1, .i32⟩ : BufTy).Contents (Elt F)),
    ternary main_v47 main_v48 main_v46 main_v49 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)),
    nullary main_cst_17 (constant S_ .f32 0x3F800000#32),
    TRef.unary (TRef.of (T := ⟨S_, .f32⟩) main_cst_17) (TRef.of (T := ⟨S_, .f32⟩) main_call4_v0) id,
    TRef.unary (TRef.of (T := ⟨S_, .f32⟩) main_call4_v0) (TRef.of (T := ⟨S400, .f32⟩) main_call4_v1) (broadcastInDim S400 ![] bcast_S_S400),
    TRef.binary (TRef.of (T := ⟨S400, .f32⟩) main_call4_v1) (TRef.of (T := ⟨S400, .f32⟩) main_v49) (TRef.of (T := ⟨S400, .f32⟩) main_v50) maximumf,
    nullary main_cst_18 (constant S_ .f32 0xBF000000#32) ]

/-- Operations 80 to 95 of the list. -/
abbrev ch5 : List (HloOp τ sig (Elt F)) :=
  [ unary main_cst_18 main_v51 (broadcastInDim S400 ![] bcast_S_S400 : (⟨S_, .f32⟩ : BufTy).Contents (Elt F) → (⟨S400, .f32⟩ : BufTy).Contents (Elt F)),
    binary main_v50 main_v51 main_v52 (Host.powf : (⟨S400, .f32⟩ : BufTy).Contents (Elt F) → (⟨S400, .f32⟩ : BufTy).Contents (Elt F) → (⟨S400, .f32⟩ : BufTy).Contents (Elt F)),
    unary main_v45 main_v53 (broadcastInDim S400x1 ![0] bcast_S400_S400x1_0 : (⟨S400, .f32⟩ : BufTy).Contents (Elt F) → (⟨S400x1, .f32⟩ : BufTy).Contents (Elt F)),
    unary main_v53 main_v54 (broadcastInDim S400x5 ![0, 1] bcast_S400x1_S400x5_0_1 : (⟨S400x1, .f32⟩ : BufTy).Contents (Elt F) → (⟨S400x5, .f32⟩ : BufTy).Contents (Elt F)),
    binary main_v38 main_v54 main_v55 (mulf : (⟨S400x5, .f32⟩ : BufTy).Contents (Elt F) → (⟨S400x5, .f32⟩ : BufTy).Contents (Elt F) → (⟨S400x5, .f32⟩ : BufTy).Contents (Elt F)),
    nullary main_c_19 (constantI S_ 32 0#32),
    unary main_c_19 main_v56 (broadcastInDim S6400 ![] bcast_S_S6400 : (⟨S_, .i32⟩ : BufTy).Contents (Elt F) → (⟨S6400, .i32⟩ : BufTy).Contents (Elt F)),
    binary main_arg1 main_v56 main_v57 (cmpi .slt : (⟨S6400, .i32⟩ : BufTy).Contents (Elt F) → (⟨S6400, .i32⟩ : BufTy).Contents (Elt F) → (⟨S6400, .i1⟩ : BufTy).Contents (Elt F)),
    nullary main_c_20 (constantI S_ 32 400#32),
    unary main_c_20 main_v58 (broadcastInDim S6400 ![] bcast_S_S6400 : (⟨S_, .i32⟩ : BufTy).Contents (Elt F) → (⟨S6400, .i32⟩ : BufTy).Contents (Elt F)),
    binary main_arg1 main_v58 main_v59 (addi : (⟨S6400, .i32⟩ : BufTy).Contents (Elt F) → (⟨S6400, .i32⟩ : BufTy).Contents (Elt F) → (⟨S6400, .i32⟩ : BufTy).Contents (Elt F)),
    ternary main_v57 main_v59 main_arg1 main_v60 (select : (⟨S6400, .i1⟩ : BufTy).Contents (Elt F) → (⟨S6400, .i32⟩ : BufTy).Contents (Elt F) → (⟨S6400, .i32⟩ : BufTy).Contents (Elt F) → (⟨S6400, .i32⟩ : BufTy).Contents (Elt F)),
    unary main_v60 main_v61 (broadcastInDim S6400x1 ![0] bcast_S6400_S6400x1_0 : (⟨S6400, .i32⟩ : BufTy).Contents (Elt F) → (⟨S6400x1, .i32⟩ : BufTy).Contents (Elt F)),
    binary main_v55 main_v61 main_v62 ((fun x i => Host.gather gather_S400x5_S6400x1_S6400x5_1_0_n_n_0_1_15 x i) : (⟨S400x5, .f32⟩ : BufTy).Contents (Elt F) → (⟨S6400x1, .i32⟩ : BufTy).Contents (Elt F) → (⟨S6400x5, .f32⟩ : BufTy).Contents (Elt F)),
    nullary main_cst_21 (constant S_ .f32 0x00000000#32),
    unary main_cst_21 main_v63 (broadcastInDim S400x5 ![] bcast_S_S400x5 : (⟨S_, .f32⟩ : BufTy).Contents (Elt F) → (⟨S400x5, .f32⟩ : BufTy).Contents (Elt F)) ]

/-- Operations 96 to 111 of the list. -/
abbrev ch6 : List (HloOp τ sig (Elt F)) :=
  [ unary main_arg2 main_v64 (broadcastInDim S6400x1 ![0] bcast_S6400_S6400x1_0 : (⟨S6400, .i32⟩ : BufTy).Contents (Elt F) → (⟨S6400x1, .i32⟩ : BufTy).Contents (Elt F)),
    ternary main_v63 main_v64 main_v62 main_v65 ((fun x i u => Host.scatterAdd scatter_S400x5_S6400x1_S6400x5_1_0_0_1 x i u) : (⟨S400x5, .f32⟩ : BufTy).Contents (Elt F) → (⟨S6400x1, .i32⟩ : BufTy).Contents (Elt F) → (⟨S6400x5, .f32⟩ : BufTy).Contents (Elt F) → (⟨S400x5, .f32⟩ : BufTy).Contents (Elt F)),
    binary main_v65 main_arg3 main_v66 ((fun l r => Host.dotGeneral dot_S400x5_S5x160000_S400x160000_1_0_0_1_n_n none l r) : (⟨S400x5, .f32⟩ : BufTy).Contents (Elt F) → (⟨S5x160000, .f32⟩ : BufTy).Contents (Elt F) → (⟨S400x160000, .f32⟩ : BufTy).Contents (Elt F)),
    unary main_v52 main_v67 (broadcastInDim S400x1 ![0] bcast_S400_S400x1_0 : (⟨S400, .f32⟩ : BufTy).Contents (Elt F) → (⟨S400x1, .f32⟩ : BufTy).Contents (Elt F)),
    unary main_v67 main_v68 (broadcastInDim S400x160000 ![0, 1] bcast_S400x1_S400x160000_0_1 : (⟨S400x1, .f32⟩ : BufTy).Contents (Elt F) → (⟨S400x160000, .f32⟩ : BufTy).Contents (Elt F)),
    binary main_v66 main_v68 main_v69 (mulf : (⟨S400x160000, .f32⟩ : BufTy).Contents (Elt F) → (⟨S400x160000, .f32⟩ : BufTy).Contents (Elt F) → (⟨S400x160000, .f32⟩ : BufTy).Contents (Elt F)),
    nullary main_cst_22 (constant S_ .f32 0x00000000#32),
    unary main_cst_22 main_v70 (broadcastInDim S400x160000 ![] bcast_S_S400x160000 : (⟨S_, .f32⟩ : BufTy).Contents (Elt F) → (⟨S400x160000, .f32⟩ : BufTy).Contents (Elt F)),
    binary main_v69 main_v70 main_v71 (cmpf .oge : (⟨S400x160000, .f32⟩ : BufTy).Contents (Elt F) → (⟨S400x160000, .f32⟩ : BufTy).Contents (Elt F) → (⟨S400x160000, .i1⟩ : BufTy).Contents (Elt F)),
    nullary main_cst_23 (constant S_ .f32 0x3C23D70A#32),
    unary main_cst_23 main_v72 (broadcastInDim S400x160000 ![] bcast_S_S400x160000 : (⟨S_, .f32⟩ : BufTy).Contents (Elt F) → (⟨S400x160000, .f32⟩ : BufTy).Contents (Elt F)),
    binary main_v72 main_v69 main_v73 (mulf : (⟨S400x160000, .f32⟩ : BufTy).Contents (Elt F) → (⟨S400x160000, .f32⟩ : BufTy).Contents (Elt F) → (⟨S400x160000, .f32⟩ : BufTy).Contents (Elt F)),
    TRef.ternary (TRef.of (T := ⟨S400x160000, .i1⟩) main_v71) (TRef.of (T := ⟨S400x160000, .f32⟩) main_v69) (TRef.of (T := ⟨S400x160000, .f32⟩) main_v73) (TRef.of (T := ⟨S400x160000, .f32⟩) main_v74) select,
    nullary main_cst_24 (constant S_ .f32 0x3F800000#32),
    unary main_cst_24 main_v75 (broadcastInDim S6400 ![] bcast_S_S6400 : (⟨S_, .f32⟩ : BufTy).Contents (Elt F) → (⟨S6400, .f32⟩ : BufTy).Contents (Elt F)),
    nullary main_cst_25 (constant S_ .f32 0x00000000#32) ]

/-- Operations 112 to 127 of the list. -/
abbrev ch7 : List (HloOp τ sig (Elt F)) :=
  [ unary main_cst_25 main_v76 (broadcastInDim S400 ![] bcast_S_S400 : (⟨S_, .f32⟩ : BufTy).Contents (Elt F) → (⟨S400, .f32⟩ : BufTy).Contents (Elt F)),
    unary main_arg1 main_v77 (broadcastInDim S6400x1 ![0] bcast_S6400_S6400x1_0 : (⟨S6400, .i32⟩ : BufTy).Contents (Elt F) → (⟨S6400x1, .i32⟩ : BufTy).Contents (Elt F)),
    ternary main_v76 main_v77 main_v75 main_v78 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)),
    nullary main_cst_26 (constant S_ .f32 0x3F800000#32),
    TRef.unary (TRef.of (T := ⟨S_, .f32⟩) main_cst_26) (TRef.of (T := ⟨S_, .f32⟩) main_call6_v0) id,
    TRef.unary (TRef.of (T := ⟨S_, .f32⟩) main_call6_v0) (TRef.of (T := ⟨S400, .f32⟩) main_call6_v1) (broadcastInDim S400 ![] bcast_S_S400),
    TRef.binary (TRef.of (T := ⟨S400, .f32⟩) main_call6_v1) (TRef.of (T := ⟨S400, .f32⟩) main_v78) (TRef.of (T := ⟨S400, .f32⟩) main_v79) maximumf,
    nullary main_cst_27 (constant S_ .f32 0xBF000000#32),
    unary main_cst_27 main_v80 (broadcastInDim S400 ![] bcast_S_S400 : (⟨S_, .f32⟩ : BufTy).Contents (Elt F) → (⟨S400, .f32⟩ : BufTy).Contents (Elt F)),
    binary main_v79 main_v80 main_v81 (Host.powf : (⟨S400, .f32⟩ : BufTy).Contents (Elt F) → (⟨S400, .f32⟩ : BufTy).Contents (Elt F) → (⟨S400, .f32⟩ : BufTy).Contents (Elt F)),
    nullary main_cst_28 (constant S_ .f32 0x3F800000#32),
    unary main_cst_28 main_v82 (broadcastInDim S6400 ![] bcast_S_S6400 : (⟨S_, .f32⟩ : BufTy).Contents (Elt F) → (⟨S6400, .f32⟩ : BufTy).Contents (Elt F)),
    nullary main_cst_29 (constant S_ .f32 0x00000000#32),
    unary main_cst_29 main_v83 (broadcastInDim S400 ![] bcast_S_S400 : (⟨S_, .f32⟩ : BufTy).Contents (Elt F) → (⟨S400, .f32⟩ : BufTy).Contents (Elt F)),
    unary main_arg2 main_v84 (broadcastInDim S6400x1 ![0] bcast_S6400_S6400x1_0 : (⟨S6400, .i32⟩ : BufTy).Contents (Elt F) → (⟨S6400x1, .i32⟩ : BufTy).Contents (Elt F)),
    ternary main_v83 main_v84 main_v82 main_v85 ((fun x i u => Host.scatterAdd scatter_S400_S6400x1_S6400_n_0_0_1 x i u) : (⟨S400, .f32⟩ : BufTy).Contents (Elt F) → (⟨S6400x1, .i32⟩ : BufTy).Contents (Elt F) → (⟨S6400, .f32⟩ : BufTy).Contents (Elt F) → (⟨S400, .f32⟩ : BufTy).Contents (Elt F)) ]

/-- Operations 128 to 143 of the list. -/
abbrev ch8 : List (HloOp τ sig (Elt F)) :=
  [ nullary main_cst_30 (constant S_ .f32 0x3F800000#32),
    TRef.unary (TRef.of (T := ⟨S_, .f32⟩) main_cst_30) (TRef.of (T := ⟨S_, .f32⟩) main_call7_v0) id,
    TRef.unary (TRef.of (T := ⟨S_, .f32⟩) main_call7_v0) (TRef.of (T := ⟨S400, .f32⟩) main_call7_v1) (broadcastInDim S400 ![] bcast_S_S400),
    TRef.binary (TRef.of (T := ⟨S400, .f32⟩) main_call7_v1) (TRef.of (T := ⟨S400, .f32⟩) main_v85) (TRef.of (T := ⟨S400, .f32⟩) main_v86) maximumf,
    nullary main_cst_31 (constant S_ .f32 0xBF000000#32),
    unary main_cst_31 main_v87 (broadcastInDim S400 ![] bcast_S_S400 : (⟨S_, .f32⟩ : BufTy).Contents (Elt F) → (⟨S400, .f32⟩ : BufTy).Contents (Elt F)),
    binary main_v86 main_v87 main_v88 (Host.powf : (⟨S400, .f32⟩ : BufTy).Contents (Elt F) → (⟨S400, .f32⟩ : BufTy).Contents (Elt F) → (⟨S400, .f32⟩ : BufTy).Contents (Elt F)),
    unary main_v81 main_v89 (broadcastInDim S400x1 ![0] bcast_S400_S400x1_0 : (⟨S400, .f32⟩ : BufTy).Contents (Elt F) → (⟨S400x1, .f32⟩ : BufTy).Contents (Elt F)),
    unary main_v89 main_v90 (broadcastInDim S400x160000 ![0, 1] bcast_S400x1_S400x160000_0_1 : (⟨S400x1, .f32⟩ : BufTy).Contents (Elt F) → (⟨S400x160000, .f32⟩ : BufTy).Contents (Elt F)),
    binary main_v74 main_v90 main_v91 (mulf : (⟨S400x160000, .f32⟩ : BufTy).Contents (Elt F) → (⟨S400x160000, .f32⟩ : BufTy).Contents (Elt F) → (⟨S400x160000, .f32⟩ : BufTy).Contents (Elt F)),
    binary main_v91 main_arg6 main_v92 ((fun l r => Host.dotGeneral dot_S400x160000_S160000x400_S400x400_1_0_0_1_n_n none l r) : (⟨S400x160000, .f32⟩ : BufTy).Contents (Elt F) → (⟨S160000x400, .f32⟩ : BufTy).Contents (Elt F) → (⟨S400x400, .f32⟩ : BufTy).Contents (Elt F)),
    nullary main_c_32 (constantI S_ 32 0#32),
    unary main_c_32 main_v93 (broadcastInDim S6400 ![] bcast_S_S6400 : (⟨S_, .i32⟩ : BufTy).Contents (Elt F) → (⟨S6400, .i32⟩ : BufTy).Contents (Elt F)),
    binary main_arg1 main_v93 main_v94 (cmpi .slt : (⟨S6400, .i32⟩ : BufTy).Contents (Elt F) → (⟨S6400, .i32⟩ : BufTy).Contents (Elt F) → (⟨S6400, .i1⟩ : BufTy).Contents (Elt F)),
    nullary main_c_33 (constantI S_ 32 400#32),
    unary main_c_33 main_v95 (broadcastInDim S6400 ![] bcast_S_S6400 : (⟨S_, .i32⟩ : BufTy).Contents (Elt F) → (⟨S6400, .i32⟩ : BufTy).Contents (Elt F)) ]

/-- Operations 144 to 159 of the list. -/
abbrev ch9 : List (HloOp τ sig (Elt F)) :=
  [ binary main_arg1 main_v95 main_v96 (addi : (⟨S6400, .i32⟩ : BufTy).Contents (Elt F) → (⟨S6400, .i32⟩ : BufTy).Contents (Elt F) → (⟨S6400, .i32⟩ : BufTy).Contents (Elt F)),
    ternary main_v94 main_v96 main_arg1 main_v97 (select : (⟨S6400, .i1⟩ : BufTy).Contents (Elt F) → (⟨S6400, .i32⟩ : BufTy).Contents (Elt F) → (⟨S6400, .i32⟩ : BufTy).Contents (Elt F) → (⟨S6400, .i32⟩ : BufTy).Contents (Elt F)),
    unary main_v97 main_v98 (broadcastInDim S6400x1 ![0] bcast_S6400_S6400x1_0 : (⟨S6400, .i32⟩ : BufTy).Contents (Elt F) → (⟨S6400x1, .i32⟩ : BufTy).Contents (Elt F)),
    binary main_v92 main_v98 main_v99 ((fun x i => Host.gather gather_S400x400_S6400x1_S6400x400_1_0_n_n_0_1_1400 x i) : (⟨S400x400, .f32⟩ : BufTy).Contents (Elt F) → (⟨S6400x1, .i32⟩ : BufTy).Contents (Elt F) → (⟨S6400x400, .f32⟩ : BufTy).Contents (Elt F)),
    nullary main_cst_34 (constant S_ .f32 0x00000000#32),
    unary main_cst_34 main_v100 (broadcastInDim S400x400 ![] bcast_S_S400x400 : (⟨S_, .f32⟩ : BufTy).Contents (Elt F) → (⟨S400x400, .f32⟩ : BufTy).Contents (Elt F)),
    unary main_arg2 main_v101 (broadcastInDim S6400x1 ![0] bcast_S6400_S6400x1_0 : (⟨S6400, .i32⟩ : BufTy).Contents (Elt F) → (⟨S6400x1, .i32⟩ : BufTy).Contents (Elt F)),
    ternary main_v100 main_v101 main_v99 main_v102 ((fun x i u => Host.scatterAdd scatter_S400x400_S6400x1_S6400x400_1_0_0_1 x i u) : (⟨S400x400, .f32⟩ : BufTy).Contents (Elt F) → (⟨S6400x1, .i32⟩ : BufTy).Contents (Elt F) → (⟨S6400x400, .f32⟩ : BufTy).Contents (Elt F) → (⟨S400x400, .f32⟩ : BufTy).Contents (Elt F)),
    unary main_v88 main_v103 (broadcastInDim S400x1 ![0] bcast_S400_S400x1_0 : (⟨S400, .f32⟩ : BufTy).Contents (Elt F) → (⟨S400x1, .f32⟩ : BufTy).Contents (Elt F)),
    unary main_v103 main_v104 (broadcastInDim S400x400 ![0, 1] bcast_S400x1_S400x400_0_1 : (⟨S400x1, .f32⟩ : BufTy).Contents (Elt F) → (⟨S400x400, .f32⟩ : BufTy).Contents (Elt F)),
    binary main_v102 main_v104 main_v105 (mulf : (⟨S400x400, .f32⟩ : BufTy).Contents (Elt F) → (⟨S400x400, .f32⟩ : BufTy).Contents (Elt F) → (⟨S400x400, .f32⟩ : BufTy).Contents (Elt F)),
    unary main_arg7 main_v106 (broadcastInDim S1x400 ![1] bcast_S400_S1x400_1 : (⟨S400, .f32⟩ : BufTy).Contents (Elt F) → (⟨S1x400, .f32⟩ : BufTy).Contents (Elt F)),
    unary main_v106 main_v107 (broadcastInDim S400x400 ![0, 1] bcast_S1x400_S400x400_0_1 : (⟨S1x400, .f32⟩ : BufTy).Contents (Elt F) → (⟨S400x400, .f32⟩ : BufTy).Contents (Elt F)),
    binary main_v105 main_v107 main_v108 (addf : (⟨S400x400, .f32⟩ : BufTy).Contents (Elt F) → (⟨S400x400, .f32⟩ : BufTy).Contents (Elt F) → (⟨S400x400, .f32⟩ : BufTy).Contents (Elt F)),
    nullary main_cst_35 (constant S_ .f32 0x00000000#32),
    unary main_cst_35 main_v109 (broadcastInDim S400x400 ![] bcast_S_S400x400 : (⟨S_, .f32⟩ : BufTy).Contents (Elt F) → (⟨S400x400, .f32⟩ : BufTy).Contents (Elt F)) ]

/-- Operations 160 to 175 of the list. -/
abbrev ch10 : List (HloOp τ sig (Elt F)) :=
  [ binary main_v108 main_v109 main_v110 (cmpf .oge : (⟨S400x400, .f32⟩ : BufTy).Contents (Elt F) → (⟨S400x400, .f32⟩ : BufTy).Contents (Elt F) → (⟨S400x400, .i1⟩ : BufTy).Contents (Elt F)),
    nullary main_cst_36 (constant S_ .f32 0x3C23D70A#32),
    unary main_cst_36 main_v111 (broadcastInDim S400x400 ![] bcast_S_S400x400 : (⟨S_, .f32⟩ : BufTy).Contents (Elt F) → (⟨S400x400, .f32⟩ : BufTy).Contents (Elt F)),
    binary main_v111 main_v108 main_v112 (mulf : (⟨S400x400, .f32⟩ : BufTy).Contents (Elt F) → (⟨S400x400, .f32⟩ : BufTy).Contents (Elt F) → (⟨S400x400, .f32⟩ : BufTy).Contents (Elt F)),
    TRef.ternary (TRef.of (T := ⟨S400x400, .i1⟩) main_v110) (TRef.of (T := ⟨S400x400, .f32⟩) main_v108) (TRef.of (T := ⟨S400x400, .f32⟩) main_v112) (TRef.of (T := ⟨S400x400, .f32⟩) main_v113) select,
    binary main_v113 main_arg8 main_v114 ((fun l r => Host.dotGeneral dot_S400x400_S400x512_S400x512_1_0_0_1_n_n none l r) : (⟨S400x400, .f32⟩ : BufTy).Contents (Elt F) → (⟨S400x512, .f32⟩ : BufTy).Contents (Elt F) → (⟨S400x512, .f32⟩ : BufTy).Contents (Elt F)),
    unary main_arg9 main_v115 (broadcastInDim S1x512 ![1] bcast_S512_S1x512_1 : (⟨S512, .f32⟩ : BufTy).Contents (Elt F) → (⟨S1x512, .f32⟩ : BufTy).Contents (Elt F)),
    unary main_v115 main_v116 (broadcastInDim S400x512 ![0, 1] bcast_S1x512_S400x512_0_1 : (⟨S1x512, .f32⟩ : BufTy).Contents (Elt F) → (⟨S400x512, .f32⟩ : BufTy).Contents (Elt F)),
    binary main_v114 main_v116 main_v117 (addf : (⟨S400x512, .f32⟩ : BufTy).Contents (Elt F) → (⟨S400x512, .f32⟩ : BufTy).Contents (Elt F) → (⟨S400x512, .f32⟩ : BufTy).Contents (Elt F)),
    nullary main_cst_37 (constant S_ .f32 0x00000000#32),
    unary main_cst_37 main_v118 (broadcastInDim S400x512 ![] bcast_S_S400x512 : (⟨S_, .f32⟩ : BufTy).Contents (Elt F) → (⟨S400x512, .f32⟩ : BufTy).Contents (Elt F)),
    binary main_v117 main_v118 main_v119 (cmpf .oge : (⟨S400x512, .f32⟩ : BufTy).Contents (Elt F) → (⟨S400x512, .f32⟩ : BufTy).Contents (Elt F) → (⟨S400x512, .i1⟩ : BufTy).Contents (Elt F)),
    nullary main_cst_38 (constant S_ .f32 0x3C23D70A#32),
    unary main_cst_38 main_v120 (broadcastInDim S400x512 ![] bcast_S_S400x512 : (⟨S_, .f32⟩ : BufTy).Contents (Elt F) → (⟨S400x512, .f32⟩ : BufTy).Contents (Elt F)),
    binary main_v120 main_v117 main_v121 (mulf : (⟨S400x512, .f32⟩ : BufTy).Contents (Elt F) → (⟨S400x512, .f32⟩ : BufTy).Contents (Elt F) → (⟨S400x512, .f32⟩ : BufTy).Contents (Elt F)),
    TRef.ternary (TRef.of (T := ⟨S400x512, .i1⟩) main_v119) (TRef.of (T := ⟨S400x512, .f32⟩) main_v117) (TRef.of (T := ⟨S400x512, .f32⟩) main_v121) (TRef.of (T := ⟨S400x512, .f32⟩) main_v122) select ]

/-- Operations 176 to 191 of the list. -/
abbrev ch11 : List (HloOp τ sig (Elt F)) :=
  [ binary main_v122 main_arg10 main_v123 ((fun l r => Host.dotGeneral dot_S400x512_S512x1024_S400x1024_1_0_0_1_n_n none l r) : (⟨S400x512, .f32⟩ : BufTy).Contents (Elt F) → (⟨S512x1024, .f32⟩ : BufTy).Contents (Elt F) → (⟨S400x1024, .f32⟩ : BufTy).Contents (Elt F)),
    unary main_arg11 main_v124 (broadcastInDim S1x1024 ![1] bcast_S1024_S1x1024_1 : (⟨S1024, .f32⟩ : BufTy).Contents (Elt F) → (⟨S1x1024, .f32⟩ : BufTy).Contents (Elt F)),
    unary main_v124 main_v125 (broadcastInDim S400x1024 ![0, 1] bcast_S1x1024_S400x1024_0_1 : (⟨S1x1024, .f32⟩ : BufTy).Contents (Elt F) → (⟨S400x1024, .f32⟩ : BufTy).Contents (Elt F)),
    binary main_v123 main_v125 main_v126 (addf : (⟨S400x1024, .f32⟩ : BufTy).Contents (Elt F) → (⟨S400x1024, .f32⟩ : BufTy).Contents (Elt F) → (⟨S400x1024, .f32⟩ : BufTy).Contents (Elt F)),
    nullary main_cst_39 (constant S_ .f32 0x00000000#32),
    unary main_cst_39 main_v127 (broadcastInDim S400x1024 ![] bcast_S_S400x1024 : (⟨S_, .f32⟩ : BufTy).Contents (Elt F) → (⟨S400x1024, .f32⟩ : BufTy).Contents (Elt F)),
    binary main_v126 main_v127 main_v128 (cmpf .oge : (⟨S400x1024, .f32⟩ : BufTy).Contents (Elt F) → (⟨S400x1024, .f32⟩ : BufTy).Contents (Elt F) → (⟨S400x1024, .i1⟩ : BufTy).Contents (Elt F)),
    nullary main_cst_40 (constant S_ .f32 0x3C23D70A#32),
    unary main_cst_40 main_v129 (broadcastInDim S400x1024 ![] bcast_S_S400x1024 : (⟨S_, .f32⟩ : BufTy).Contents (Elt F) → (⟨S400x1024, .f32⟩ : BufTy).Contents (Elt F)),
    binary main_v129 main_v126 main_v130 (mulf : (⟨S400x1024, .f32⟩ : BufTy).Contents (Elt F) → (⟨S400x1024, .f32⟩ : BufTy).Contents (Elt F) → (⟨S400x1024, .f32⟩ : BufTy).Contents (Elt F)),
    TRef.ternary (TRef.of (T := ⟨S400x1024, .i1⟩) main_v128) (TRef.of (T := ⟨S400x1024, .f32⟩) main_v126) (TRef.of (T := ⟨S400x1024, .f32⟩) main_v130) (TRef.of (T := ⟨S400x1024, .f32⟩) main_v131) select,
    binary main_v131 main_arg12 main_v132 ((fun l r => Host.dotGeneral dot_S400x1024_S1024x512_S400x512_1_0_0_1_n_n none l r) : (⟨S400x1024, .f32⟩ : BufTy).Contents (Elt F) → (⟨S1024x512, .f32⟩ : BufTy).Contents (Elt F) → (⟨S400x512, .f32⟩ : BufTy).Contents (Elt F)),
    unary main_arg13 main_v133 (broadcastInDim S1x512 ![1] bcast_S512_S1x512_1 : (⟨S512, .f32⟩ : BufTy).Contents (Elt F) → (⟨S1x512, .f32⟩ : BufTy).Contents (Elt F)),
    unary main_v133 main_v134 (broadcastInDim S400x512 ![0, 1] bcast_S1x512_S400x512_0_1 : (⟨S1x512, .f32⟩ : BufTy).Contents (Elt F) → (⟨S400x512, .f32⟩ : BufTy).Contents (Elt F)),
    binary main_v132 main_v134 main_v135 (addf : (⟨S400x512, .f32⟩ : BufTy).Contents (Elt F) → (⟨S400x512, .f32⟩ : BufTy).Contents (Elt F) → (⟨S400x512, .f32⟩ : BufTy).Contents (Elt F)),
    nullary main_cst_41 (constant S_ .f32 0x00000000#32) ]

/-- Operations 192 to 207 of the list. -/
abbrev ch12 : List (HloOp τ sig (Elt F)) :=
  [ unary main_cst_41 main_v136 (broadcastInDim S400x512 ![] bcast_S_S400x512 : (⟨S_, .f32⟩ : BufTy).Contents (Elt F) → (⟨S400x512, .f32⟩ : BufTy).Contents (Elt F)),
    binary main_v135 main_v136 main_v137 (cmpf .oge : (⟨S400x512, .f32⟩ : BufTy).Contents (Elt F) → (⟨S400x512, .f32⟩ : BufTy).Contents (Elt F) → (⟨S400x512, .i1⟩ : BufTy).Contents (Elt F)),
    nullary main_cst_42 (constant S_ .f32 0x3C23D70A#32),
    unary main_cst_42 main_v138 (broadcastInDim S400x512 ![] bcast_S_S400x512 : (⟨S_, .f32⟩ : BufTy).Contents (Elt F) → (⟨S400x512, .f32⟩ : BufTy).Contents (Elt F)),
    binary main_v138 main_v135 main_v139 (mulf : (⟨S400x512, .f32⟩ : BufTy).Contents (Elt F) → (⟨S400x512, .f32⟩ : BufTy).Contents (Elt F) → (⟨S400x512, .f32⟩ : BufTy).Contents (Elt F)),
    TRef.ternary (TRef.of (T := ⟨S400x512, .i1⟩) main_v137) (TRef.of (T := ⟨S400x512, .f32⟩) main_v135) (TRef.of (T := ⟨S400x512, .f32⟩) main_v139) (TRef.of (T := ⟨S400x512, .f32⟩) main_v140) select,
    binary main_v140 main_arg14 main_v141 ((fun l r => Host.dotGeneral dot_S400x512_S512x64_S400x64_1_0_0_1_n_n none l r) : (⟨S400x512, .f32⟩ : BufTy).Contents (Elt F) → (⟨S512x64, .f32⟩ : BufTy).Contents (Elt F) → (⟨S400x64, .f32⟩ : BufTy).Contents (Elt F)),
    unary main_arg15 main_v142 (broadcastInDim S1x64 ![1] bcast_S64_S1x64_1 : (⟨S64, .f32⟩ : BufTy).Contents (Elt F) → (⟨S1x64, .f32⟩ : BufTy).Contents (Elt F)),
    unary main_v142 main_v143 (broadcastInDim S400x64 ![0, 1] bcast_S1x64_S400x64_0_1 : (⟨S1x64, .f32⟩ : BufTy).Contents (Elt F) → (⟨S400x64, .f32⟩ : BufTy).Contents (Elt F)),
    binary main_v141 main_v143 main_v144 (addf : (⟨S400x64, .f32⟩ : BufTy).Contents (Elt F) → (⟨S400x64, .f32⟩ : BufTy).Contents (Elt F) → (⟨S400x64, .f32⟩ : BufTy).Contents (Elt F)),
    nullary main_cst_43 (constant S_ .f32 0x00000000#32),
    unary main_cst_43 main_v145 (broadcastInDim S400x64 ![] bcast_S_S400x64 : (⟨S_, .f32⟩ : BufTy).Contents (Elt F) → (⟨S400x64, .f32⟩ : BufTy).Contents (Elt F)),
    binary main_v144 main_v145 main_v146 (cmpf .oge : (⟨S400x64, .f32⟩ : BufTy).Contents (Elt F) → (⟨S400x64, .f32⟩ : BufTy).Contents (Elt F) → (⟨S400x64, .i1⟩ : BufTy).Contents (Elt F)),
    nullary main_cst_44 (constant S_ .f32 0x3C23D70A#32),
    unary main_cst_44 main_v147 (broadcastInDim S400x64 ![] bcast_S_S400x64 : (⟨S_, .f32⟩ : BufTy).Contents (Elt F) → (⟨S400x64, .f32⟩ : BufTy).Contents (Elt F)),
    binary main_v147 main_v144 main_v148 (mulf : (⟨S400x64, .f32⟩ : BufTy).Contents (Elt F) → (⟨S400x64, .f32⟩ : BufTy).Contents (Elt F) → (⟨S400x64, .f32⟩ : BufTy).Contents (Elt F)) ]

/-- Operations 208 to 212 of the list. -/
abbrev ch13 : List (HloOp τ sig (Elt F)) :=
  [ TRef.ternary (TRef.of (T := ⟨S400x64, .i1⟩) main_v146) (TRef.of (T := ⟨S400x64, .f32⟩) main_v144) (TRef.of (T := ⟨S400x64, .f32⟩) main_v148) (TRef.of (T := ⟨S400x64, .f32⟩) main_v149) select,
    binary main_v149 main_arg16 main_v150 ((fun l r => Host.dotGeneral dot_S400x64_S64x1_S400x1_1_0_0_1_n_n none l r) : (⟨S400x64, .f32⟩ : BufTy).Contents (Elt F) → (⟨S64x1, .f32⟩ : BufTy).Contents (Elt F) → (⟨S400x1, .f32⟩ : BufTy).Contents (Elt F)),
    unary main_arg17 main_v151 (broadcastInDim S1x1 ![1] bcast_S1_S1x1_1 : (⟨S1, .f32⟩ : BufTy).Contents (Elt F) → (⟨S1x1, .f32⟩ : BufTy).Contents (Elt F)),
    unary main_v151 main_v152 (broadcastInDim S400x1 ![0, 1] bcast_S1x1_S400x1_0_1 : (⟨S1x1, .f32⟩ : BufTy).Contents (Elt F) → (⟨S400x1, .f32⟩ : BufTy).Contents (Elt F)),
    binary main_v150 main_v152 main_v153 (addf : (⟨S400x1, .f32⟩ : BufTy).Contents (Elt F) → (⟨S400x1, .f32⟩ : BufTy).Contents (Elt F) → (⟨S400x1, .f32⟩ : BufTy).Contents (Elt F)) ]

/-- The list is its stretches, in order. -/
theorem ops_eq : (Cert.ReferenceIdeal.ValueP.ops (F := F)) = ch0 ++ (ch1 ++ (ch2 ++ (ch3 ++ (ch4 ++ (ch5 ++ (ch6 ++ (ch7 ++ (ch8 ++ (ch9 ++ (ch10 ++ (ch11 ++ (ch12 ++ (ch13))))))))))))) := rfl

variable (m : (ℓ : Loc nD τ sig) → Buf (Elt F) ℓ)

/-! ## One lemma per stretch -/

set_option maxHeartbeats 1000000 in
theorem st0 (c : Dev nD) (Y : Valuation τ sig (Elt F))
    (h_main_arg0 : Y (Proc.devRef .tc main_arg0) = (m ((c.tc : Thread nD τ).loc main_arg0)))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg4 : Y (Proc.devRef .tc main_arg4) = (m ((c.tc : Thread nD τ).loc main_arg4)))
    (h_main_arg5 : Y (Proc.devRef .tc main_arg5) = (m ((c.tc : Thread nD τ).loc main_arg5)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17))) :
    after (ch0 (F := F)) Y (Proc.devRef .tc main_arg0) = (m ((c.tc : Thread nD τ).loc main_arg0))
    ∧    after (ch0 (F := F)) Y (Proc.devRef .tc main_arg1) = (m ((c.tc : Thread nD τ).loc main_arg1))
    ∧    after (ch0 (F := F)) Y (Proc.devRef .tc main_arg2) = (m ((c.tc : Thread nD τ).loc main_arg2))
    ∧    after (ch0 (F := F)) Y (Proc.devRef .tc main_arg3) = (m ((c.tc : Thread nD τ).loc main_arg3))
    ∧    after (ch0 (F := F)) Y (Proc.devRef .tc main_arg4) = (m ((c.tc : Thread nD τ).loc main_arg4))
    ∧    after (ch0 (F := F)) Y (Proc.devRef .tc main_arg5) = (m ((c.tc : Thread nD τ).loc main_arg5))
    ∧    after (ch0 (F := F)) Y (Proc.devRef .tc main_arg6) = (m ((c.tc : Thread nD τ).loc main_arg6))
    ∧    after (ch0 (F := F)) Y (Proc.devRef .tc main_arg7) = (m ((c.tc : Thread nD τ).loc main_arg7))
    ∧    after (ch0 (F := F)) Y (Proc.devRef .tc main_arg8) = (m ((c.tc : Thread nD τ).loc main_arg8))
    ∧    after (ch0 (F := F)) Y (Proc.devRef .tc main_arg9) = (m ((c.tc : Thread nD τ).loc main_arg9))
    ∧    after (ch0 (F := F)) Y (Proc.devRef .tc main_arg10) = (m ((c.tc : Thread nD τ).loc main_arg10))
    ∧    after (ch0 (F := F)) Y (Proc.devRef .tc main_arg11) = (m ((c.tc : Thread nD τ).loc main_arg11))
    ∧    after (ch0 (F := F)) Y (Proc.devRef .tc main_arg12) = (m ((c.tc : Thread nD τ).loc main_arg12))
    ∧    after (ch0 (F := F)) Y (Proc.devRef .tc main_arg13) = (m ((c.tc : Thread nD τ).loc main_arg13))
    ∧    after (ch0 (F := F)) Y (Proc.devRef .tc main_arg14) = (m ((c.tc : Thread nD τ).loc main_arg14))
    ∧    after (ch0 (F := F)) Y (Proc.devRef .tc main_arg15) = (m ((c.tc : Thread nD τ).loc main_arg15))
    ∧    after (ch0 (F := F)) Y (Proc.devRef .tc main_arg16) = (m ((c.tc : Thread nD τ).loc main_arg16))
    ∧    after (ch0 (F := F)) Y (Proc.devRef .tc main_arg17) = (m ((c.tc : Thread nD τ).loc main_arg17))
    ∧    after (ch0 (F := F)) Y (Proc.devRef .tc main_v6) = (Cert.ReferenceIdeal.ReadP.val_main_v6 (F := F) (m ((c.tc : Thread nD τ).loc main_arg1)))
    ∧    after (ch0 (F := F)) Y (Proc.devRef .tc main_v7) = (Cert.ReferenceIdeal.ReadP.val_main_v7 (F := F))
    ∧    after (ch0 (F := F)) Y (Proc.devRef .tc main_cst_4) = (Cert.ReferenceIdeal.ReadP.val_main_cst_4 (F := F)) := by
  simp only [ch0]
  after_results_simp
  rw [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17]
  refine ⟨?_, ?_, ?_, ?_, ?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st1 (c : Dev nD) (Y : Valuation τ sig (Elt F))
    (h_main_arg0 : Y (Proc.devRef .tc main_arg0) = (m ((c.tc : Thread nD τ).loc main_arg0)))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg4 : Y (Proc.devRef .tc main_arg4) = (m ((c.tc : Thread nD τ).loc main_arg4)))
    (h_main_arg5 : Y (Proc.devRef .tc main_arg5) = (m ((c.tc : Thread nD τ).loc main_arg5)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v6 : Y (Proc.devRef .tc main_v6) = (Cert.ReferenceIdeal.ReadP.val_main_v6 (F := F) (m ((c.tc : Thread nD τ).loc main_arg1))))
    (h_main_v7 : Y (Proc.devRef .tc main_v7) = (Cert.ReferenceIdeal.ReadP.val_main_v7 (F := F)))
    (h_main_cst_4 : Y (Proc.devRef .tc main_cst_4) = (Cert.ReferenceIdeal.ReadP.val_main_cst_4 (F := F))) :
    after (ch1 (F := F)) Y (Proc.devRef .tc main_arg1) = (m ((c.tc : Thread nD τ).loc main_arg1))
    ∧    after (ch1 (F := F)) Y (Proc.devRef .tc main_arg2) = (m ((c.tc : Thread nD τ).loc main_arg2))
    ∧    after (ch1 (F := F)) Y (Proc.devRef .tc main_arg3) = (m ((c.tc : Thread nD τ).loc main_arg3))
    ∧    after (ch1 (F := F)) Y (Proc.devRef .tc main_arg4) = (m ((c.tc : Thread nD τ).loc main_arg4))
    ∧    after (ch1 (F := F)) Y (Proc.devRef .tc main_arg5) = (m ((c.tc : Thread nD τ).loc main_arg5))
    ∧    after (ch1 (F := F)) Y (Proc.devRef .tc main_arg6) = (m ((c.tc : Thread nD τ).loc main_arg6))
    ∧    after (ch1 (F := F)) Y (Proc.devRef .tc main_arg7) = (m ((c.tc : Thread nD τ).loc main_arg7))
    ∧    after (ch1 (F := F)) Y (Proc.devRef .tc main_arg8) = (m ((c.tc : Thread nD τ).loc main_arg8))
    ∧    after (ch1 (F := F)) Y (Proc.devRef .tc main_arg9) = (m ((c.tc : Thread nD τ).loc main_arg9))
    ∧    after (ch1 (F := F)) Y (Proc.devRef .tc main_arg10) = (m ((c.tc : Thread nD τ).loc main_arg10))
    ∧    after (ch1 (F := F)) Y (Proc.devRef .tc main_arg11) = (m ((c.tc : Thread nD τ).loc main_arg11))
    ∧    after (ch1 (F := F)) Y (Proc.devRef .tc main_arg12) = (m ((c.tc : Thread nD τ).loc main_arg12))
    ∧    after (ch1 (F := F)) Y (Proc.devRef .tc main_arg13) = (m ((c.tc : Thread nD τ).loc main_arg13))
    ∧    after (ch1 (F := F)) Y (Proc.devRef .tc main_arg14) = (m ((c.tc : Thread nD τ).loc main_arg14))
    ∧    after (ch1 (F := F)) Y (Proc.devRef .tc main_arg15) = (m ((c.tc : Thread nD τ).loc main_arg15))
    ∧    after (ch1 (F := F)) Y (Proc.devRef .tc main_arg16) = (m ((c.tc : Thread nD τ).loc main_arg16))
    ∧    after (ch1 (F := F)) Y (Proc.devRef .tc main_arg17) = (m ((c.tc : Thread nD τ).loc main_arg17))
    ∧    after (ch1 (F := F)) Y (Proc.devRef .tc main_v13) = (Cert.ReferenceIdeal.ReadP.val_main_v13 (F := F) (m ((c.tc : Thread nD τ).loc main_arg2)))
    ∧    after (ch1 (F := F)) Y (Proc.devRef .tc main_v16) = (Cert.ReferenceIdeal.ReadP.val_main_v16 (F := F) (m ((c.tc : Thread nD τ).loc main_arg0)) (m ((c.tc : Thread nD τ).loc main_arg1)))
    ∧    after (ch1 (F := F)) Y (Proc.devRef .tc main_v18) = (Cert.ReferenceIdeal.ReadP.val_main_v18 (F := F) (m ((c.tc : Thread nD τ).loc main_arg1))) := by
  simp only [ch1]
  after_results_simp
  rw [h_main_arg0, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v6, h_main_v7, h_main_cst_4]
  refine ⟨?_, ?_, ?_, ?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st2 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg4 : Y (Proc.devRef .tc main_arg4) = (m ((c.tc : Thread nD τ).loc main_arg4)))
    (h_main_arg5 : Y (Proc.devRef .tc main_arg5) = (m ((c.tc : Thread nD τ).loc main_arg5)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v13 : Y (Proc.devRef .tc main_v13) = (Cert.ReferenceIdeal.ReadP.val_main_v13 (F := F) (m ((c.tc : Thread nD τ).loc main_arg2))))
    (h_main_v16 : Y (Proc.devRef .tc main_v16) = (Cert.ReferenceIdeal.ReadP.val_main_v16 (F := F) (m ((c.tc : Thread nD τ).loc main_arg0)) (m ((c.tc : Thread nD τ).loc main_arg1))))
    (h_main_v18 : Y (Proc.devRef .tc main_v18) = (Cert.ReferenceIdeal.ReadP.val_main_v18 (F := F) (m ((c.tc : Thread nD τ).loc main_arg1)))) :
    after (ch2 (F := F)) Y (Proc.devRef .tc main_arg1) = (m ((c.tc : Thread nD τ).loc main_arg1))
    ∧    after (ch2 (F := F)) Y (Proc.devRef .tc main_arg2) = (m ((c.tc : Thread nD τ).loc main_arg2))
    ∧    after (ch2 (F := F)) Y (Proc.devRef .tc main_arg3) = (m ((c.tc : Thread nD τ).loc main_arg3))
    ∧    after (ch2 (F := F)) Y (Proc.devRef .tc main_arg6) = (m ((c.tc : Thread nD τ).loc main_arg6))
    ∧    after (ch2 (F := F)) Y (Proc.devRef .tc main_arg7) = (m ((c.tc : Thread nD τ).loc main_arg7))
    ∧    after (ch2 (F := F)) Y (Proc.devRef .tc main_arg8) = (m ((c.tc : Thread nD τ).loc main_arg8))
    ∧    after (ch2 (F := F)) Y (Proc.devRef .tc main_arg9) = (m ((c.tc : Thread nD τ).loc main_arg9))
    ∧    after (ch2 (F := F)) Y (Proc.devRef .tc main_arg10) = (m ((c.tc : Thread nD τ).loc main_arg10))
    ∧    after (ch2 (F := F)) Y (Proc.devRef .tc main_arg11) = (m ((c.tc : Thread nD τ).loc main_arg11))
    ∧    after (ch2 (F := F)) Y (Proc.devRef .tc main_arg12) = (m ((c.tc : Thread nD τ).loc main_arg12))
    ∧    after (ch2 (F := F)) Y (Proc.devRef .tc main_arg13) = (m ((c.tc : Thread nD τ).loc main_arg13))
    ∧    after (ch2 (F := F)) Y (Proc.devRef .tc main_arg14) = (m ((c.tc : Thread nD τ).loc main_arg14))
    ∧    after (ch2 (F := F)) Y (Proc.devRef .tc main_arg15) = (m ((c.tc : Thread nD τ).loc main_arg15))
    ∧    after (ch2 (F := F)) Y (Proc.devRef .tc main_arg16) = (m ((c.tc : Thread nD τ).loc main_arg16))
    ∧    after (ch2 (F := F)) Y (Proc.devRef .tc main_arg17) = (m ((c.tc : Thread nD τ).loc main_arg17))
    ∧    after (ch2 (F := F)) Y (Proc.devRef .tc main_v30) = (Cert.ReferenceIdeal.ReadP.val_main_v30 (F := F) (m ((c.tc : Thread nD τ).loc main_arg0)) (m ((c.tc : Thread nD τ).loc main_arg1)) (m ((c.tc : Thread nD τ).loc main_arg2)) (m ((c.tc : Thread nD τ).loc main_arg4)))
    ∧    after (ch2 (F := F)) Y (Proc.devRef .tc main_v32) = (Cert.ReferenceIdeal.ReadP.val_main_v32 (F := F) (m ((c.tc : Thread nD τ).loc main_arg5))) := by
  simp only [ch2]
  after_results_simp
  rw [h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_v13, h_main_v16, h_main_v18]
  refine ⟨?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st3 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v30 : Y (Proc.devRef .tc main_v30) = (Cert.ReferenceIdeal.ReadP.val_main_v30 (F := F) (m ((c.tc : Thread nD τ).loc main_arg0)) (m ((c.tc : Thread nD τ).loc main_arg1)) (m ((c.tc : Thread nD τ).loc main_arg2)) (m ((c.tc : Thread nD τ).loc main_arg4))))
    (h_main_v32 : Y (Proc.devRef .tc main_v32) = (Cert.ReferenceIdeal.ReadP.val_main_v32 (F := F) (m ((c.tc : Thread nD τ).loc main_arg5)))) :
    after (ch3 (F := F)) Y (Proc.devRef .tc main_arg1) = (m ((c.tc : Thread nD τ).loc main_arg1))
    ∧    after (ch3 (F := F)) Y (Proc.devRef .tc main_arg2) = (m ((c.tc : Thread nD τ).loc main_arg2))
    ∧    after (ch3 (F := F)) Y (Proc.devRef .tc main_arg3) = (m ((c.tc : Thread nD τ).loc main_arg3))
    ∧    after (ch3 (F := F)) Y (Proc.devRef .tc main_arg6) = (m ((c.tc : Thread nD τ).loc main_arg6))
    ∧    after (ch3 (F := F)) Y (Proc.devRef .tc main_arg7) = (m ((c.tc : Thread nD τ).loc main_arg7))
    ∧    after (ch3 (F := F)) Y (Proc.devRef .tc main_arg8) = (m ((c.tc : Thread nD τ).loc main_arg8))
    ∧    after (ch3 (F := F)) Y (Proc.devRef .tc main_arg9) = (m ((c.tc : Thread nD τ).loc main_arg9))
    ∧    after (ch3 (F := F)) Y (Proc.devRef .tc main_arg10) = (m ((c.tc : Thread nD τ).loc main_arg10))
    ∧    after (ch3 (F := F)) Y (Proc.devRef .tc main_arg11) = (m ((c.tc : Thread nD τ).loc main_arg11))
    ∧    after (ch3 (F := F)) Y (Proc.devRef .tc main_arg12) = (m ((c.tc : Thread nD τ).loc main_arg12))
    ∧    after (ch3 (F := F)) Y (Proc.devRef .tc main_arg13) = (m ((c.tc : Thread nD τ).loc main_arg13))
    ∧    after (ch3 (F := F)) Y (Proc.devRef .tc main_arg14) = (m ((c.tc : Thread nD τ).loc main_arg14))
    ∧    after (ch3 (F := F)) Y (Proc.devRef .tc main_arg15) = (m ((c.tc : Thread nD τ).loc main_arg15))
    ∧    after (ch3 (F := F)) Y (Proc.devRef .tc main_arg16) = (m ((c.tc : Thread nD τ).loc main_arg16))
    ∧    after (ch3 (F := F)) Y (Proc.devRef .tc main_arg17) = (m ((c.tc : Thread nD τ).loc main_arg17))
    ∧    after (ch3 (F := F)) Y (Proc.devRef .tc main_v38) = (Cert.ReferenceIdeal.ReadP.val_main_v38 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
    ∧    after (ch3 (F := F)) Y (Proc.devRef .tc main_v42) = (Cert.ReferenceIdeal.ReadP.val_main_v42 (F := F) (m ((c.tc : Thread nD τ).loc main_arg1)))
    ∧    after (ch3 (F := F)) Y (Proc.devRef .tc main_call3_v0) = (Cert.ReferenceIdeal.ReadP.val_main_call3_v0 (F := F)) := by
  simp only [ch3]
  after_results_simp
  rw [h_main_arg1, h_main_arg2, h_main_arg3, h_main_arg6, h_main_arg7, h_main_arg8, h_main_arg9, h_main_arg10, h_main_arg11, h_main_arg12, h_main_arg13, h_main_arg14, h_main_arg15, h_main_arg16, h_main_arg17, h_main_v30, h_main_v32]
  refine ⟨?_, ?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st4 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v38 : Y (Proc.devRef .tc main_v38) = (Cert.ReferenceIdeal.ReadP.val_main_v38 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))))
    (h_main_v42 : Y (Proc.devRef .tc main_v42) = (Cert.ReferenceIdeal.ReadP.val_main_v42 (F := F) (m ((c.tc : Thread nD τ).loc main_arg1))))
    (h_main_call3_v0 : Y (Proc.devRef .tc main_call3_v0) = (Cert.ReferenceIdeal.ReadP.val_main_call3_v0 (F := F))) :
    after (ch4 (F := F)) Y (Proc.devRef .tc main_arg1) = (m ((c.tc : Thread nD τ).loc main_arg1))
    ∧    after (ch4 (F := F)) Y (Proc.devRef .tc main_arg2) = (m ((c.tc : Thread nD τ).loc main_arg2))
    ∧    after (ch4 (F := F)) Y (Proc.devRef .tc main_arg3) = (m ((c.tc : Thread nD τ).loc main_arg3))
    ∧    after (ch4 (F := F)) Y (Proc.devRef .tc main_arg6) = (m ((c.tc : Thread nD τ).loc main_arg6))
    ∧    after (ch4 (F := F)) Y (Proc.devRef .tc main_arg7) = (m ((c.tc : Thread nD τ).loc main_arg7))
    ∧    after (ch4 (F := F)) Y (Proc.devRef .tc main_arg8) = (m ((c.tc : Thread nD τ).loc main_arg8))
    ∧    after (ch4 (F := F)) Y (Proc.devRef .tc main_arg9) = (m ((c.tc : Thread nD τ).loc main_arg9))
    ∧    after (ch4 (F := F)) Y (Proc.devRef .tc main_arg10) = (m ((c.tc : Thread nD τ).loc main_arg10))
    ∧    after (ch4 (F := F)) Y (Proc.devRef .tc main_arg11) = (m ((c.tc : Thread nD τ).loc main_arg11))
    ∧    after (ch4 (F := F)) Y (Proc.devRef .tc main_arg12) = (m ((c.tc : Thread nD τ).loc main_arg12))
    ∧    after (ch4 (F := F)) Y (Proc.devRef .tc main_arg13) = (m ((c.tc : Thread nD τ).loc main_arg13))
    ∧    after (ch4 (F := F)) Y (Proc.devRef .tc main_arg14) = (m ((c.tc : Thread nD τ).loc main_arg14))
    ∧    after (ch4 (F := F)) Y (Proc.devRef .tc main_arg15) = (m ((c.tc : Thread nD τ).loc main_arg15))
    ∧    after (ch4 (F := F)) Y (Proc.devRef .tc main_arg16) = (m ((c.tc : Thread nD τ).loc main_arg16))
    ∧    after (ch4 (F := F)) Y (Proc.devRef .tc main_arg17) = (m ((c.tc : Thread nD τ).loc main_arg17))
    ∧    after (ch4 (F := F)) Y (Proc.devRef .tc main_v38) = (Cert.ReferenceIdeal.ReadP.val_main_v38 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
    ∧    after (ch4 (F := F)) Y (Proc.devRef .tc main_v45) = (Cert.ReferenceIdeal.ReadP.val_main_v45 (F := F) (m ((c.tc : Thread nD τ).loc main_arg1)))
    ∧    after (ch4 (F := F)) Y (Proc.devRef .tc main_v50) = (Cert.ReferenceIdeal.ReadP.val_main_v50 (F := F) (m ((c.tc : Thread nD τ).loc main_arg2)))
    ∧    after (ch4 (F := F)) Y (Proc.devRef .tc main_cst_18) = (Cert.ReferenceIdeal.ReadP.val_main_cst_18 (F := F)) := by
  simp only [ch4]
  after_results_simp
  rw [h_main_arg1, h_main_arg2, h_main_arg3, h_main_arg6, h_main_arg7, h_main_arg8, h_main_arg9, h_main_arg10, h_main_arg11, h_main_arg12, h_main_arg13, h_main_arg14, h_main_arg15, h_main_arg16, h_main_arg17, h_main_v38, h_main_v42, h_main_call3_v0]
  refine ⟨?_, ?_, ?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st5 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v38 : Y (Proc.devRef .tc main_v38) = (Cert.ReferenceIdeal.ReadP.val_main_v38 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))))
    (h_main_v45 : Y (Proc.devRef .tc main_v45) = (Cert.ReferenceIdeal.ReadP.val_main_v45 (F := F) (m ((c.tc : Thread nD τ).loc main_arg1))))
    (h_main_v50 : Y (Proc.devRef .tc main_v50) = (Cert.ReferenceIdeal.ReadP.val_main_v50 (F := F) (m ((c.tc : Thread nD τ).loc main_arg2))))
    (h_main_cst_18 : Y (Proc.devRef .tc main_cst_18) = (Cert.ReferenceIdeal.ReadP.val_main_cst_18 (F := F))) :
    after (ch5 (F := F)) Y (Proc.devRef .tc main_arg1) = (m ((c.tc : Thread nD τ).loc main_arg1))
    ∧    after (ch5 (F := F)) Y (Proc.devRef .tc main_arg2) = (m ((c.tc : Thread nD τ).loc main_arg2))
    ∧    after (ch5 (F := F)) Y (Proc.devRef .tc main_arg3) = (m ((c.tc : Thread nD τ).loc main_arg3))
    ∧    after (ch5 (F := F)) Y (Proc.devRef .tc main_arg6) = (m ((c.tc : Thread nD τ).loc main_arg6))
    ∧    after (ch5 (F := F)) Y (Proc.devRef .tc main_arg7) = (m ((c.tc : Thread nD τ).loc main_arg7))
    ∧    after (ch5 (F := F)) Y (Proc.devRef .tc main_arg8) = (m ((c.tc : Thread nD τ).loc main_arg8))
    ∧    after (ch5 (F := F)) Y (Proc.devRef .tc main_arg9) = (m ((c.tc : Thread nD τ).loc main_arg9))
    ∧    after (ch5 (F := F)) Y (Proc.devRef .tc main_arg10) = (m ((c.tc : Thread nD τ).loc main_arg10))
    ∧    after (ch5 (F := F)) Y (Proc.devRef .tc main_arg11) = (m ((c.tc : Thread nD τ).loc main_arg11))
    ∧    after (ch5 (F := F)) Y (Proc.devRef .tc main_arg12) = (m ((c.tc : Thread nD τ).loc main_arg12))
    ∧    after (ch5 (F := F)) Y (Proc.devRef .tc main_arg13) = (m ((c.tc : Thread nD τ).loc main_arg13))
    ∧    after (ch5 (F := F)) Y (Proc.devRef .tc main_arg14) = (m ((c.tc : Thread nD τ).loc main_arg14))
    ∧    after (ch5 (F := F)) Y (Proc.devRef .tc main_arg15) = (m ((c.tc : Thread nD τ).loc main_arg15))
    ∧    after (ch5 (F := F)) Y (Proc.devRef .tc main_arg16) = (m ((c.tc : Thread nD τ).loc main_arg16))
    ∧    after (ch5 (F := F)) Y (Proc.devRef .tc main_arg17) = (m ((c.tc : Thread nD τ).loc main_arg17))
    ∧    after (ch5 (F := F)) Y (Proc.devRef .tc main_v52) = (Cert.ReferenceIdeal.ReadP.val_main_v52 (F := F) (m ((c.tc : Thread nD τ).loc main_arg2)))
    ∧    after (ch5 (F := F)) Y (Proc.devRef .tc main_v62) = (Cert.ReferenceIdeal.ReadP.val_main_v62 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
    ∧    after (ch5 (F := F)) Y (Proc.devRef .tc main_v63) = (Cert.ReferenceIdeal.ReadP.val_main_v63 (F := F)) := by
  simp only [ch5]
  after_results_simp
  rw [h_main_arg1, h_main_arg2, h_main_arg3, h_main_arg6, h_main_arg7, h_main_arg8, h_main_arg9, h_main_arg10, h_main_arg11, h_main_arg12, h_main_arg13, h_main_arg14, h_main_arg15, h_main_arg16, h_main_arg17, h_main_v38, h_main_v45, h_main_v50, h_main_cst_18]
  refine ⟨?_, ?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st6 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg3 : Y (Proc.devRef .tc main_arg3) = (m ((c.tc : Thread nD τ).loc main_arg3)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v52 : Y (Proc.devRef .tc main_v52) = (Cert.ReferenceIdeal.ReadP.val_main_v52 (F := F) (m ((c.tc : Thread nD τ).loc main_arg2))))
    (h_main_v62 : Y (Proc.devRef .tc main_v62) = (Cert.ReferenceIdeal.ReadP.val_main_v62 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))))
    (h_main_v63 : Y (Proc.devRef .tc main_v63) = (Cert.ReferenceIdeal.ReadP.val_main_v63 (F := F))) :
    after (ch6 (F := F)) Y (Proc.devRef .tc main_arg1) = (m ((c.tc : Thread nD τ).loc main_arg1))
    ∧    after (ch6 (F := F)) Y (Proc.devRef .tc main_arg2) = (m ((c.tc : Thread nD τ).loc main_arg2))
    ∧    after (ch6 (F := F)) Y (Proc.devRef .tc main_arg6) = (m ((c.tc : Thread nD τ).loc main_arg6))
    ∧    after (ch6 (F := F)) Y (Proc.devRef .tc main_arg7) = (m ((c.tc : Thread nD τ).loc main_arg7))
    ∧    after (ch6 (F := F)) Y (Proc.devRef .tc main_arg8) = (m ((c.tc : Thread nD τ).loc main_arg8))
    ∧    after (ch6 (F := F)) Y (Proc.devRef .tc main_arg9) = (m ((c.tc : Thread nD τ).loc main_arg9))
    ∧    after (ch6 (F := F)) Y (Proc.devRef .tc main_arg10) = (m ((c.tc : Thread nD τ).loc main_arg10))
    ∧    after (ch6 (F := F)) Y (Proc.devRef .tc main_arg11) = (m ((c.tc : Thread nD τ).loc main_arg11))
    ∧    after (ch6 (F := F)) Y (Proc.devRef .tc main_arg12) = (m ((c.tc : Thread nD τ).loc main_arg12))
    ∧    after (ch6 (F := F)) Y (Proc.devRef .tc main_arg13) = (m ((c.tc : Thread nD τ).loc main_arg13))
    ∧    after (ch6 (F := F)) Y (Proc.devRef .tc main_arg14) = (m ((c.tc : Thread nD τ).loc main_arg14))
    ∧    after (ch6 (F := F)) Y (Proc.devRef .tc main_arg15) = (m ((c.tc : Thread nD τ).loc main_arg15))
    ∧    after (ch6 (F := F)) Y (Proc.devRef .tc main_arg16) = (m ((c.tc : Thread nD τ).loc main_arg16))
    ∧    after (ch6 (F := F)) Y (Proc.devRef .tc main_arg17) = (m ((c.tc : Thread nD τ).loc main_arg17))
    ∧    after (ch6 (F := F)) Y (Proc.devRef .tc main_v74) = (Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    ∧    after (ch6 (F := F)) Y (Proc.devRef .tc main_v75) = (Cert.ReferenceIdeal.ReadP.val_main_v75 (F := F))
    ∧    after (ch6 (F := F)) Y (Proc.devRef .tc main_cst_25) = (Cert.ReferenceIdeal.ReadP.val_main_cst_25 (F := F)) := by
  simp only [ch6]
  after_results_simp
  rw [h_main_arg1, h_main_arg2, h_main_arg3, h_main_arg6, h_main_arg7, h_main_arg8, h_main_arg9, h_main_arg10, h_main_arg11, h_main_arg12, h_main_arg13, h_main_arg14, h_main_arg15, h_main_arg16, h_main_arg17, h_main_v52, h_main_v62, h_main_v63]
  refine ⟨?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st7 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v74 : Y (Proc.devRef .tc main_v74) = (Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
    (h_main_v75 : Y (Proc.devRef .tc main_v75) = (Cert.ReferenceIdeal.ReadP.val_main_v75 (F := F)))
    (h_main_cst_25 : Y (Proc.devRef .tc main_cst_25) = (Cert.ReferenceIdeal.ReadP.val_main_cst_25 (F := F))) :
    after (ch7 (F := F)) Y (Proc.devRef .tc main_arg1) = (m ((c.tc : Thread nD τ).loc main_arg1))
    ∧    after (ch7 (F := F)) Y (Proc.devRef .tc main_arg2) = (m ((c.tc : Thread nD τ).loc main_arg2))
    ∧    after (ch7 (F := F)) Y (Proc.devRef .tc main_arg6) = (m ((c.tc : Thread nD τ).loc main_arg6))
    ∧    after (ch7 (F := F)) Y (Proc.devRef .tc main_arg7) = (m ((c.tc : Thread nD τ).loc main_arg7))
    ∧    after (ch7 (F := F)) Y (Proc.devRef .tc main_arg8) = (m ((c.tc : Thread nD τ).loc main_arg8))
    ∧    after (ch7 (F := F)) Y (Proc.devRef .tc main_arg9) = (m ((c.tc : Thread nD τ).loc main_arg9))
    ∧    after (ch7 (F := F)) Y (Proc.devRef .tc main_arg10) = (m ((c.tc : Thread nD τ).loc main_arg10))
    ∧    after (ch7 (F := F)) Y (Proc.devRef .tc main_arg11) = (m ((c.tc : Thread nD τ).loc main_arg11))
    ∧    after (ch7 (F := F)) Y (Proc.devRef .tc main_arg12) = (m ((c.tc : Thread nD τ).loc main_arg12))
    ∧    after (ch7 (F := F)) Y (Proc.devRef .tc main_arg13) = (m ((c.tc : Thread nD τ).loc main_arg13))
    ∧    after (ch7 (F := F)) Y (Proc.devRef .tc main_arg14) = (m ((c.tc : Thread nD τ).loc main_arg14))
    ∧    after (ch7 (F := F)) Y (Proc.devRef .tc main_arg15) = (m ((c.tc : Thread nD τ).loc main_arg15))
    ∧    after (ch7 (F := F)) Y (Proc.devRef .tc main_arg16) = (m ((c.tc : Thread nD τ).loc main_arg16))
    ∧    after (ch7 (F := F)) Y (Proc.devRef .tc main_arg17) = (m ((c.tc : Thread nD τ).loc main_arg17))
    ∧    after (ch7 (F := F)) Y (Proc.devRef .tc main_v74) = (Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    ∧    after (ch7 (F := F)) Y (Proc.devRef .tc main_v81) = (Cert.ReferenceIdeal.ReadP.val_main_v81 (F := F) (m ((c.tc : Thread nD τ).loc main_arg1)))
    ∧    after (ch7 (F := F)) Y (Proc.devRef .tc main_v85) = (Cert.ReferenceIdeal.ReadP.val_main_v85 (F := F) (m ((c.tc : Thread nD τ).loc main_arg2))) := by
  simp only [ch7]
  after_results_simp
  rw [h_main_arg1, h_main_arg2, h_main_arg6, h_main_arg7, h_main_arg8, h_main_arg9, h_main_arg10, h_main_arg11, h_main_arg12, h_main_arg13, h_main_arg14, h_main_arg15, h_main_arg16, h_main_arg17, h_main_v74, h_main_v75, h_main_cst_25]
  refine ⟨?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st8 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg6 : Y (Proc.devRef .tc main_arg6) = (m ((c.tc : Thread nD τ).loc main_arg6)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v74 : Y (Proc.devRef .tc main_v74) = (Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
    (h_main_v81 : Y (Proc.devRef .tc main_v81) = (Cert.ReferenceIdeal.ReadP.val_main_v81 (F := F) (m ((c.tc : Thread nD τ).loc main_arg1))))
    (h_main_v85 : Y (Proc.devRef .tc main_v85) = (Cert.ReferenceIdeal.ReadP.val_main_v85 (F := F) (m ((c.tc : Thread nD τ).loc main_arg2)))) :
    after (ch8 (F := F)) Y (Proc.devRef .tc main_arg1) = (m ((c.tc : Thread nD τ).loc main_arg1))
    ∧    after (ch8 (F := F)) Y (Proc.devRef .tc main_arg2) = (m ((c.tc : Thread nD τ).loc main_arg2))
    ∧    after (ch8 (F := F)) Y (Proc.devRef .tc main_arg7) = (m ((c.tc : Thread nD τ).loc main_arg7))
    ∧    after (ch8 (F := F)) Y (Proc.devRef .tc main_arg8) = (m ((c.tc : Thread nD τ).loc main_arg8))
    ∧    after (ch8 (F := F)) Y (Proc.devRef .tc main_arg9) = (m ((c.tc : Thread nD τ).loc main_arg9))
    ∧    after (ch8 (F := F)) Y (Proc.devRef .tc main_arg10) = (m ((c.tc : Thread nD τ).loc main_arg10))
    ∧    after (ch8 (F := F)) Y (Proc.devRef .tc main_arg11) = (m ((c.tc : Thread nD τ).loc main_arg11))
    ∧    after (ch8 (F := F)) Y (Proc.devRef .tc main_arg12) = (m ((c.tc : Thread nD τ).loc main_arg12))
    ∧    after (ch8 (F := F)) Y (Proc.devRef .tc main_arg13) = (m ((c.tc : Thread nD τ).loc main_arg13))
    ∧    after (ch8 (F := F)) Y (Proc.devRef .tc main_arg14) = (m ((c.tc : Thread nD τ).loc main_arg14))
    ∧    after (ch8 (F := F)) Y (Proc.devRef .tc main_arg15) = (m ((c.tc : Thread nD τ).loc main_arg15))
    ∧    after (ch8 (F := F)) Y (Proc.devRef .tc main_arg16) = (m ((c.tc : Thread nD τ).loc main_arg16))
    ∧    after (ch8 (F := F)) Y (Proc.devRef .tc main_arg17) = (m ((c.tc : Thread nD τ).loc main_arg17))
    ∧    after (ch8 (F := F)) Y (Proc.devRef .tc main_v88) = (Cert.ReferenceIdeal.ReadP.val_main_v88 (F := F) (m ((c.tc : Thread nD τ).loc main_arg2)))
    ∧    after (ch8 (F := F)) Y (Proc.devRef .tc main_v92) = (Cert.ReferenceIdeal.ReadP.val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    ∧    after (ch8 (F := F)) Y (Proc.devRef .tc main_v94) = (Cert.ReferenceIdeal.ReadP.val_main_v94 (F := F) (m ((c.tc : Thread nD τ).loc main_arg1)))
    ∧    after (ch8 (F := F)) Y (Proc.devRef .tc main_v95) = (Cert.ReferenceIdeal.ReadP.val_main_v95 (F := F)) := by
  simp only [ch8]
  after_results_simp
  rw [h_main_arg1, h_main_arg2, h_main_arg6, h_main_arg7, h_main_arg8, h_main_arg9, h_main_arg10, h_main_arg11, h_main_arg12, h_main_arg13, h_main_arg14, h_main_arg15, h_main_arg16, h_main_arg17, h_main_v74, h_main_v81, h_main_v85]
  refine ⟨?_, ?_, ?_, ?_, ?_, ?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st9 (c : Dev nD) (Y : Valuation τ sig (Elt F))
    (h_main_arg1 : Y (Proc.devRef .tc main_arg1) = (m ((c.tc : Thread nD τ).loc main_arg1)))
    (h_main_arg2 : Y (Proc.devRef .tc main_arg2) = (m ((c.tc : Thread nD τ).loc main_arg2)))
    (h_main_arg7 : Y (Proc.devRef .tc main_arg7) = (m ((c.tc : Thread nD τ).loc main_arg7)))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v88 : Y (Proc.devRef .tc main_v88) = (Cert.ReferenceIdeal.ReadP.val_main_v88 (F := F) (m ((c.tc : Thread nD τ).loc main_arg2))))
    (h_main_v92 : Y (Proc.devRef .tc main_v92) = (Cert.ReferenceIdeal.ReadP.val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))))
    (h_main_v94 : Y (Proc.devRef .tc main_v94) = (Cert.ReferenceIdeal.ReadP.val_main_v94 (F := F) (m ((c.tc : Thread nD τ).loc main_arg1))))
    (h_main_v95 : Y (Proc.devRef .tc main_v95) = (Cert.ReferenceIdeal.ReadP.val_main_v95 (F := F))) :
    after (ch9 (F := F)) Y (Proc.devRef .tc main_arg8) = (m ((c.tc : Thread nD τ).loc main_arg8))
    ∧    after (ch9 (F := F)) Y (Proc.devRef .tc main_arg9) = (m ((c.tc : Thread nD τ).loc main_arg9))
    ∧    after (ch9 (F := F)) Y (Proc.devRef .tc main_arg10) = (m ((c.tc : Thread nD τ).loc main_arg10))
    ∧    after (ch9 (F := F)) Y (Proc.devRef .tc main_arg11) = (m ((c.tc : Thread nD τ).loc main_arg11))
    ∧    after (ch9 (F := F)) Y (Proc.devRef .tc main_arg12) = (m ((c.tc : Thread nD τ).loc main_arg12))
    ∧    after (ch9 (F := F)) Y (Proc.devRef .tc main_arg13) = (m ((c.tc : Thread nD τ).loc main_arg13))
    ∧    after (ch9 (F := F)) Y (Proc.devRef .tc main_arg14) = (m ((c.tc : Thread nD τ).loc main_arg14))
    ∧    after (ch9 (F := F)) Y (Proc.devRef .tc main_arg15) = (m ((c.tc : Thread nD τ).loc main_arg15))
    ∧    after (ch9 (F := F)) Y (Proc.devRef .tc main_arg16) = (m ((c.tc : Thread nD τ).loc main_arg16))
    ∧    after (ch9 (F := F)) Y (Proc.devRef .tc main_arg17) = (m ((c.tc : Thread nD τ).loc main_arg17))
    ∧    after (ch9 (F := F)) Y (Proc.devRef .tc main_v108) = (Cert.ReferenceIdeal.ReadP.val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    ∧    after (ch9 (F := F)) Y (Proc.devRef .tc main_v109) = (Cert.ReferenceIdeal.ReadP.val_main_v109 (F := F)) := by
  simp only [ch9]
  after_results_simp
  rw [h_main_arg1, h_main_arg2, h_main_arg7, h_main_arg8, h_main_arg9, h_main_arg10, h_main_arg11, h_main_arg12, h_main_arg13, h_main_arg14, h_main_arg15, h_main_arg16, h_main_arg17, h_main_v88, h_main_v92, h_main_v94, h_main_v95]
  refine ⟨?_, ?_, ?_, ?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st10 (c : Dev nD) (Y : Valuation τ sig (Elt F))
    (h_main_arg8 : Y (Proc.devRef .tc main_arg8) = (m ((c.tc : Thread nD τ).loc main_arg8)))
    (h_main_arg9 : Y (Proc.devRef .tc main_arg9) = (m ((c.tc : Thread nD τ).loc main_arg9)))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v108 : Y (Proc.devRef .tc main_v108) = (Cert.ReferenceIdeal.ReadP.val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))
    (h_main_v109 : Y (Proc.devRef .tc main_v109) = (Cert.ReferenceIdeal.ReadP.val_main_v109 (F := F))) :
    after (ch10 (F := F)) Y (Proc.devRef .tc main_arg10) = (m ((c.tc : Thread nD τ).loc main_arg10))
    ∧    after (ch10 (F := F)) Y (Proc.devRef .tc main_arg11) = (m ((c.tc : Thread nD τ).loc main_arg11))
    ∧    after (ch10 (F := F)) Y (Proc.devRef .tc main_arg12) = (m ((c.tc : Thread nD τ).loc main_arg12))
    ∧    after (ch10 (F := F)) Y (Proc.devRef .tc main_arg13) = (m ((c.tc : Thread nD τ).loc main_arg13))
    ∧    after (ch10 (F := F)) Y (Proc.devRef .tc main_arg14) = (m ((c.tc : Thread nD τ).loc main_arg14))
    ∧    after (ch10 (F := F)) Y (Proc.devRef .tc main_arg15) = (m ((c.tc : Thread nD τ).loc main_arg15))
    ∧    after (ch10 (F := F)) Y (Proc.devRef .tc main_arg16) = (m ((c.tc : Thread nD τ).loc main_arg16))
    ∧    after (ch10 (F := F)) Y (Proc.devRef .tc main_arg17) = (m ((c.tc : Thread nD τ).loc main_arg17))
    ∧    after (ch10 (F := F)) Y (Proc.devRef .tc main_v122) = (Cert.ReferenceIdeal.ReadP.val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  simp only [ch10]
  after_results_simp
  rw [h_main_arg8, h_main_arg9, h_main_arg10, h_main_arg11, h_main_arg12, h_main_arg13, h_main_arg14, h_main_arg15, h_main_arg16, h_main_arg17, h_main_v108, h_main_v109]
  refine ⟨?_, ?_, ?_, ?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st11 (c : Dev nD) (Y : Valuation τ sig (Elt F))
    (h_main_arg10 : Y (Proc.devRef .tc main_arg10) = (m ((c.tc : Thread nD τ).loc main_arg10)))
    (h_main_arg11 : Y (Proc.devRef .tc main_arg11) = (m ((c.tc : Thread nD τ).loc main_arg11)))
    (h_main_arg12 : Y (Proc.devRef .tc main_arg12) = (m ((c.tc : Thread nD τ).loc main_arg12)))
    (h_main_arg13 : Y (Proc.devRef .tc main_arg13) = (m ((c.tc : Thread nD τ).loc main_arg13)))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v122 : Y (Proc.devRef .tc main_v122) = (Cert.ReferenceIdeal.ReadP.val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) :
    after (ch11 (F := F)) Y (Proc.devRef .tc main_arg14) = (m ((c.tc : Thread nD τ).loc main_arg14))
    ∧    after (ch11 (F := F)) Y (Proc.devRef .tc main_arg15) = (m ((c.tc : Thread nD τ).loc main_arg15))
    ∧    after (ch11 (F := F)) Y (Proc.devRef .tc main_arg16) = (m ((c.tc : Thread nD τ).loc main_arg16))
    ∧    after (ch11 (F := F)) Y (Proc.devRef .tc main_arg17) = (m ((c.tc : Thread nD τ).loc main_arg17))
    ∧    after (ch11 (F := F)) Y (Proc.devRef .tc main_v135) = (Cert.ReferenceIdeal.ReadP.val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
    ∧    after (ch11 (F := F)) Y (Proc.devRef .tc main_cst_41) = (Cert.ReferenceIdeal.ReadP.val_main_cst_41 (F := F)) := by
  simp only [ch11]
  after_results_simp
  rw [h_main_arg10, h_main_arg11, h_main_arg12, h_main_arg13, h_main_arg14, h_main_arg15, h_main_arg16, h_main_arg17, h_main_v122]
  refine ⟨?_, ?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st12 (c : Dev nD) (Y : Valuation τ sig (Elt F))
    (h_main_arg14 : Y (Proc.devRef .tc main_arg14) = (m ((c.tc : Thread nD τ).loc main_arg14)))
    (h_main_arg15 : Y (Proc.devRef .tc main_arg15) = (m ((c.tc : Thread nD τ).loc main_arg15)))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v135 : Y (Proc.devRef .tc main_v135) = (Cert.ReferenceIdeal.ReadP.val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
    (h_main_cst_41 : Y (Proc.devRef .tc main_cst_41) = (Cert.ReferenceIdeal.ReadP.val_main_cst_41 (F := F))) :
    after (ch12 (F := F)) Y (Proc.devRef .tc main_arg16) = (m ((c.tc : Thread nD τ).loc main_arg16))
    ∧    after (ch12 (F := F)) Y (Proc.devRef .tc main_arg17) = (m ((c.tc : Thread nD τ).loc main_arg17))
    ∧    after (ch12 (F := F)) Y (Proc.devRef .tc main_v144) = (Cert.ReferenceIdeal.ReadP.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    ∧    after (ch12 (F := F)) Y (Proc.devRef .tc main_v146) = (Cert.ReferenceIdeal.ReadP.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
    ∧    after (ch12 (F := F)) Y (Proc.devRef .tc main_v148) = (Cert.ReferenceIdeal.ReadP.val_main_v148 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) := by
  simp only [ch12]
  after_results_simp
  rw [h_main_arg14, h_main_arg15, h_main_arg16, h_main_arg17, h_main_v135, h_main_cst_41]
  refine ⟨?_, ?_, ?_, ?_, ?_⟩
  all_goals (try simp only [Idealize.ShloMosaic.StableHlo.TRef.toBuf, Idealize.ShloMosaic.StableHlo.TRef.ofBuf, cast_eq])
  all_goals rfl

set_option maxHeartbeats 1000000 in
theorem st13 (c : Dev nD) (Y : Valuation τ sig (Elt F))
    (h_main_arg16 : Y (Proc.devRef .tc main_arg16) = (m ((c.tc : Thread nD τ).loc main_arg16)))
    (h_main_arg17 : Y (Proc.devRef .tc main_arg17) = (m ((c.tc : Thread nD τ).loc main_arg17)))
    (h_main_v144 : Y (Proc.devRef .tc main_v144) = (Cert.ReferenceIdeal.ReadP.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))))
    (h_main_v146 : Y (Proc.devRef .tc main_v146) = (Cert.ReferenceIdeal.ReadP.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))))
    (h_main_v148 : Y (Proc.devRef .tc main_v148) = (Cert.ReferenceIdeal.ReadP.val_main_v148 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))) :
    after (ch13 (F := F)) Y (Proc.devRef .tc main_v153) = (Cert.ReferenceIdeal.ReadP.val_main_v153 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  simp only [ch13]
  after_results_simp
  rw [h_main_arg16, h_main_arg17, h_main_v144, h_main_v146, h_main_v148]
  all_goals (try simp only [Idealize.ShloMosaic.StableHlo.TRef.toBuf, Idealize.ShloMosaic.StableHlo.TRef.ofBuf, cast_eq])
  all_goals rfl

/-! ## The whole fold -/

/-- The operations folded over the launch contents leave the reference's last stage, a function of the eighteen
    arguments' launch contents, at the result buffer. -/
theorem ref_value (c : Dev nD) :
    after (Cert.ReferenceIdeal.ValueP.ops (F := F)) (launchContents m c) (Proc.devRef .tc main_v153) = (Cert.ReferenceIdeal.ReadP.val_main_v153 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  rw [ops_eq]
  simp only [Idealize.ShloMosaic.StableHlo.after_append]
  obtain ⟨e0_main_arg0, e0_main_arg1, e0_main_arg2, e0_main_arg3, e0_main_arg4, e0_main_arg5, e0_main_arg6, e0_main_arg7, e0_main_arg8, e0_main_arg9, e0_main_arg10, e0_main_arg11, e0_main_arg12, e0_main_arg13, e0_main_arg14, e0_main_arg15, e0_main_arg16, e0_main_arg17, e0_main_v6, e0_main_v7, e0_main_cst_4⟩ := st0 m c (launchContents m c) rfl rfl rfl rfl rfl rfl rfl rfl rfl rfl rfl rfl rfl rfl rfl rfl rfl rfl
  obtain ⟨e1_main_arg1, e1_main_arg2, e1_main_arg3, e1_main_arg4, e1_main_arg5, e1_main_arg6, e1_main_arg7, e1_main_arg8, e1_main_arg9, e1_main_arg10, e1_main_arg11, e1_main_arg12, e1_main_arg13, e1_main_arg14, e1_main_arg15, e1_main_arg16, e1_main_arg17, e1_main_v13, e1_main_v16, e1_main_v18⟩ := st1 m c (after (ch0 (F := F)) (launchContents m c)) e0_main_arg0 e0_main_arg1 e0_main_arg2 e0_main_arg3 e0_main_arg4 e0_main_arg5 e0_main_arg6 e0_main_arg7 e0_main_arg8 e0_main_arg9 e0_main_arg10 e0_main_arg11 e0_main_arg12 e0_main_arg13 e0_main_arg14 e0_main_arg15 e0_main_arg16 e0_main_arg17 e0_main_v6 e0_main_v7 e0_main_cst_4
  obtain ⟨e2_main_arg1, e2_main_arg2, e2_main_arg3, e2_main_arg6, e2_main_arg7, e2_main_arg8, e2_main_arg9, e2_main_arg10, e2_main_arg11, e2_main_arg12, e2_main_arg13, e2_main_arg14, e2_main_arg15, e2_main_arg16, e2_main_arg17, e2_main_v30, e2_main_v32⟩ := st2 m c (after (ch1 (F := F)) (after (ch0 (F := F)) (launchContents m c))) e1_main_arg1 e1_main_arg2 e1_main_arg3 e1_main_arg4 e1_main_arg5 e1_main_arg6 e1_main_arg7 e1_main_arg8 e1_main_arg9 e1_main_arg10 e1_main_arg11 e1_main_arg12 e1_main_arg13 e1_main_arg14 e1_main_arg15 e1_main_arg16 e1_main_arg17 e1_main_v13 e1_main_v16 e1_main_v18
  obtain ⟨e3_main_arg1, e3_main_arg2, e3_main_arg3, e3_main_arg6, e3_main_arg7, e3_main_arg8, e3_main_arg9, e3_main_arg10, e3_main_arg11, e3_main_arg12, e3_main_arg13, e3_main_arg14, e3_main_arg15, e3_main_arg16, e3_main_arg17, e3_main_v38, e3_main_v42, e3_main_call3_v0⟩ := st3 m c (after (ch2 (F := F)) (after (ch1 (F := F)) (after (ch0 (F := F)) (launchContents m c)))) e2_main_arg1 e2_main_arg2 e2_main_arg3 e2_main_arg6 e2_main_arg7 e2_main_arg8 e2_main_arg9 e2_main_arg10 e2_main_arg11 e2_main_arg12 e2_main_arg13 e2_main_arg14 e2_main_arg15 e2_main_arg16 e2_main_arg17 e2_main_v30 e2_main_v32
  obtain ⟨e4_main_arg1, e4_main_arg2, e4_main_arg3, e4_main_arg6, e4_main_arg7, e4_main_arg8, e4_main_arg9, e4_main_arg10, e4_main_arg11, e4_main_arg12, e4_main_arg13, e4_main_arg14, e4_main_arg15, e4_main_arg16, e4_main_arg17, e4_main_v38, e4_main_v45, e4_main_v50, e4_main_cst_18⟩ := st4 m c (after (ch3 (F := F)) (after (ch2 (F := F)) (after (ch1 (F := F)) (after (ch0 (F := F)) (launchContents m c))))) e3_main_arg1 e3_main_arg2 e3_main_arg3 e3_main_arg6 e3_main_arg7 e3_main_arg8 e3_main_arg9 e3_main_arg10 e3_main_arg11 e3_main_arg12 e3_main_arg13 e3_main_arg14 e3_main_arg15 e3_main_arg16 e3_main_arg17 e3_main_v38 e3_main_v42 e3_main_call3_v0
  obtain ⟨e5_main_arg1, e5_main_arg2, e5_main_arg3, e5_main_arg6, e5_main_arg7, e5_main_arg8, e5_main_arg9, e5_main_arg10, e5_main_arg11, e5_main_arg12, e5_main_arg13, e5_main_arg14, e5_main_arg15, e5_main_arg16, e5_main_arg17, e5_main_v52, e5_main_v62, e5_main_v63⟩ := st5 m c (after (ch4 (F := F)) (after (ch3 (F := F)) (after (ch2 (F := F)) (after (ch1 (F := F)) (after (ch0 (F := F)) (launchContents m c)))))) e4_main_arg1 e4_main_arg2 e4_main_arg3 e4_main_arg6 e4_main_arg7 e4_main_arg8 e4_main_arg9 e4_main_arg10 e4_main_arg11 e4_main_arg12 e4_main_arg13 e4_main_arg14 e4_main_arg15 e4_main_arg16 e4_main_arg17 e4_main_v38 e4_main_v45 e4_main_v50 e4_main_cst_18
  obtain ⟨e6_main_arg1, e6_main_arg2, e6_main_arg6, e6_main_arg7, e6_main_arg8, e6_main_arg9, e6_main_arg10, e6_main_arg11, e6_main_arg12, e6_main_arg13, e6_main_arg14, e6_main_arg15, e6_main_arg16, e6_main_arg17, e6_main_v74, e6_main_v75, e6_main_cst_25⟩ := st6 m c (after (ch5 (F := F)) (after (ch4 (F := F)) (after (ch3 (F := F)) (after (ch2 (F := F)) (after (ch1 (F := F)) (after (ch0 (F := F)) (launchContents m c))))))) e5_main_arg1 e5_main_arg2 e5_main_arg3 e5_main_arg6 e5_main_arg7 e5_main_arg8 e5_main_arg9 e5_main_arg10 e5_main_arg11 e5_main_arg12 e5_main_arg13 e5_main_arg14 e5_main_arg15 e5_main_arg16 e5_main_arg17 e5_main_v52 e5_main_v62 e5_main_v63
  obtain ⟨e7_main_arg1, e7_main_arg2, e7_main_arg6, e7_main_arg7, e7_main_arg8, e7_main_arg9, e7_main_arg10, e7_main_arg11, e7_main_arg12, e7_main_arg13, e7_main_arg14, e7_main_arg15, e7_main_arg16, e7_main_arg17, e7_main_v74, e7_main_v81, e7_main_v85⟩ := st7 m c (after (ch6 (F := F)) (after (ch5 (F := F)) (after (ch4 (F := F)) (after (ch3 (F := F)) (after (ch2 (F := F)) (after (ch1 (F := F)) (after (ch0 (F := F)) (launchContents m c)))))))) e6_main_arg1 e6_main_arg2 e6_main_arg6 e6_main_arg7 e6_main_arg8 e6_main_arg9 e6_main_arg10 e6_main_arg11 e6_main_arg12 e6_main_arg13 e6_main_arg14 e6_main_arg15 e6_main_arg16 e6_main_arg17 e6_main_v74 e6_main_v75 e6_main_cst_25
  obtain ⟨e8_main_arg1, e8_main_arg2, e8_main_arg7, e8_main_arg8, e8_main_arg9, e8_main_arg10, e8_main_arg11, e8_main_arg12, e8_main_arg13, e8_main_arg14, e8_main_arg15, e8_main_arg16, e8_main_arg17, e8_main_v88, e8_main_v92, e8_main_v94, e8_main_v95⟩ := st8 m c (after (ch7 (F := F)) (after (ch6 (F := F)) (after (ch5 (F := F)) (after (ch4 (F := F)) (after (ch3 (F := F)) (after (ch2 (F := F)) (after (ch1 (F := F)) (after (ch0 (F := F)) (launchContents m c))))))))) e7_main_arg1 e7_main_arg2 e7_main_arg6 e7_main_arg7 e7_main_arg8 e7_main_arg9 e7_main_arg10 e7_main_arg11 e7_main_arg12 e7_main_arg13 e7_main_arg14 e7_main_arg15 e7_main_arg16 e7_main_arg17 e7_main_v74 e7_main_v81 e7_main_v85
  obtain ⟨e9_main_arg8, e9_main_arg9, e9_main_arg10, e9_main_arg11, e9_main_arg12, e9_main_arg13, e9_main_arg14, e9_main_arg15, e9_main_arg16, e9_main_arg17, e9_main_v108, e9_main_v109⟩ := st9 m c (after (ch8 (F := F)) (after (ch7 (F := F)) (after (ch6 (F := F)) (after (ch5 (F := F)) (after (ch4 (F := F)) (after (ch3 (F := F)) (after (ch2 (F := F)) (after (ch1 (F := F)) (after (ch0 (F := F)) (launchContents m c)))))))))) e8_main_arg1 e8_main_arg2 e8_main_arg7 e8_main_arg8 e8_main_arg9 e8_main_arg10 e8_main_arg11 e8_main_arg12 e8_main_arg13 e8_main_arg14 e8_main_arg15 e8_main_arg16 e8_main_arg17 e8_main_v88 e8_main_v92 e8_main_v94 e8_main_v95
  obtain ⟨e10_main_arg10, e10_main_arg11, e10_main_arg12, e10_main_arg13, e10_main_arg14, e10_main_arg15, e10_main_arg16, e10_main_arg17, e10_main_v122⟩ := st10 m c (after (ch9 (F := F)) (after (ch8 (F := F)) (after (ch7 (F := F)) (after (ch6 (F := F)) (after (ch5 (F := F)) (after (ch4 (F := F)) (after (ch3 (F := F)) (after (ch2 (F := F)) (after (ch1 (F := F)) (after (ch0 (F := F)) (launchContents m c))))))))))) e9_main_arg8 e9_main_arg9 e9_main_arg10 e9_main_arg11 e9_main_arg12 e9_main_arg13 e9_main_arg14 e9_main_arg15 e9_main_arg16 e9_main_arg17 e9_main_v108 e9_main_v109
  obtain ⟨e11_main_arg14, e11_main_arg15, e11_main_arg16, e11_main_arg17, e11_main_v135, e11_main_cst_41⟩ := st11 m c (after (ch10 (F := F)) (after (ch9 (F := F)) (after (ch8 (F := F)) (after (ch7 (F := F)) (after (ch6 (F := F)) (after (ch5 (F := F)) (after (ch4 (F := F)) (after (ch3 (F := F)) (after (ch2 (F := F)) (after (ch1 (F := F)) (after (ch0 (F := F)) (launchContents m c)))))))))))) e10_main_arg10 e10_main_arg11 e10_main_arg12 e10_main_arg13 e10_main_arg14 e10_main_arg15 e10_main_arg16 e10_main_arg17 e10_main_v122
  obtain ⟨e12_main_arg16, e12_main_arg17, e12_main_v144, e12_main_v146, e12_main_v148⟩ := st12 m c (after (ch11 (F := F)) (after (ch10 (F := F)) (after (ch9 (F := F)) (after (ch8 (F := F)) (after (ch7 (F := F)) (after (ch6 (F := F)) (after (ch5 (F := F)) (after (ch4 (F := F)) (after (ch3 (F := F)) (after (ch2 (F := F)) (after (ch1 (F := F)) (after (ch0 (F := F)) (launchContents m c))))))))))))) e11_main_arg14 e11_main_arg15 e11_main_arg16 e11_main_arg17 e11_main_v135 e11_main_cst_41
  obtain e13_main_v153 := st13 m c (after (ch12 (F := F)) (after (ch11 (F := F)) (after (ch10 (F := F)) (after (ch9 (F := F)) (after (ch8 (F := F)) (after (ch7 (F := F)) (after (ch6 (F := F)) (after (ch5 (F := F)) (after (ch4 (F := F)) (after (ch3 (F := F)) (after (ch2 (F := F)) (after (ch1 (F := F)) (after (ch0 (F := F)) (launchContents m c)))))))))))))) e12_main_arg16 e12_main_arg17 e12_main_v144 e12_main_v146 e12_main_v148
  exact e13_main_v153

end Cert.RefValue

end
-- ==== Proof.lean ====
/-
  The certificate of a three-layer graph network whose second and third layers are fused into one accelerator kernel.

  The fused kernel streams the contraction axis (160000 columns of the second layer's weight, the matching rows of the
  third layer's) in 50 blocks of 3200 and keeps a 400×400 running total; the reference forms the 400×160000 intermediate
  and multiplies once. On the extended reals a change of float format is the identity and addition is associative and
  commutative, so the running total after the last block is the reference's product: no finiteness is used. Around the
  fused stage both programs apply the same host operations to the same arguments.

  The three frames: each kernel program runs to the end with its arguments unchanged (the body's run at a grid point, by
  position: first, middle, last; the host operations before and after the region write only their own results); the
  reference is a straight line of host operations. The ideal pass rewrote nothing, so its claim is trivial.
-/
import proofs.«109394_j8830452760601_1_alg».proof.Defs
import proofs.«109394_j8830452760601_1_alg».proof.Proof.Gen.Kernel
import proofs.«109394_j8830452760601_1_alg».proof.Proof.Gen.KernelIdeal
import proofs.«109394_j8830452760601_1_alg».proof.Proof.Gen.ReferenceIdeal
import proofs.«109394_j8830452760601_1_alg».proof.Proof.Gen.Pre_finite_inputs
import proofs.«109394_j8830452760601_1_alg».proof.Proof.KRun
import proofs.«109394_j8830452760601_1_alg».proof.Proof.KIRun
import proofs.«109394_j8830452760601_1_alg».proof.Proof.Bridge
import proofs.«109394_j8830452760601_1_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the same result: the kernel's is the shared tail applied to the region's output,
    the reference's the same tail applied to its middle stage, and the two middles are one array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Pipeline.afterTail₀ Cert.KernelIdeal.cfgs (Cert.KernelIdeal.Hand.dats m) 0 (Cert.KernelIdeal.Hand.V0 m)
    Cert.KernelIdeal.Hand.tailOps c Cert.KernelIdeal.main_v115, ?_, ?_⟩
  · exact (θ_run Cert.KernelIdeal.defs _ _).mono
      (fun r h c => ⟨Cert.KernelIdeal.Hand.result_of m (Cert.KernelIdeal.Hand.dats m) r h c,
        Cert.KernelIdeal.Hand.args_of m (Cert.KernelIdeal.Hand.dats m) (Cert.KernelIdeal.Hand.A_eq m) r h c⟩)
      (Cert.KernelIdeal.Hand.run_main m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17⟩ := hagree c
    rw [Cert.RefValue.ref_value m' c, h0, h1, h2, h3, h4, h5, h6, h7, h8, h9, h10, h11, h12, h13, h14, h15, h16, h17]
    exact (Cert.KernelIdeal.Hand.tail_eq m (Cert.KernelIdeal.Hand.dats m) (Cert.KernelIdeal.Hand.A_eq m) c
      (Cert.KernelIdeal.Hand.region_is_ref m c)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
